-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S4096x256 : Shape := ⟨2, ![4096, 256]⟩
abbrev S8192x4096 : Shape := ⟨2, ![8192, 4096]⟩
abbrev S256x256 : Shape := ⟨2, ![256, 256]⟩
abbrev S256 : Shape := ⟨1, ![256]⟩
abbrev S512x256 : Shape := ⟨2, ![512, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S8192x4096 : S_.BroadcastsInDim S8192x4096 (![] : Fin 0 → Fin S8192x4096.rank)
  reducesTo_S8192x4096_S_d0_1 : S8192x4096.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_

variable [Facts]

def fn_part3 {F : FTy → Type} [FloatOps F] (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  main_v53

def fn_part2 {F : FTy → Type} [FloatOps F] (main_arg7 : FVec F S512x256 .f32) (main_arg8 : FVec F S256 .f32) (main_arg9 : FVec F S512x256 .f32) (main_arg10 : FVec F S256 .f32) (main_v33 : IVec S_ 1) : IVec S_ 1 :=
  let main_v34 : FVec F S512x256 .f32 := Host.absf main_arg7
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S512x256 .f32 := Host.absf main_arg9
  let main_cst_16 : FVec F S_ .f32 := constant S_ .f32 0x7F800000#32
  let main_v45 : FVec F S512x256 .f32 := broadcastInDim S512x256 ![] bcast_S_S512x256 main_cst_16
  let main_v46 : IVec S512x256 1 := cmpf .olt main_v44 main_v45
  let main_c_17 : IVec S_ 1 := constantI S_ 1 1#1
  let main_v47 : IVec S_ 1 := (fun x v => Host.reduce IntOp.andi x v reducesTo_S512x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_v48 main_v49 main_v50

def fn_part1 {F : FTy → Type} [FloatOps F] (main_arg4 : FVec F S256 .f32) (main_arg5 : FVec F S256x256 .f32) (main_arg6 : FVec F S256 .f32) (main_arg7 : FVec F S512x256 .f32) (main_arg8 : FVec F S256 .f32) (main_arg9 : FVec F S512x256 .f32) (main_arg10 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x256 .f32) (main_arg1 : FVec F S4096x256 .f32) (main_arg2 : FVec F S8192x4096 .f32) (main_arg3 : FVec F S256x256 .f32) (main_arg4 : FVec F S256 .f32) (main_arg5 : FVec F S256x256 .f32) (main_arg6 : FVec F S256 .f32) (main_arg7 : FVec F S512x256 .f32) (main_arg8 : FVec F S256 .f32) (main_arg9 : FVec F S512x256 .f32) (main_arg10 : FVec F S256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S8192x4096 .f32 := Host.absf main_arg2
  let main_cst_2 : FVec F S_ .f32 := constant S_ .f32 0x7F800000#32
  let main_v10 : FVec F S8192x4096 .f32 := broadcastInDim S8192x4096 ![] bcast_S_S8192x4096 main_cst_2
  let main_v11 : IVec S8192x4096 1 := cmpf .olt main_v9 main_v10
  let main_c_3 : IVec S_ 1 := constantI S_ 1 1#1
  let main_v12 : IVec S_ 1 := (fun x v => Host.reduce IntOp.andi x v reducesTo_S8192x4096_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_v13 main_v16
-- ==== Kernel.lean ====
abbrev S8192x256 : Shape := ⟨2, ![8192, 256]⟩
abbrev S4096x256 : Shape := ⟨2, ![4096, 256]⟩
abbrev S8192x4096 : Shape := ⟨2, ![8192, 4096]⟩
abbrev S256x256 : Shape := ⟨2, ![256, 256]⟩
abbrev S256 : Shape := ⟨1, ![256]⟩
abbrev S512x256 : Shape := ⟨2, ![512, 256]⟩
abbrev S1x256 : Shape := ⟨2, ![1, 256]⟩
abbrev S1024x4096 : Shape := ⟨2, ![1024, 4096]⟩
abbrev S1024x256 : Shape := ⟨2, ![1024, 256]⟩
abbrev S256x4096 : Shape := ⟨2, ![256, 4096]⟩
abbrev S256x1024 : Shape := ⟨2, ![256, 1024]⟩

abbrev nBuf : Space → Nat
  | .hbm => 27
  | .vmem => 21
  | .smem => 0
  | _ => 0

abbrev bufTy : (tb : Table) → Fin (tcTables nBuf tb) → BufTy
  | .hbm, ⟨0, _⟩ => ⟨S8192x256, .f32⟩
  | .hbm, ⟨1, _⟩ => ⟨S4096x256, .f32⟩
  | .hbm, ⟨2, _⟩ => ⟨S8192x4096, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S512x256, .f32⟩
  | .hbm, ⟨8, _⟩ => ⟨S256, .f32⟩
  | .hbm, ⟨9, _⟩ => ⟨S512x256, .f32⟩
  | .hbm, ⟨10, _⟩ => ⟨S256, .f32⟩
  | .hbm, ⟨11, _⟩ => ⟨S256x256, .bf16⟩
  | .hbm, ⟨12, _⟩ => ⟨S256x256, .bf16⟩
  | .hbm, ⟨13, _⟩ => ⟨S256x256, .f32⟩
  | .hbm, ⟨14, _⟩ => ⟨S256x256, .bf16⟩
  | .hbm, ⟨15, _⟩ => ⟨S256x256, .f32⟩
  | .hbm, ⟨16, _⟩ => ⟨S256x256, .bf16⟩
  | .hbm, ⟨17, _⟩ => ⟨S256x256, .f32⟩
  | .hbm, ⟨18, _⟩ => ⟨S256x256, .bf16⟩
  | .hbm, ⟨19, _⟩ => ⟨S256x256, .f32⟩
  | .hbm, ⟨20, _⟩ => ⟨S256x256, .bf16⟩
  | .hbm, ⟨21, _⟩ => ⟨S1x256, .f32⟩
  | .hbm, ⟨22, _⟩ => ⟨S1x256, .f32⟩
  | .hbm, ⟨23, _⟩ => ⟨S1x256, .f32⟩
  | .hbm, ⟨24, _⟩ => ⟨S1x256, .f32⟩
  | .hbm, ⟨25, _⟩ => ⟨S8192x256, .f32⟩
  | .hbm, ⟨26, _⟩ => ⟨S4096x256, .f32⟩
  | .local _ .vmem, ⟨0, _⟩ => ⟨S1024x4096, .f32⟩
  | .local _ .vmem, ⟨1, _⟩ => ⟨S1024x4096, .f32⟩
  | .local _ .vmem, ⟨2, _⟩ => ⟨S1024x256, .f32⟩
  | .local _ .vmem, ⟨3, _⟩ => ⟨S1024x256, .f32⟩
  | .local _ .vmem, ⟨4, _⟩ => ⟨S4096x256, .f32⟩
  | .local _ .vmem, ⟨5, _⟩ => ⟨S256x256, .bf16⟩
  | .local _ .vmem, ⟨6, _⟩ => ⟨S1x256, .f32⟩
  | .local _ .vmem, ⟨7, _⟩ => ⟨S256x256, .bf16⟩
  | .local _ .vmem, ⟨8, _⟩ => ⟨S1x256, .f32⟩
  | .local _ .vmem, ⟨9, _⟩ => ⟨S256x256, .bf16⟩
  | .local _ .vmem, ⟨10, _⟩ => ⟨S256x256, .bf16⟩
  | .local _ .vmem, ⟨11, _⟩ => ⟨S1x256, .f32⟩
  | .local _ .vmem, ⟨12, _⟩ => ⟨S256x256, .bf16⟩
  | .local _ .vmem, ⟨13, _⟩ => ⟨S256x256, .bf16⟩
  | .local _ .vmem, ⟨14, _⟩ => ⟨S1x256, .f32⟩
  | .local _ .vmem, ⟨15, _⟩ => ⟨S1024x256, .f32⟩
  | .local _ .vmem, ⟨16, _⟩ => ⟨S1024x256, .f32⟩
  | .local _ .vmem, ⟨17, _⟩ => ⟨S4096x256, .f32⟩
  | .local _ .vmem, ⟨18, _⟩ => ⟨S4096x256, .bf16⟩
  | .local _ .vmem, ⟨19, _⟩ => ⟨S256x4096, .f32⟩
  | .local _ .vmem, ⟨20, _⟩ => ⟨S4096x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v42 : BitVec 1 := Scalar.cmpi .eq arg0 c7_i32
  let v43 : BitVec 32 := Scalar.extui v42
  let c0_i32_28 : BitVec 32 := 0#32
  let v44 : BitVec 1 := Scalar.cmpi .ne v43 c0_i32_28
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S4096x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

class Facts₀ : Prop where
  bitsLt_bf16_f32 : FTy.bits .bf16 < FTy.bits .f32
  slices_S512x256_S256x256_0_0 : S512x256.Slices ![0, 0] S256x256
  slices_S512x256_S256x256_256_0 : S512x256.Slices ![256, 0] S256x256
  shapeCasts_S256_S1x256 : S256.ShapeCasts S1x256
  inb_S4096x256_S4096x256_0_0 : ∀ a, (![0, 0] : Fin 2 → Nat) a + S4096x256.size a ≤ S4096x256.size a
  h_S4096x256 : 0 < S4096x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  shapeCasts_S4096x256_S4096x256 : S4096x256.ShapeCasts S4096x256
  packedbf16_S4096x256_S4096x256_0_0 : (Rect.unit (s := S4096x256) ![0, 0] S4096x256.size inb_S4096x256_S4096x256_0_0).PackedRows (EltTy.packing .bf16)
  inb_S1024x256_S1024x256_0_0 : ∀ a, (![0, 0] : Fin 2 → Nat) a + S1024x256.size a ≤ S1024x256.size a
  h_S1024x256 : 0 < S1024x256.numel
  broadcasts_S1x256_S1024x256 : S1x256.Broadcasts S1024x256
  transposes_S1024x256_p1_0_S256x1024 : S1024x256.Transposes [1, 0] S256x1024
  inb_S1024x4096_S1024x4096_0_0 : ∀ a, (![0, 0] : Fin 2 → Nat) a + S1024x4096.size a ≤ S1024x4096.size a
  h_S1024x4096 : 0 < S1024x4096.numel
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S256x4096_S256x1024_0_0 : ∀ a, (![0, 0] : Fin 2 → Nat) a + S256x1024.size a ≤ S256x4096.size a
  h_S256x1024 : 0 < S256x1024.numel
  transposes_S256x1024_p1_0_S1024x256 : S256x1024.Transposes [1, 0] S1024x256
  inb_S4096x256_S1024x256_0_0 : ∀ a, (![0, 0] : Fin 2 → Nat) a + S1024x256.size a ≤ S4096x256.size a
  inb_S256x4096_S256x1024_0_1024 : ∀ a, (![0, 1024] : Fin 2 → Nat) a + S256x1024.size a ≤ S256x4096.size a
  inb_S4096x256_S1024x256_1024_0 : ∀ a, (![1024, 0] : Fin 2 → Nat) a + S1024x256.size a ≤ S4096x256.size a
  inb_S256x4096_S256x1024_0_2048 : ∀ a, (![0, 2048] : Fin 2 → Nat) a + S256x1024.size a ≤ S256x4096.size a
  inb_S4096x256_S1024x256_2048_0 : ∀ a, (![2048, 0] : Fin 2 → Nat) a + S1024x256.size a ≤ S4096x256.size a
  inb_S256x4096_S256x1024_0_3072 : ∀ a, (![0, 3072] : Fin 2 → Nat) a + S256x1024.size a ≤ S256x4096.size a
  inb_S4096x256_S1024x256_3072_0 : ∀ a, (![3072, 0] : Fin 2 → Nat) a + S1024x256.size a ≤ S4096x256.size a
  dot_S4096x256_S256x256_S4096x256_1_0_0_1_n_n_wf : DotDims.WF S4096x256 S256x256 S4096x256 [1] [0] [0] [1] [] []
  dot_S1024x256_S256x256_S1024x256_1_0_0_1_n_n_wf : DotDims.WF S1024x256 S256x256 S1024x256 [1] [0] [0] [1] [] []
  dot_S256x1024_S1024x4096_S256x4096_1_0_0_1_n_n_wf : DotDims.WF S256x1024 S1024x4096 S256x4096 [1] [0] [0] [1] [] []
  dot_S1024x4096_S4096x256_S1024x256_1_0_0_1_n_n_wf : DotDims.WF S1024x4096 S4096x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .f32 = 32 ∨ (Rect.block (s := S8192x4096) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S4096x256.size a
  hwx0_2 : ∀ i : grid0.Coords, EltTy.bits .f32 = 32 ∨ (Rect.block (s := S4096x256) S4096x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .bf16 = 32 ∨ (Rect.block (s := S256x256) S256x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .bf16 = 32 ∨ (Rect.block (s := S256x256) S256x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S256x256.size a
  hwx0_10 : ∀ i : grid0.Coords, EltTy.bits .bf16 = 32 ∨ (Rect.block (s := S256x256) S256x256.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S256x256.size a
  hwx0_11 : ∀ i : grid0.Coords, EltTy.bits .bf16 = 32 ∨ (Rect.block (s := S256x256) S256x256.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1024x256.size a ≤ S8192x256.size a
  hwx0_13 : ∀ i : grid0.Coords, EltTy.bits .f32 = 32 ∨ (Rect.block (s := S8192x256) S1024x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S4096x256.size a ≤ S4096x256.size a
  hwx0_14 : ∀ i : grid0.Coords, EltTy.bits .f32 = 32 ∨ (Rect.block (s := S4096x256) S4096x256.size (cc0_transform_14 i) (hinb0_14 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S1024x4096_S4096x256_S1024x256_1_0_0_1_n_n : DotDims S1024x4096 S4096x256 S1024x256 where
  lhsContracting := [1]
  rhsContracting := [0]
  lhsNonContracting := [0]
  rhsNonContracting := [1]
  lhsBatch := []
  rhsBatch := []
  wf := dot_S1024x4096_S4096x256_S1024x256_1_0_0_1_n_n_wf

abbrev win0_0 : Pipeline.Window sig grid0 :=
  Pipeline.Window.ofSpec (Memref.whole main_arg2) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4096x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S256x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9) S256x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v13) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v14_0) S1024x256.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v14_1) S4096x256.size cc0_transform_14 reads0_14 true true 1 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev idle0 : Fin 15 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun i => !(k0_cond2 i == 1#1) | ⟨_ + 15, h⟩ => absurd h (Nat.not_lt.2 (Nat.le_add_left _ _))

class Facts : Prop extends Facts₀ where

variable [Facts]
-- ==== ReferenceIdeal.lean ====
abbrev S8192x256 : Shape := ⟨2, ![8192, 256]⟩
abbrev S4096x256 : Shape := ⟨2, ![4096, 256]⟩
abbrev S8192x4096 : Shape := ⟨2, ![8192, 4096]⟩
abbrev S256x256 : Shape := ⟨2, ![256, 256]⟩
abbrev S256 : Shape := ⟨1, ![256]⟩
abbrev S512x256 : Shape := ⟨2, ![512, 256]⟩
abbrev S1x256 : Shape := ⟨2, ![1, 256]⟩
abbrev S_ : Shape := ⟨0, ![]⟩
abbrev S4096x8192 : Shape := ⟨2, ![4096, 8192]⟩
abbrev S8192x512 : Shape := ⟨2, ![8192, 512]⟩
abbrev S4096x512 : Shape := ⟨2, ![4096, 512]⟩

abbrev nBuf : Space → Nat
  | .hbm => 44
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S4096x256, .f32⟩
  | .hbm, ⟨2, _⟩ => ⟨S8192x4096, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S512x256, .f32⟩
  | .hbm, ⟨8, _⟩ => ⟨S256, .f32⟩
  | .hbm, ⟨9, _⟩ => ⟨S512x256, .f32⟩
  | .hbm, ⟨10, _⟩ => ⟨S256, .f32⟩
  | .hbm, ⟨11, _⟩ => ⟨S8192x256, .f32⟩
  | .hbm, ⟨12, _⟩ => ⟨S1x256, .f32⟩
  | .hbm, ⟨13, _⟩ => ⟨S8192x256, .f32⟩
  | .hbm, ⟨14, _⟩ => ⟨S8192x256, .f32⟩
  | .hbm, ⟨15, _⟩ => ⟨S_, .f32⟩
  | .hbm, ⟨16, _⟩ => ⟨S8192x256, .f32⟩
  | .hbm, ⟨17, _⟩ => ⟨S8192x256, .f32⟩
  | .hbm, ⟨18, _⟩ => ⟨S4096x256, .f32⟩
  | .hbm, ⟨19, _⟩ => ⟨S1x256, .f32⟩
  | .hbm, ⟨20, _⟩ => ⟨S4096x256, .f32⟩
  | .hbm, ⟨21, _⟩ => ⟨S4096x256, .f32⟩
  | .hbm, ⟨22, _⟩ => ⟨S_, .f32⟩
  | .hbm, ⟨23, _⟩ => ⟨S4096x256, .f32⟩
  | .hbm, ⟨24, _⟩ => ⟨S4096x256, .f32⟩
  | .hbm, ⟨25, _⟩ => ⟨S8192x256, .f32⟩
  | .hbm, ⟨26, _⟩ => ⟨S4096x8192, .f32⟩
  | .hbm, ⟨27, _⟩ => ⟨S4096x256, .f32⟩
  | .hbm, ⟨28, _⟩ => ⟨S8192x512, .f32⟩
  | .hbm, ⟨29, _⟩ => ⟨S8192x256, .f32⟩
  | .hbm, ⟨30, _⟩ => ⟨S1x256, .f32⟩
  | .hbm, ⟨31, _⟩ => ⟨S8192x256, .f32⟩
  | .hbm, ⟨32, _⟩ => ⟨S8192x256, .f32⟩
  | .hbm, ⟨33, _⟩ => ⟨S_, .f32⟩
  | .hbm, ⟨34, _⟩ => ⟨S8192x256, .f32⟩
  | .hbm, ⟨35, _⟩ => ⟨S8192x256, .f32⟩
  | .hbm, ⟨36, _⟩ => ⟨S4096x512, .f32⟩
  | .hbm, ⟨37, _⟩ => ⟨S4096x256, .f32⟩
  | .hbm, ⟨38, _⟩ => ⟨S1x256, .f32⟩
  | .hbm, ⟨39, _⟩ => ⟨S4096x256, .f32⟩
  | .hbm, ⟨40, _⟩ => ⟨S4096x256, .f32⟩
  | .hbm, ⟨41, _⟩ => ⟨S_, .f32⟩
  | .hbm, ⟨42, _⟩ => ⟨S4096x256, .f32⟩
  | .hbm, ⟨43, _⟩ => ⟨S4096x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_cst : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_call1_cst : Ref sig .tc := ⟨.hbm, 22, rfl⟩
abbrev main_call1_v0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_call2_cst : Ref sig .tc := ⟨.hbm, 33, rfl⟩
abbrev main_call2_v0 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_call3_cst : Ref sig .tc := ⟨.hbm, 41, rfl⟩
abbrev main_call3_v0 : Ref sig .tc := ⟨.hbm, 42, rfl⟩
abbrev main_v24 : Ref sig .tc := ⟨.hbm, 43, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  transposes_S8192x4096_S4096x8192_1_0 : S8192x4096.Transposes [1, 0] S4096x8192
  concatenates_S8192x256_S8192x256_S8192x512_d1 : Shape.Concatenates [S8192x256, S8192x256] S8192x512 1
  concatenates_S4096x256_S4096x256_S4096x512_d1 : Shape.Concatenates [S4096x256, S4096x256] S4096x512 1
  dot_S8192x256_S256x256_S8192x256_1_0_0_1_n_n_wf : DotDims.WF S8192x256 S256x256 S8192x256 [1] [0] [0] [1] [] []
  dot_S4096x256_S256x256_S4096x256_1_0_0_1_n_n_wf : DotDims.WF S4096x256 S256x256 S4096x256 [1] [0] [0] [1] [] []
  dot_S8192x4096_S4096x256_S8192x256_1_0_0_1_n_n_wf : DotDims.WF S8192x4096 S4096x256 S8192x256 [1] [0] [0] [1] [] []
  dot_S4096x8192_S8192x256_S4096x256_1_0_0_1_n_n_wf : DotDims.WF S4096x8192 S8192x256 S4096x256 [1] [0] [0] [1] [] []
  dot_S8192x512_S512x256_S8192x256_1_0_0_1_n_n_wf : DotDims.WF S8192x512 S512x256 S8192x256 [1] [0] [0] [1] [] []
  dot_S4096x512_S512x256_S4096x256_1_0_0_1_n_n_wf : DotDims.WF S4096x512 S512x256 S4096x256 [1] [0] [0] [1] [] []

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S8192x4096_S4096x256_S8192x256_1_0_0_1_n_n : DotDims S8192x4096 S4096x256 S8192x256 where
  lhsContracting := [1]
  rhsContracting := [0]
  lhsNonContracting := [0]
  rhsNonContracting := [1]
  lhsBatch := []
  rhsBatch := []
  wf := dot_S8192x4096_S4096x256_S8192x256_1_0_0_1_n_n_wf
def dot_S4096x8192_S8192x256_S4096x256_1_0_0_1_n_n : DotDims S4096x8192 S8192x256 S4096x256 where
  lhsContracting := [1]
  rhsContracting := [0]
  lhsNonContracting := [0]
  rhsNonContracting := [1]
  lhsBatch := []
  rhsBatch := []
  wf := dot_S4096x8192_S8192x256_S4096x256_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf

class Facts : Prop extends Facts₀ where

variable [Facts]
-- ==== Proof.Kernel.Shared.lean ====
/-
  What the three runs of the kernel body share. The body is called at eight grid points; two conditions on the
  point decide its control: "first" (the point is 0: the graph-side pre-layer is computed into the resident scratch
  and the accumulator is started) and "last" (the point is 7: the graph-side output is computed from the finished
  accumulator). Stated here: the two conditions in closed form, where the graph-side output window is idle, the
  staging and scratch memrefs by name, and the region invariant with the three scratch buffers named.
-/
import proofs.«172826_g87900800680619_cont_9to1_m_379_30_alg».proof.Proof.Gen.Kernel.Frame
import proofs.«172826_g87900800680619_cont_9to1_m_379_30_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions -/

/-- "First": the body's first conditional, from the grid coordinate (the skeleton's scalar chain substituted). -/
abbrev condFirst (i : grid0.Coords) : Prop :=
  (Scalar.cmpi .ne (Scalar.extui (Scalar.cmpi .eq (BitVec.ofNat 32 (i 0).val) 0#32)) 0#32) = 1#1
/-- It holds at point 0 only. -/
theorem hcondFirst : ∀ t : Fin cfg0.N, condFirst (grid0.coords t) ↔ t.val = 0 :=
  (by decide +kernel : ∀ t : Fin grid0.N, condFirst (grid0.coords t) ↔ t.val = 0)

/-- "Last": the body's second conditional. -/
abbrev condLast (i : grid0.Coords) : Prop := k0_cond2 i = 1#1
/-- It holds at point 7 only. -/
theorem hcondLast : ∀ t : Fin cfg0.N, condLast (grid0.coords t) ↔ t.val = 7 :=
  (by decide +kernel : ∀ t : Fin grid0.N, condLast (grid0.coords t) ↔ t.val = 7)

/-- The word the accumulator's select tests is one exactly at the first point. -/
theorem selFirst : ∀ t : Fin cfg0.N, Scalar.cmpi .eq (BitVec.ofNat 32 ((grid0.coords t) 0).val) 0#32 = 1#1 ↔ t.val = 0 :=
  (by decide +kernel : ∀ t : Fin grid0.N, Scalar.cmpi .eq (BitVec.ofNat 32 ((grid0.coords t) 0).val) 0#32 = 1#1 ↔ t.val = 0)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
theorem live8 : ∀ t : Fin cfg0.N, cfg0.idle 8 (grid0.coords t) = false := by decide +kernel
theorem live9 : ∀ t : Fin cfg0.N, cfg0.idle 9 (grid0.coords t) = false := by decide +kernel
theorem live10 : ∀ t : Fin cfg0.N, cfg0.idle 10 (grid0.coords t) = false := by decide +kernel
theorem live11 : ∀ t : Fin cfg0.N, cfg0.idle 11 (grid0.coords t) = false := by decide +kernel
theorem live12 : ∀ t : Fin cfg0.N, cfg0.idle 12 (grid0.coords t) = false := by decide +kernel
theorem live13 : ∀ t : Fin cfg0.N, cfg0.idle 13 (grid0.coords t) = false := by decide +kernel
/-- Away from the last point the graph-side output window is idle and is not written back. -/
theorem idle14 : ∀ t : Fin cfg0.N, ¬condLast (grid0.coords t) → cfg0.idle 14 (grid0.coords t) = true := by decide +kernel
theorem noFlush14 : ∀ t : Fin cfg0.N, ¬condLast (grid0.coords t) → (cfg0.win 14).flush t = false := by decide +kernel
theorem live14 : ∀ t : Fin cfg0.N, condLast (grid0.coords t) → cfg0.idle 14 (grid0.coords t) = false := by decide +kernel

/-! ## The memrefs the body is called with -/

abbrev ms0 (t : Fin cfg0.N) : Memref sig .tc .vmem S1024x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x256 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x256 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S256x256 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S256x256 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x256 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S256x256 .bf16 := win0_10.stage (cfg0.slots t 10)
abbrev hs10 (t : Fin cfg0.N) : (ms10 t).IsWhole := hstage0_10 ((cfg0.slots t 10).cast nbuf0_10)
abbrev ms11 (t : Fin cfg0.N) : Memref sig .tc .vmem S256x256 .bf16 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x256 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S1024x256 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S4096x256 .f32 := win0_14.stage (cfg0.slots t 14)
abbrev hs14 (t : Fin cfg0.N) : (ms14 t).IsWhole := hstage0_14 ((cfg0.slots t 14).cast nbuf0_14)
/-- The three scratch operands: the graph-side pre-layer, the transposed message accumulator, the graph-side skip half. -/
abbrev scPre : Memref sig .tc .vmem S4096x256 .bf16 := Memref.whole cc0_scratch0
abbrev scAcc : Memref sig .tc .vmem S256x4096 .f32 := Memref.whole cc0_scratch1
abbrev scSkip : Memref sig .tc .vmem S4096x256 .f32 := Memref.whole cc0_scratch2
/-- Views through which buffer contents are stated (the choice of buffer does not matter under a cover). -/
abbrev VPre : View sig .tc .vmem S4096x256 .bf16 := scPre.view
abbrev VAcc : View sig .tc .vmem S256x4096 .f32 := scAcc.view
abbrev VSkip : View sig .tc .vmem S4096x256 .f32 := scSkip.view
abbrev VXs : View sig .tc .vmem S1024x256 .f32 := (Memref.whole cc0_stg13_0 : Memref sig .tc .vmem S1024x256 .f32).view
abbrev VXg : View sig .tc .vmem S4096x256 .f32 := (Memref.whole cc0_stg14_0 : Memref sig .tc .vmem S4096x256 .f32).view

/-- The region invariant of the class with the scratch operands as memrefs owned at some contents. -/
theorem PhiA_eq (c : Dev nD) :
    (Pipeline.ΦA spec0 c : sProp 𝕄)
      = iprop(iprop((∃ d, owns (c : Thread nD τ) scPre fullShare d) ∗ (∃ d, owns (c : Thread nD τ) scAcc fullShare d) ∗ (∃ d, owns (c : Thread nD τ) scSkip fullShare d)) ∗ (∃ r, prngReg c r)) := by
  unfold Pipeline.ΦA; rw [scopedRest0_eq]; simp only [scPre, scAcc, scSkip, owns_whole]; try rfl

end Cert.Kernel.Body

end
-- ==== Proof.Kernel.RunMid.lean ====
/-
  The kernel body at a middle grid point (neither first nor last): the surface-side strip is computed and stored whole
  into its output buffer, the strip's transposed messages are added to the accumulator, and nothing else is written.
-/
import proofs.«172826_g87900800680619_cont_9to1_m_379_30_alg».proof.Proof.Kernel.Shared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle point, on whole memrefs: the inputs at their contents, the surface-side output at anything, the idle graph-side output at contents handed back untouched, the three scratch buffers at the contents the point before left; it runs to the continuation with the surface-side output and the accumulator each holding the pieces the run finds, everything else as it was. -/
noncomputable def runMid (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : ¬condFirst i) (hc1 : ¬condLast i)
    (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sPre : Vec F S4096x256 .bf16) (sAcc : Vec F S256x4096 .f32) (sSkip : Vec F S4096x256 .f32) :
    Σ' (LXs : List (View.Piece (Elt F) S1024x256 .f32)), { LAcc : List (View.Piece (Elt F) S256x4096 .f32) //
      ∀ (xi14 : Vec F S4096x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ owns (c : Thread nD τ) arg15 fullShare xi14 ∗ owns (c : Thread nD τ) arg16 fullShare sPre ∗ owns (c : Thread nD τ) arg17 fullShare sAcc ∗ owns (c : Thread nD τ) arg18 fullShare sSkip
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f LXs) ∗ owns (c : Thread nD τ) arg15 fullShare xi14 ∗ owns (c : Thread nD τ) arg16 fullShare sPre ∗ (∃ f, arg17.view.loc (c : Thread nD τ) ↦[arg17.view.set]{fullShare} arg17.view.writes (Elt F) f LAcc) ∗ owns (c : Thread nD τ) arg18 fullShare sSkip) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, fun xi14 E K => ?run⟩
  case run =>
    simp only [cc0__body_eq_skeleton]; unfold cc0__body_skel
    simp only [k0_part1_eq_skeleton, k0_part2_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%f16, %hf16, H16⟩, ⟨%f17, %hf17, H17⟩, ⟨%f18, %hf18, H18⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg15.eq_unread hf15; obtain rfl := harg16.eq_unread hf16; obtain rfl := harg17.eq_unread hf17; obtain rfl := harg18.eq_unread hf18
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]; · iexists _; iexact H14
    isplitl [H15]
    · iexists _; isplitr; · ipureintro; exact harg15.read_unread _
      iexact H15
    isplitl [H16]
    · iexists _; isplitr; · ipureintro; exact harg16.read_unread _
      iexact H16
    isplitl [H17]; · iexists _; iexact H17
    iexists _; isplitr; · ipureintro; exact harg18.read_unread _
    iexact H18

end Cert.Kernel.Body

end
-- ==== Proof.Kernel.RunFirst.lean ====
/-
  The kernel body at the first grid point: the graph-side pre-layer and its skip half are computed and stored whole into
  their scratch buffers, the surface-side strip is computed and stored, and the accumulator is STARTED at the strip's
  transposed messages — the body reads the accumulator's old contents, adds, and then selects the fresh term, so what
  it stores does not depend on what the scratch held.
-/
import proofs.«172826_g87900800680619_cont_9to1_m_379_30_alg».proof.Proof.Kernel.RunMid

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first point, on whole memrefs: the inputs at their contents, the surface-side output and two of the scratch buffers at anything, the accumulator at any given contents, the idle graph-side output handed back untouched; it runs to the continuation with the surface-side output and all three scratch buffers holding the pieces the run finds. -/
noncomputable def runFirst (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : condFirst i) (hc1 : ¬condLast i)
    (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sAcc : Vec F S256x4096 .f32) :
    Σ' (LXs : List (View.Piece (Elt F) S1024x256 .f32)), Σ' (LPre : List (View.Piece (Elt F) S4096x256 .bf16)), Σ' (LAcc : List (View.Piece (Elt F) S256x4096 .f32)), { LSkip : List (View.Piece (Elt F) S4096x256 .f32) //
      ∀ (xi14 : Vec F S4096x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ owns (c : Thread nD τ) arg15 fullShare xi14 ∗ (∃ d, owns (c : Thread nD τ) arg16 fullShare d) ∗ owns (c : Thread nD τ) arg17 fullShare sAcc ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f LXs) ∗ owns (c : Thread nD τ) arg15 fullShare xi14 ∗ (∃ f, arg16.view.loc (c : Thread nD τ) ↦[arg16.view.set]{fullShare} arg16.view.writes (Elt F) f LPre) ∗ (∃ f, arg17.view.loc (c : Thread nD τ) ↦[arg17.view.set]{fullShare} arg17.view.writes (Elt F) f LAcc) ∗ (∃ f, arg18.view.loc (c : Thread nD τ) ↦[arg18.view.set]{fullShare} arg18.view.writes (Elt F) f LSkip)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, fun xi14 E K => ?run⟩
  case run =>
    simp only [cc0__body_eq_skeleton]; unfold cc0__body_skel
    simp only [k0_part1_eq_skeleton, k0_part2_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%d16, %f16, -, H16⟩, ⟨%f17, %hf17, H17⟩, ⟨%d18, %f18, -, H18⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg15.eq_unread hf15; obtain rfl := harg17.eq_unread hf17
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]; · iexists _; iexact H14
    isplitl [H15]
    · iexists _; isplitr; · ipureintro; exact harg15.read_unread _
      iexact H15
    isplitl [H16]; · iexists _; iexact H16
    isplitl [H17]; · iexists _; iexact H17
    iexists _; iexact H18

end Cert.Kernel.Body

end
-- ==== Proof.Kernel.RunLast.lean ====
/-
  The kernel body at the last grid point: as at a middle point, and then the graph-side output is computed from the
  finished accumulator, 1024 rows at a time, into its output buffer.
-/
import proofs.«172826_g87900800680619_cont_9to1_m_379_30_alg».proof.Proof.Kernel.RunFirst

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last point, on whole memrefs: the inputs at their contents, both outputs at anything, the three scratch buffers at the contents the point before left; it runs to the continuation with both outputs and the accumulator holding the pieces the run finds. -/
noncomputable def runLast (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : ¬condFirst i) (hc1 : condLast i)
    (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sPre : Vec F S4096x256 .bf16) (sAcc : Vec F S256x4096 .f32) (sSkip : Vec F S4096x256 .f32) :
    Σ' (LXs : List (View.Piece (Elt F) S1024x256 .f32)), Σ' (LXg : List (View.Piece (Elt F) S4096x256 .f32)), { LAcc : List (View.Piece (Elt F) S256x4096 .f32) //
      ∀  (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ owns (c : Thread nD τ) arg16 fullShare sPre ∗ owns (c : Thread nD τ) arg17 fullShare sAcc ∗ owns (c : Thread nD τ) arg18 fullShare sSkip
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f LXs) ∗ (∃ f, arg15.view.loc (c : Thread nD τ) ↦[arg15.view.set]{fullShare} arg15.view.writes (Elt F) f LXg) ∗ owns (c : Thread nD τ) arg16 fullShare sPre ∗ (∃ f, arg17.view.loc (c : Thread nD τ) ↦[arg17.view.set]{fullShare} arg17.view.writes (Elt F) f LAcc) ∗ owns (c : Thread nD τ) arg18 fullShare sSkip) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, fun  E K => ?run⟩
  case run =>
    simp only [cc0__body_eq_skeleton]; unfold cc0__body_skel
    simp only [k0_part1_eq_skeleton, k0_part2_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%f16, %hf16, H16⟩, ⟨%f17, %hf17, H17⟩, ⟨%f18, %hf18, H18⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg16.eq_unread hf16; obtain rfl := harg17.eq_unread hf17; obtain rfl := harg18.eq_unread hf18
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]; · iexists _; iexact H14
    isplitl [H15]; · iexists _; iexact H15
    isplitl [H16]
    · iexists _; isplitr; · ipureintro; exact harg16.read_unread _
      iexact H16
    isplitl [H17]; · iexists _; iexact H17
    iexists _; isplitr; · ipureintro; exact harg18.read_unread _
    iexact H18

end Cert.Kernel.Body

end
-- ==== Proof.Kernel.Pieces.lean ====
/-
  What each run leaves in the buffers it stores into, read back, and — for every buffer stored by ONE whole-buffer store —
  that this is the store's payload over the contents the body loaded: the body's arithmetic as one pure term of the input
  blocks and of what the scratch buffers held.
-/
import proofs.«172826_g87900800680619_cont_9to1_m_379_30_alg».proof.Proof.Kernel.RunLast
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → ℕ) = fun _ => 0 := by funext a; fin_cases a <;> rfl

/-- What the first-point run leaves in the `xs` buffer: its pieces read back over junk. -/
def xsFirst (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : condFirst i) (hc1 : ¬condLast i) (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sAcc : Vec F S256x4096 .f32) : Vec F S1024x256 .f32 :=
  VXs.read (Elt F) (VXs.writes (Elt F) VXs.junk (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sAcc).1)
/-- Those pieces tile the buffer. -/
theorem cover_xsFirst (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : condFirst i) (hc1 : ¬condLast i) (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sAcc : Vec F S256x4096 .f32) (y : S1024x256.Idx) :
    ∃ pc ∈ (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sAcc).1, y ∈ pc.1.set :=
  View.cover_of_tiledL (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sAcc).1 S1024x256.size (by sl_kernel_rfl) y
/-- One whole-buffer store: the buffer holds its payload. -/
theorem xsFirst_eq (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : condFirst i) (hc1 : ¬condLast i) (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sAcc : Vec F S256x4096 .f32) :
    xsFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sAcc = k0_pay1 (k0_pay13 x1 x3 x4 x7) (k0_pay14 x0 (k0_pay8 x2 x5 x6)) x8 x9 := by
  unfold xsFirst
  rw [View.read_writes_eq_canon _ _ _ (cover_xsFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sAcc)]
  unfold runFirst
  dsimp only
  try sl_unfold_words
  rw [View.canon_unit_zero hz2]
  simp only [View.readAt_eq_ld, Memref.IsWhole.read_unread, View.ld_unit_zero (S := S1024x4096) hz2, View.ld_unit_zero (S := S1024x256) hz2, View.ld_unit_zero (S := S4096x256) hz2, View.ld_unit_zero (S := S256x256) hz2, View.ld_unit_zero (S := S1x256) hz2, View.ld_unit_zero (S := S256x4096) hz2, View.readCov_unit_zero (S := S4096x256) _ hz2]

/-- What the first-point run leaves in the `pre` buffer: its pieces read back over junk. -/
def preFirst (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : condFirst i) (hc1 : ¬condLast i) (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sAcc : Vec F S256x4096 .f32) : Vec F S4096x256 .bf16 :=
  VPre.read (Elt F) (VPre.writes (Elt F) VPre.junk (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sAcc).2.1)
/-- Those pieces tile the buffer. -/
theorem cover_preFirst (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : condFirst i) (hc1 : ¬condLast i) (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sAcc : Vec F S256x4096 .f32) (y : S4096x256.Idx) :
    ∃ pc ∈ (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sAcc).2.1, y ∈ pc.1.set :=
  View.cover_of_tiledL (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sAcc).2.1 S4096x256.size (by sl_kernel_rfl) y
/-- One whole-buffer store: the buffer holds its payload. -/
theorem preFirst_eq (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : condFirst i) (hc1 : ¬condLast i) (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sAcc : Vec F S256x4096 .f32) :
    preFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sAcc = k0_pay8 x2 x5 x6 := by
  unfold preFirst
  rw [View.read_writes_eq_canon _ _ _ (cover_preFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sAcc)]
  unfold runFirst
  dsimp only
  try sl_unfold_words
  rw [View.canon_unit_zero hz2]
  simp only [View.readAt_eq_ld, Memref.IsWhole.read_unread, View.ld_unit_zero (S := S1024x4096) hz2, View.ld_unit_zero (S := S1024x256) hz2, View.ld_unit_zero (S := S4096x256) hz2, View.ld_unit_zero (S := S256x256) hz2, View.ld_unit_zero (S := S1x256) hz2, View.ld_unit_zero (S := S256x4096) hz2]

/-- What the first-point run leaves in the `acc` buffer: its pieces read back over junk. -/
def accFirst (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : condFirst i) (hc1 : ¬condLast i) (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sAcc : Vec F S256x4096 .f32) : Vec F S256x4096 .f32 :=
  VAcc.read (Elt F) (VAcc.writes (Elt F) VAcc.junk (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sAcc).2.2.1)
/-- Those pieces tile the buffer. -/
theorem cover_accFirst (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : condFirst i) (hc1 : ¬condLast i) (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sAcc : Vec F S256x4096 .f32) (y : S256x4096.Idx) :
    ∃ pc ∈ (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sAcc).2.2.1, y ∈ pc.1.set :=
  View.cover_of_tiledL (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sAcc).2.2.1 S256x4096.size (by sl_kernel_rfl) y
/-- One whole-buffer store: the buffer holds its payload. -/
theorem accFirst_eq (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : condFirst i) (hc1 : ¬condLast i) (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sAcc : Vec F S256x4096 .f32) :
    accFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sAcc = k0_pay12 i x1 x3 x4 x0 sAcc := by
  unfold accFirst
  rw [View.read_writes_eq_canon _ _ _ (cover_accFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sAcc)]
  unfold runFirst
  dsimp only
  try sl_unfold_words
  rw [View.canon_unit_zero hz2]
  simp only [View.readAt_eq_ld, Memref.IsWhole.read_unread, View.ld_unit_zero (S := S1024x4096) hz2, View.ld_unit_zero (S := S1024x256) hz2, View.ld_unit_zero (S := S4096x256) hz2, View.ld_unit_zero (S := S256x256) hz2, View.ld_unit_zero (S := S1x256) hz2, View.ld_unit_zero (S := S256x4096) hz2]

/-- What the first-point run leaves in the `skip` buffer: its pieces read back over junk. -/
def skipFirst (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : condFirst i) (hc1 : ¬condLast i) (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sAcc : Vec F S256x4096 .f32) : Vec F S4096x256 .f32 :=
  VSkip.read (Elt F) (VSkip.writes (Elt F) VSkip.junk (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sAcc).2.2.2.1)
/-- Those pieces tile the buffer. -/
theorem cover_skipFirst (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : condFirst i) (hc1 : ¬condLast i) (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sAcc : Vec F S256x4096 .f32) (y : S4096x256.Idx) :
    ∃ pc ∈ (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sAcc).2.2.2.1, y ∈ pc.1.set :=
  View.cover_of_tiledL (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sAcc).2.2.2.1 S4096x256.size (by sl_kernel_rfl) y
/-- One whole-buffer store: the buffer holds its payload. -/
theorem skipFirst_eq (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : condFirst i) (hc1 : ¬condLast i) (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sAcc : Vec F S256x4096 .f32) :
    skipFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sAcc = k0_pay9 x2 x5 x6 x10 x12 := by
  unfold skipFirst
  rw [View.read_writes_eq_canon _ _ _ (cover_skipFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sAcc)]
  unfold runFirst
  dsimp only
  try sl_unfold_words
  rw [View.canon_unit_zero hz2]
  simp only [View.readAt_eq_ld, Memref.IsWhole.read_unread, View.ld_unit_zero (S := S1024x4096) hz2, View.ld_unit_zero (S := S1024x256) hz2, View.ld_unit_zero (S := S4096x256) hz2, View.ld_unit_zero (S := S256x256) hz2, View.ld_unit_zero (S := S1x256) hz2, View.ld_unit_zero (S := S256x4096) hz2]

/-- What the mid-point run leaves in the `xs` buffer: its pieces read back over junk. -/
def xsMid (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : ¬condFirst i) (hc1 : ¬condLast i) (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sPre : Vec F S4096x256 .bf16) (sAcc : Vec F S256x4096 .f32) (sSkip : Vec F S4096x256 .f32) : Vec F S1024x256 .f32 :=
  VXs.read (Elt F) (VXs.writes (Elt F) VXs.junk (runMid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sPre sAcc sSkip).1)
/-- Those pieces tile the buffer. -/
theorem cover_xsMid (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : ¬condFirst i) (hc1 : ¬condLast i) (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sPre : Vec F S4096x256 .bf16) (sAcc : Vec F S256x4096 .f32) (sSkip : Vec F S4096x256 .f32) (y : S1024x256.Idx) :
    ∃ pc ∈ (runMid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sPre sAcc sSkip).1, y ∈ pc.1.set :=
  View.cover_of_tiledL (runMid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sPre sAcc sSkip).1 S1024x256.size (by sl_kernel_rfl) y
/-- One whole-buffer store: the buffer holds its payload. -/
theorem xsMid_eq (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : ¬condFirst i) (hc1 : ¬condLast i) (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sPre : Vec F S4096x256 .bf16) (sAcc : Vec F S256x4096 .f32) (sSkip : Vec F S4096x256 .f32) :
    xsMid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sPre sAcc sSkip = k0_pay1 (k0_pay13 x1 x3 x4 x7) (k0_pay14 x0 sPre) x8 x9 := by
  unfold xsMid
  rw [View.read_writes_eq_canon _ _ _ (cover_xsMid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sPre sAcc sSkip)]
  unfold runMid
  dsimp only
  try sl_unfold_words
  rw [View.canon_unit_zero hz2]
  simp only [View.readAt_eq_ld, Memref.IsWhole.read_unread, View.ld_unit_zero (S := S1024x4096) hz2, View.ld_unit_zero (S := S1024x256) hz2, View.ld_unit_zero (S := S4096x256) hz2, View.ld_unit_zero (S := S256x256) hz2, View.ld_unit_zero (S := S1x256) hz2, View.ld_unit_zero (S := S256x4096) hz2]

/-- What the mid-point run leaves in the `acc` buffer: its pieces read back over junk. -/
def accMid (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : ¬condFirst i) (hc1 : ¬condLast i) (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sPre : Vec F S4096x256 .bf16) (sAcc : Vec F S256x4096 .f32) (sSkip : Vec F S4096x256 .f32) : Vec F S256x4096 .f32 :=
  VAcc.read (Elt F) (VAcc.writes (Elt F) VAcc.junk (runMid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sPre sAcc sSkip).2.1)
/-- Those pieces tile the buffer. -/
theorem cover_accMid (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : ¬condFirst i) (hc1 : ¬condLast i) (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sPre : Vec F S4096x256 .bf16) (sAcc : Vec F S256x4096 .f32) (sSkip : Vec F S4096x256 .f32) (y : S256x4096.Idx) :
    ∃ pc ∈ (runMid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sPre sAcc sSkip).2.1, y ∈ pc.1.set :=
  View.cover_of_tiledL (runMid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sPre sAcc sSkip).2.1 S256x4096.size (by sl_kernel_rfl) y
/-- One whole-buffer store: the buffer holds its payload. -/
theorem accMid_eq (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : ¬condFirst i) (hc1 : ¬condLast i) (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sPre : Vec F S4096x256 .bf16) (sAcc : Vec F S256x4096 .f32) (sSkip : Vec F S4096x256 .f32) :
    accMid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sPre sAcc sSkip = k0_pay12 i x1 x3 x4 x0 sAcc := by
  unfold accMid
  rw [View.read_writes_eq_canon _ _ _ (cover_accMid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sPre sAcc sSkip)]
  unfold runMid
  dsimp only
  try sl_unfold_words
  rw [View.canon_unit_zero hz2]
  simp only [View.readAt_eq_ld, Memref.IsWhole.read_unread, View.ld_unit_zero (S := S1024x4096) hz2, View.ld_unit_zero (S := S1024x256) hz2, View.ld_unit_zero (S := S4096x256) hz2, View.ld_unit_zero (S := S256x256) hz2, View.ld_unit_zero (S := S1x256) hz2, View.ld_unit_zero (S := S256x4096) hz2]

/-- What the last-point run leaves in the `xs` buffer: its pieces read back over junk. -/
def xsLast (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : ¬condFirst i) (hc1 : condLast i) (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sPre : Vec F S4096x256 .bf16) (sAcc : Vec F S256x4096 .f32) (sSkip : Vec F S4096x256 .f32) : Vec F S1024x256 .f32 :=
  VXs.read (Elt F) (VXs.writes (Elt F) VXs.junk (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sPre sAcc sSkip).1)
/-- Those pieces tile the buffer. -/
theorem cover_xsLast (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : ¬condFirst i) (hc1 : condLast i) (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sPre : Vec F S4096x256 .bf16) (sAcc : Vec F S256x4096 .f32) (sSkip : Vec F S4096x256 .f32) (y : S1024x256.Idx) :
    ∃ pc ∈ (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sPre sAcc sSkip).1, y ∈ pc.1.set :=
  View.cover_of_tiledL (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sPre sAcc sSkip).1 S1024x256.size (by sl_kernel_rfl) y
/-- One whole-buffer store: the buffer holds its payload. -/
theorem xsLast_eq (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : ¬condFirst i) (hc1 : condLast i) (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sPre : Vec F S4096x256 .bf16) (sAcc : Vec F S256x4096 .f32) (sSkip : Vec F S4096x256 .f32) :
    xsLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sPre sAcc sSkip = k0_pay1 (k0_pay13 x1 x3 x4 x7) (k0_pay14 x0 sPre) x8 x9 := by
  unfold xsLast
  rw [View.read_writes_eq_canon _ _ _ (cover_xsLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sPre sAcc sSkip)]
  unfold runLast
  dsimp only
  try sl_unfold_words
  rw [View.canon_unit_zero hz2]
  simp only [View.readAt_eq_ld, Memref.IsWhole.read_unread, View.ld_unit_zero (S := S1024x4096) hz2, View.ld_unit_zero (S := S1024x256) hz2, View.ld_unit_zero (S := S4096x256) hz2, View.ld_unit_zero (S := S256x256) hz2, View.ld_unit_zero (S := S1x256) hz2, View.ld_unit_zero (S := S256x4096) hz2]

/-- What the last-point run leaves in the `xg` buffer: its pieces read back over junk. -/
def xgLast (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : ¬condFirst i) (hc1 : condLast i) (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sPre : Vec F S4096x256 .bf16) (sAcc : Vec F S256x4096 .f32) (sSkip : Vec F S4096x256 .f32) : Vec F S4096x256 .f32 :=
  VXg.read (Elt F) (VXg.writes (Elt F) VXg.junk (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sPre sAcc sSkip).2.1)
/-- Those pieces tile the buffer. -/
theorem cover_xgLast (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : ¬condFirst i) (hc1 : condLast i) (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sPre : Vec F S4096x256 .bf16) (sAcc : Vec F S256x4096 .f32) (sSkip : Vec F S4096x256 .f32) (y : S4096x256.Idx) :
    ∃ pc ∈ (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sPre sAcc sSkip).2.1, y ∈ pc.1.set :=
  View.cover_of_tiledL (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sPre sAcc sSkip).2.1 S1024x256.size (by sl_kernel_rfl) y

/-- What the last-point run leaves in the `acc` buffer: its pieces read back over junk. -/
def accLast (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : ¬condFirst i) (hc1 : condLast i) (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sPre : Vec F S4096x256 .bf16) (sAcc : Vec F S256x4096 .f32) (sSkip : Vec F S4096x256 .f32) : Vec F S256x4096 .f32 :=
  VAcc.read (Elt F) (VAcc.writes (Elt F) VAcc.junk (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sPre sAcc sSkip).2.2.1)
/-- Those pieces tile the buffer. -/
theorem cover_accLast (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : ¬condFirst i) (hc1 : condLast i) (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sPre : Vec F S4096x256 .bf16) (sAcc : Vec F S256x4096 .f32) (sSkip : Vec F S4096x256 .f32) (y : S256x4096.Idx) :
    ∃ pc ∈ (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sPre sAcc sSkip).2.2.1, y ∈ pc.1.set :=
  View.cover_of_tiledL (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sPre sAcc sSkip).2.2.1 S256x4096.size (by sl_kernel_rfl) y
/-- One whole-buffer store: the buffer holds its payload. -/
theorem accLast_eq (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : ¬condFirst i) (hc1 : condLast i) (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sPre : Vec F S4096x256 .bf16) (sAcc : Vec F S256x4096 .f32) (sSkip : Vec F S4096x256 .f32) :
    accLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sPre sAcc sSkip = k0_pay12 i x1 x3 x4 x0 sAcc := by
  unfold accLast
  rw [View.read_writes_eq_canon _ _ _ (cover_accLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sPre sAcc sSkip)]
  unfold runLast
  dsimp only
  try sl_unfold_words
  rw [View.canon_unit_zero hz2]
  simp only [View.readAt_eq_ld, Memref.IsWhole.read_unread, View.ld_unit_zero (S := S1024x4096) hz2, View.ld_unit_zero (S := S1024x256) hz2, View.ld_unit_zero (S := S4096x256) hz2, View.ld_unit_zero (S := S256x256) hz2, View.ld_unit_zero (S := S1x256) hz2, View.ld_unit_zero (S := S256x4096) hz2]

end Cert.Kernel.Body

end
-- ==== Proof.Kernel.Select.lean ====
/-
  The accumulator's stored value at the first point. The body computes both the fresh term and the old contents plus the
  fresh term, and selects the fresh term when the point is the first: so at the first point what is stored does not depend
  on what the accumulator held.
-/
import proofs.«172826_g87900800680619_cont_9to1_m_379_30_alg».proof.Proof.Kernel.Shared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word the select tests is one when the first conditional holds. -/
theorem word_of_first (v : BitVec 1) (h : Scalar.cmpi .ne (Scalar.extui v : BitVec 32) 0#32 = 1#1) : v = 1#1 := by
  revert h; revert v; decide

/-- At the first point the accumulator's stored value is the same whatever the accumulator held. -/
theorem pay12_first (i : grid0.Coords) (h : condFirst i) (v3 : Vec F S1024x256 .f32) (v5 : Vec F S256x256 .bf16) (v8 : Vec F S1x256 .f32)
    (v16 : Vec F S1024x4096 .f32) (a b : Vec F S256x4096 .f32) :
    k0_pay12 i v3 v5 v8 v16 a = k0_pay12 i v3 v5 v8 v16 b := by
  have hw := word_of_first _ h
  unfold k0_pay12
  dsimp only
  rw [hw]
  rfl

end Cert.Kernel.Body

end
-- ==== Proof.Kernel.Frame.lean ====
/-
  The frame of the kernel: what the five buffers the body writes — the two outputs' staging buffers and the three scratch
  buffers — hold after each grid point, by recursion on the point; the region invariant that carries the scratch
  contents from one point to the next; the proof data; the body obligation at every point, by the point's case; and the run.
  At the first point the accumulator's old contents are read before anything was stored there: what is stored back does
  not depend on them (the stored value is selected to be the fresh term), which is what makes the recursion start.
-/
import proofs.«172826_g87900800680619_cont_9to1_m_379_30_alg».proof.Proof.Kernel.Pieces
import proofs.«172826_g87900800680619_cont_9to1_m_379_30_alg».proof.Proof.Kernel.Select

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents of the five written buffers after a point: the surface-side output's staging buffer, the graph-side
    output's, and the three scratch buffers (graph-side pre-layer, transposed message accumulator, graph-side skip half). -/
structure St (F : FTy → Type) [FloatOps F] where
  xs : Vec F S1024x256 .f32
  xg : Vec F S4096x256 .f32
  pre : Vec F S4096x256 .bf16
  acc : Vec F S256x4096 .f32
  skip : Vec F S4096x256 .f32

theorem notFirst_succ (n : ℕ) (hn : n + 1 < cfg0.N) : ¬condFirst (grid0.coords ⟨n + 1, hn⟩) :=
  fun h => Nat.succ_ne_zero n ((hcondFirst ⟨n + 1, hn⟩).mp h)

/-- What the buffers hold after the body at position `n`: the first point's run from any accumulator contents (a
    placeholder: the result does not depend on them), a later point's run from what the point before left. The graph-side
    output's buffer is untouched (a placeholder nothing consults) until the last point. -/
def stateAt (c : Dev nD) : (n : ℕ) → n < cfg0.N → St F
  | 0, hn =>
    let t : Fin cfg0.N := ⟨0, hn⟩
    let h0 : condFirst (grid0.coords t) := (hcondFirst t).mpr rfl
    let h1 : ¬condLast (grid0.coords t) := fun h => (show (0 : ℕ) ≠ 7 by decide) ((hcondLast t).mp h)
    let a0 : Vec F S256x4096 .f32 := VAcc.read (Elt F) VAcc.junk
    { xs := xsFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) a0
      xg := VXg.read (Elt F) VXg.junk
      pre := preFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) a0
      acc := accFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) a0
      skip := skipFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) a0 }
  | n + 1, hn =>
    let t : Fin cfg0.N := ⟨n + 1, hn⟩
    let p : St F := stateAt c n (Nat.lt_of_succ_lt hn)
    let h0 : ¬condFirst (grid0.coords t) := notFirst_succ n hn
    if h7 : n + 1 = 7 then
      let h1 : condLast (grid0.coords t) := (hcondLast t).mpr h7
      { xs := xsLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) p.pre p.acc p.skip
        xg := xgLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) p.pre p.acc p.skip
        pre := p.pre
        acc := accLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) p.pre p.acc p.skip
        skip := p.skip }
    else
      let h1 : ¬condLast (grid0.coords t) := fun h => h7 ((hcondLast t).mp h)
      { xs := xsMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) p.pre p.acc p.skip
        xg := p.xg
        pre := p.pre
        acc := accMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) p.pre p.acc p.skip
        skip := p.skip }

/-- The state before point `t` (what the point before left), for `t` not the first. -/
abbrev prevAt (c : Dev nD) (t : Fin cfg0.N) : St F := stateAt m c (t.val - 1) (Nat.lt_of_le_of_lt (Nat.sub_le _ _) t.isLt)

theorem stateAt_first (c : Dev nD) (t : Fin cfg0.N) (h0 : condFirst (grid0.coords t)) (h1 : ¬condLast (grid0.coords t)) :
    stateAt m c t.val t.isLt =
      { xs := xsFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (VAcc.read (Elt F) VAcc.junk)
        xg := VXg.read (Elt F) VXg.junk
        pre := preFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (VAcc.read (Elt F) VAcc.junk)
        acc := accFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (VAcc.read (Elt F) VAcc.junk)
        skip := skipFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (VAcc.read (Elt F) VAcc.junk) } := by
  obtain ⟨n, hn⟩ := t
  have hz : n = 0 := (hcondFirst ⟨n, hn⟩).mp h0
  subst hz; rfl

theorem stateAt_mid (c : Dev nD) (t : Fin cfg0.N) (h0 : ¬condFirst (grid0.coords t)) (h1 : ¬condLast (grid0.coords t)) :
    stateAt m c t.val t.isLt =
      { xs := xsMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (prevAt m c t).pre (prevAt m c t).acc (prevAt m c t).skip
        xg := (prevAt m c t).xg
        pre := (prevAt m c t).pre
        acc := accMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (prevAt m c t).pre (prevAt m c t).acc (prevAt m c t).skip
        skip := (prevAt m c t).skip } := by
  obtain ⟨n, hn⟩ := t
  cases n with
  | zero => exact absurd ((hcondFirst ⟨0, hn⟩).mpr rfl) h0
  | succ n =>
    have h7 : ¬(n + 1 = 7) := fun h => h1 ((hcondLast ⟨n + 1, hn⟩).mpr h)
    exact (dif_neg h7).trans rfl

theorem stateAt_last (c : Dev nD) (t : Fin cfg0.N) (h0 : ¬condFirst (grid0.coords t)) (h1 : condLast (grid0.coords t)) :
    stateAt m c t.val t.isLt =
      { xs := xsLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (prevAt m c t).pre (prevAt m c t).acc (prevAt m c t).skip
        xg := xgLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (prevAt m c t).pre (prevAt m c t).acc (prevAt m c t).skip
        pre := (prevAt m c t).pre
        acc := accLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (prevAt m c t).pre (prevAt m c t).acc (prevAt m c t).skip
        skip := (prevAt m c t).skip } := by
  obtain ⟨n, hn⟩ := t
  cases n with
  | zero => exact absurd ((hcondFirst ⟨0, hn⟩).mpr rfl) h0
  | succ n =>
    have h7 : n + 1 = 7 := (hcondLast ⟨n + 1, hn⟩).mp h1
    exact (dif_pos h7).trans rfl

/-! ## The region invariant -/

/-- Before the first point the class's invariant (every scratch buffer at anything); before a later point the three scratch
    buffers at what the point before left, and the generator register at some state. -/
def PhiS (c : Dev nD) : (n : ℕ) → n ≤ cfg0.N → sProp 𝕄
  | 0, _ => Pipeline.ΦA spec0 c
  | n + 1, hn => iprop(iprop(owns (c : Thread nD τ) scPre fullShare (stateAt m c n hn).pre ∗ owns (c : Thread nD τ) scAcc fullShare (stateAt m c n hn).acc ∗ owns (c : Thread nD τ) scSkip fullShare (stateAt m c n hn).skip) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scPre fullShare (stateAt m c n hn).pre ∗ owns (c : Thread nD τ) scAcc fullShare (stateAt m c n hn).acc ∗ owns (c : Thread nD τ) scSkip fullShare (stateAt m c n hn).skip) ∗ (∃ r, prngReg c r)) := rfl

theorem PhiS_pos (c : Dev nD) (n : ℕ) (h : n ≤ cfg0.N) (hz : n ≠ 0) :
    PhiS m c n h = iprop(iprop(owns (c : Thread nD τ) scPre fullShare (stateAt m c (n - 1) (by omega)).pre ∗ owns (c : Thread nD τ) scAcc fullShare (stateAt m c (n - 1) (by omega)).acc ∗ owns (c : Thread nD τ) scSkip fullShare (stateAt m c (n - 1) (by omega)).skip) ∗ (∃ r, prngReg c r)) := by
  cases n with
  | zero => exact absurd rfl hz
  | succ n => rfl

/-! ## The proof data -/

/-- The arrays as the region finds them; after the body at point `t` each input's buffer at its block and the two outputs'
    at the state's components; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (stateAt m c t.val t.isLt).xs
    | ⟨14, _⟩ => (stateAt m c t.val t.isLt).xg
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = (stateAt m c t.val t.isLt).xs := by dsimp only [dats]
theorem after14 (c : Dev nD) (t : Fin cfg0.N) : (dats m 0 c).after 14 t = (stateAt m c t.val t.isLt).xg := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

set_option maxHeartbeats 8000000 in
/-- The body at any point: the inputs' memrefs hold their blocks; the closed forms say which case the point is in; that
    case's run applies — the invariant hands it the scratch buffers at what the point before left (at anything, at the first
    point) and takes them back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  rw [show (dats m 0 c).leavesExact 7 t = owns (c : Thread nD τ) (ms7 t) fullShare ((dats m 0 c).after 7 t) from by
    unfold Dat.leavesExact; rw [live7 t], after7]
  rw [show (dats m 0 c).leavesExact 8 t = owns (c : Thread nD τ) (ms8 t) fullShare ((dats m 0 c).after 8 t) from by
    unfold Dat.leavesExact; rw [live8 t], after8]
  rw [show (dats m 0 c).leavesExact 9 t = owns (c : Thread nD τ) (ms9 t) fullShare ((dats m 0 c).after 9 t) from by
    unfold Dat.leavesExact; rw [live9 t], after9]
  rw [show (dats m 0 c).leavesExact 10 t = owns (c : Thread nD τ) (ms10 t) fullShare ((dats m 0 c).after 10 t) from by
    unfold Dat.leavesExact; rw [live10 t], after10]
  rw [show (dats m 0 c).leavesExact 11 t = owns (c : Thread nD τ) (ms11 t) fullShare ((dats m 0 c).after 11 t) from by
    unfold Dat.leavesExact; rw [live11 t], after11]
  rw [show (dats m 0 c).leavesExact 12 t = owns (c : Thread nD τ) (ms12 t) fullShare ((dats m 0 c).after 12 t) from by
    unfold Dat.leavesExact; rw [live12 t], after12]
  rw [show (dats m 0 c).leavesExact 13 t = owns (c : Thread nD τ) (ms13 t) fullShare ((dats m 0 c).after 13 t) from by
    unfold Dat.leavesExact; rw [live13 t], after13]
  by_cases h0 : condFirst (grid0.coords t)
  · have hz : t.val = 0 := (hcondFirst t).mp h0
    have h1 : ¬condLast (grid0.coords t) := fun h => by have b := (hcondLast t).mp h; omega
    rw [Dat.leavesExact_idle (dats m 0 c) 14 t (idle14 t h1) (noFlush14 t h1)]
    rw [stateAt_first m c t h0 h1]; dsimp only
    rw [PhiS_castSucc m c t, PhiS_zero m c _ _ hz, PhiA_eq]
    iintro ⟨⟨⟨HP, ⟨%dA, HA⟩, HK⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) dA).2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexact H14
    isplitl [HP]; · iexact HP
    isplitl [HA]; · iexact HA
    isplitl [HK]; · iexact HK
    iintro ⟨H0, H1, H2, H3, H4, H5, H6, H7, H8, H9, H10, H11, H12, ⟨%e13, H13⟩, H14, ⟨%eP, HP⟩, ⟨%eA, HA⟩, ⟨%eK, HK⟩⟩
    isplitl [HP HA HK Hg]
    · isplitl [HP HA HK]
      · isplitl [HP]
        · unfold owns; iexists _; isplitr
          swap; · iexact HP
          ipureintro; exact (View.read_writes_of_cover _ _ VPre VPre.junk _ (cover_preFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) dA)).trans ((preFirst_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) dA).trans ((preFirst_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (VAcc.read (Elt F) VAcc.junk)).symm))
        isplitl [HA]
        · unfold owns; iexists _; isplitr
          swap; · iexact HA
          ipureintro; exact (View.read_writes_of_cover _ _ VAcc VAcc.junk _ (cover_accFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) dA)).trans ((accFirst_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) dA).trans ((pay12_first _ h0 _ _ _ _ _ _).trans (accFirst_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (VAcc.read (Elt F) VAcc.junk)).symm))
        unfold owns; iexists _; isplitr
        swap; · iexact HK
        ipureintro; exact (View.read_writes_of_cover _ _ VSkip VSkip.junk _ (cover_skipFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) dA)).trans ((skipFirst_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) dA).trans ((skipFirst_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (VAcc.read (Elt F) VAcc.junk)).symm))
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · unfold owns; iexists _; isplitr
      swap; · iexact H13
      ipureintro; exact (View.read_writes_of_cover _ _ VXs VXs.junk _ (cover_xsFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) dA)).trans ((xsFirst_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) dA).trans ((xsFirst_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (VAcc.read (Elt F) VAcc.junk)).symm))
    iexists _; iexact H14
  · have hz : t.val ≠ 0 := fun h => h0 ((hcondFirst t).mpr h)
    by_cases h1 : condLast (grid0.coords t)
    · rw [show (dats m 0 c).leavesExact 14 t = owns (c : Thread nD τ) (ms14 t) fullShare ((dats m 0 c).after 14 t) from by
        unfold Dat.leavesExact; rw [live14 t h1], after14]
      rw [stateAt_last m c t h0 h1]; dsimp only
      rw [PhiS_castSucc m c t, PhiS_pos m c _ _ hz]
      iintro ⟨⟨⟨HP, HA, HK⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (prevAt m c t).pre (prevAt m c t).acc (prevAt m c t).skip).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [HP]; · iexact HP
      isplitl [HA]; · iexact HA
      isplitl [HK]; · iexact HK
      iintro ⟨H0, H1, H2, H3, H4, H5, H6, H7, H8, H9, H10, H11, H12, ⟨%e13, H13⟩, ⟨%e14, H14⟩, HP, ⟨%eA, HA⟩, HK⟩
      isplitl [HP HA HK Hg]
      · isplitl [HP HA HK]
        · isplitl [HP]; · iexact HP
          isplitl [HA]
          · unfold owns; iexists _; isplitr
            swap; · iexact HA
            ipureintro; exact View.read_writes_of_cover _ _ VAcc VAcc.junk _ (cover_accLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (prevAt m c t).pre (prevAt m c t).acc (prevAt m c t).skip)
          iexact HK
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · unfold owns; iexists _; isplitr
        swap; · iexact H13
        ipureintro; exact View.read_writes_of_cover _ _ VXs VXs.junk _ (cover_xsLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (prevAt m c t).pre (prevAt m c t).acc (prevAt m c t).skip)
      unfold owns; iexists _; isplitr
      swap; · iexact H14
      ipureintro; exact View.read_writes_of_cover _ _ VXg VXg.junk _ (cover_xgLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (prevAt m c t).pre (prevAt m c t).acc (prevAt m c t).skip)
    · rw [Dat.leavesExact_idle (dats m 0 c) 14 t (idle14 t h1) (noFlush14 t h1)]
      rw [stateAt_mid m c t h0 h1]; dsimp only
      rw [PhiS_castSucc m c t, PhiS_pos m c _ _ hz]
      iintro ⟨⟨⟨HP, HA, HK⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (prevAt m c t).pre (prevAt m c t).acc (prevAt m c t).skip).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexact H14
      isplitl [HP]; · iexact HP
      isplitl [HA]; · iexact HA
      isplitl [HK]; · iexact HK
      iintro ⟨H0, H1, H2, H3, H4, H5, H6, H7, H8, H9, H10, H11, H12, ⟨%e13, H13⟩, H14, HP, ⟨%eA, HA⟩, HK⟩
      isplitl [HP HA HK Hg]
      · isplitl [HP HA HK]
        · isplitl [HP]; · iexact HP
          isplitl [HA]
          · unfold owns; iexists _; isplitr
            swap; · iexact HA
            ipureintro; exact View.read_writes_of_cover _ _ VAcc VAcc.junk _ (cover_accMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (prevAt m c t).pre (prevAt m c t).acc (prevAt m c t).skip)
          iexact HK
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · unfold owns; iexists _; isplitr
        swap; · iexact H13
        ipureintro; exact View.read_writes_of_cover _ _ VXs VXs.junk _ (cover_xsMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (prevAt m c t).pre (prevAt m c t).acc (prevAt m c t).skip)
      iexists _; iexact H14

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 8 := N_0; omega
  rw [show (dats m 0 c).Φ (Fin.last cfg0.N) = PhiS m c (Fin.last cfg0.N).val (Nat.le_of_lt_succ (Fin.last cfg0.N).isLt) from rfl, PhiS_pos m c _ _ ht, PhiA_eq]
  iintro ⟨⟨HP, HA, HK⟩, Hg⟩
  isplitl [HP HA HK]
  · isplitl [HP]; · iexists _; iexact HP
    isplitl [HA]; · iexists _; iexact HA
    iexists _; iexact HK
  iexact Hg

/-! ## The run and the frame -/

set_option backward.isDefEq.respectTransparency.types false in
/-- Every weakly fair execution of @main terminates, and in every final state each array of the pipeline holds what the
    library computes from the proof data, every other unscoped buffer what it held at the region's entry. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Body

end
-- ==== Proof.LibMatmulPlain.lean ====
/-
  A plain matrix product into a zero accumulator, read at an index, at the ideal values.

  For an m×k matrix A and a k×n matrix B the product into the zero accumulator has, at row a and column b, the entry
  ∑ c, A(a, c) · B(c, b): the accumulator contributes the extended real 0, and the contraction index of the plain
  dimension numbers is the one coordinate c. The host's product of the same two matrices is the same sum, so the
  statement follows from the library's reading of the host product.
-/
import Idealize.ShloMosaic.PureOps.Ideal.Laws
import Idealize.ShloMosaic.Lib.ValueIdx
import Idealize.ShloMosaic.Lib.StackMember

namespace Cert.LibMatmulPlain

open Idealize.ShloMosaic Idealize.ShloMosaic.ValueIdx

/-- A plain m×k by k×n product into the zero accumulator reads, at (a, b), the sum over the contracted coordinate c of
    A(a, c) · B(c, b). At the ideal values, whatever the formats of the two operands. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

end Cert.LibMatmulPlain
-- ==== Proof.KernelIdeal.PayApply.lean ====
/-
  The body's arithmetic read at an index, at the ideal values: every payload of the kernel body as a formula in the
  entries of the blocks it loaded. A dense layer with bias and a maximum against zero; a plain product; the strip's
  transposed messages, contracted over the strip's 1024 rows; and a graph-side output tile, contracted over the 256
  accumulator rows read transposed. Changes of number format are the identity at the ideal values.
-/
import proofs.«172826_g87900800680619_cont_9to1_m_379_30_alg».proof.Proof.Gen.KernelIdeal.Skeleton
import proofs.«172826_g87900800680619_cont_9to1_m_379_30_alg».proof.Proof.LibMatmulPlain
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen
open Idealize.ShloMosaic Idealize.ShloMosaic.ValueIdx

/-- The zero the body's maxima are taken against. -/
abbrev Z : EReal := (Scalar.ofBits (F := Ideal) .f32 0x00000000#32)

/-- A rank-2 transpose read at `(p, q)` is the operand at `(q, p)`. -/
theorem transpose2_apply {a b : ℕ} {α : Type} (x : (⟨2, ![a, b]⟩ : Shape).Idx → α)
    (h : (⟨2, ![a, b]⟩ : Shape).Transposes [1, 0] ⟨2, ![b, a]⟩) (p : Fin b) (q : Fin a) :
    transpose ⟨2, ![b, a]⟩ [1, 0] x h (ix2 p q) = x (ix2 q p) :=
  transpose_apply [1, 0] x h (ix2 p q) (ix2 q p) fun ax => by
    match ax with
    | ⟨0, _⟩ => rfl
    | ⟨1, _⟩ => rfl

theorem dotA : dot_S1024x256_S256x256_S1024x256_1_0_0_1_n_n = DotDims.plain 1024 256 256 := rfl
theorem dotB : dot_S4096x256_S256x256_S4096x256_1_0_0_1_n_n = DotDims.plain 4096 256 256 := rfl
theorem dotC : dot_S256x1024_S1024x4096_S256x4096_1_0_0_1_n_n = DotDims.plain 256 1024 4096 := rfl
theorem dotD : dot_S1024x4096_S4096x256_S1024x256_1_0_0_1_n_n = DotDims.plain 1024 4096 256 := rfl

theorem sel_one {α : Type} (a b : α) : Scalar.select 1#1 a b = a := rfl
theorem sel_zero {α : Type} (a b : α) : Scalar.select 0#1 a b = b := rfl

/-- The surface-side pre-layer of a strip: a dense layer with bias, then the maximum with zero. -/
theorem pay10_apply (v3 : Vec Ideal S1024x256 .f32) (v5 : Vec Ideal S256x256 .bf16) (v8 : Vec Ideal S1x256 .f32)
    (r : Fin 1024) (d : Fin 256) :
    k0_pay10 (F := Ideal) v3 v5 v8 (ix2 r d)
      = max ((∑ c : Fin 256, v3 (ix2 r c) * v5 (ix2 c d)) + v8 (ix2 (0 : Fin 1) d)) Z := by
  unfold k0_pay10
  try dsimp only
  simp only [shapeCast_self]
  rw [truncf_apply, maximumf_apply, addf_apply, broadcast_apply, dotA,
    Cert.LibMatmulPlain.matmul_plain_zero_apply, broadcastTo_1b_ab_apply]
  rfl

/-- The graph-side pre-layer: the same over the 4096 graph rows. -/
theorem pay7_apply (v45 : Vec Ideal S4096x256 .f32) (v47 : Vec Ideal S256x256 .bf16) (v50 : Vec Ideal S1x256 .f32)
    (r : Fin 4096) (d : Fin 256) :
    k0_pay7 (F := Ideal) v45 v47 v50 (ix2 r d)
      = max ((∑ c : Fin 256, v45 (ix2 r c) * v47 (ix2 c d)) + v50 (ix2 (0 : Fin 1) d)) Z := by
  unfold k0_pay7
  try dsimp only
  simp only [shapeCast_self]
  rw [truncf_apply, maximumf_apply, addf_apply, broadcast_apply, dotB,
    Cert.LibMatmulPlain.matmul_plain_zero_apply, broadcastTo_1b_ab_apply]
  rfl

theorem pay8_eq (v45 : Vec Ideal S4096x256 .f32) (v47 : Vec Ideal S256x256 .bf16) (v50 : Vec Ideal S1x256 .f32) :
    k0_pay8 (F := Ideal) v45 v47 v50 = k0_pay7 v45 v47 v50 := by
  unfold k0_pay8
  exact shapeCast_self _ _

/-- The graph-side skip half: the pre-layer times the first half of the post weights, plus the bias. -/
theorem pay9_apply (v45 : Vec Ideal S4096x256 .f32) (v47 : Vec Ideal S256x256 .bf16) (v50 : Vec Ideal S1x256 .f32)
    (v60 : Vec Ideal S256x256 .bf16) (v63 : Vec Ideal S1x256 .f32) (j : Fin 4096) (q : Fin 256) :
    k0_pay9 (F := Ideal) v45 v47 v50 v60 v63 (ix2 j q)
      = (∑ c : Fin 256, k0_pay7 (F := Ideal) v45 v47 v50 (ix2 j c) * v60 (ix2 c q)) + v63 (ix2 (0 : Fin 1) q) := by
  unfold k0_pay9
  try dsimp only
  simp only [shapeCast_self]
  rw [addf_apply, dotB, Cert.LibMatmulPlain.matmul_plain_zero_apply, broadcastTo_1b_ab_apply]

/-- One strip's transposed messages: the strip's pre-layer, transposed, times the strip of weights — contracted over the
    strip's 1024 rows. -/
def contribT (v3 : Vec Ideal S1024x256 .f32) (v5 : Vec Ideal S256x256 .bf16) (v8 : Vec Ideal S1x256 .f32)
    (v16 : Vec Ideal S1024x4096 .f32) (d : Fin 256) (j : Fin 4096) : EReal :=
  ∑ r : Fin 1024, k0_pay10 (F := Ideal) v3 v5 v8 (ix2 r d) * v16 (ix2 r j)

/-- At the first point the accumulator is started at the strip's transposed messages. -/
theorem pay12_first_apply (i : grid0.Coords) (hw : Scalar.cmpi .eq (BitVec.ofNat 32 (i 0).val) 0#32 = 1#1)
    (v3 : Vec Ideal S1024x256 .f32) (v5 : Vec Ideal S256x256 .bf16) (v8 : Vec Ideal S1x256 .f32)
    (v16 : Vec Ideal S1024x4096 .f32) (v19 : Vec Ideal S256x4096 .f32) (d : Fin 256) (j : Fin 4096) :
    k0_pay12 (F := Ideal) i v3 v5 v8 v16 v19 (ix2 d j) = contribT v3 v5 v8 v16 d j := by
  unfold k0_pay12
  try dsimp only
  rw [hw, sel_one]
  simp only [shapeCast_self]
  rw [dotC, Cert.LibMatmulPlain.matmul_plain_zero_apply]
  exact Finset.sum_congr rfl fun r _ => by rw [transpose2_apply]; rfl

/-- At a later point the strip's transposed messages are added to what the accumulator held. -/
theorem pay12_later_apply (i : grid0.Coords) (hw : Scalar.cmpi .eq (BitVec.ofNat 32 (i 0).val) 0#32 = 0#1)
    (v3 : Vec Ideal S1024x256 .f32) (v5 : Vec Ideal S256x256 .bf16) (v8 : Vec Ideal S1x256 .f32)
    (v16 : Vec Ideal S1024x4096 .f32) (v19 : Vec Ideal S256x4096 .f32) (d : Fin 256) (j : Fin 4096) :
    k0_pay12 (F := Ideal) i v3 v5 v8 v16 v19 (ix2 d j) = v19 (ix2 d j) + contribT v3 v5 v8 v16 d j := by
  unfold k0_pay12
  try dsimp only
  rw [hw, sel_zero]
  simp only [shapeCast_self]
  rw [addf_apply, dotC, Cert.LibMatmulPlain.matmul_plain_zero_apply]
  congr 1
  exact Finset.sum_congr rfl fun r _ => by rw [transpose2_apply]; rfl

/-- The strip's pre-layer times the first half of the surface post weights. -/
theorem pay13_apply (v3 : Vec Ideal S1024x256 .f32) (v5 : Vec Ideal S256x256 .bf16) (v8 : Vec Ideal S1x256 .f32)
    (v27 : Vec Ideal S256x256 .bf16) (r : Fin 1024) (q : Fin 256) :
    k0_pay13 (F := Ideal) v3 v5 v8 v27 (ix2 r q) = ∑ c : Fin 256, k0_pay10 (F := Ideal) v3 v5 v8 (ix2 r c) * v27 (ix2 c q) := by
  unfold k0_pay13
  try dsimp only
  simp only [shapeCast_self]
  rw [dotA, Cert.LibMatmulPlain.matmul_plain_zero_apply]

/-- The strip's message: the strip of weights times the graph-side pre-layer, contracted over the 4096 graph rows. -/
theorem pay14_apply (v16 : Vec Ideal S1024x4096 .f32) (v25 : Vec Ideal S4096x256 .bf16) (r : Fin 1024) (d : Fin 256) :
    k0_pay14 (F := Ideal) v16 v25 (ix2 r d) = ∑ j : Fin 4096, v16 (ix2 r j) * v25 (ix2 j d) := by
  unfold k0_pay14
  try dsimp only
  rw [truncf_apply, dotD, Cert.LibMatmulPlain.matmul_plain_zero_apply]
  rfl

/-- The surface-side output of a strip. -/
theorem pay1_apply (v29 : FVec Ideal S1024x256 .f32) (v30 : FVec Ideal S1024x256 .bf16) (v31 : Vec Ideal S256x256 .bf16)
    (v35 : Vec Ideal S1x256 .f32) (r : Fin 1024) (q : Fin 256) :
    k0_pay1 (F := Ideal) v29 v30 v31 v35 (ix2 r q)
      = max ((v29 (ix2 r q) + ∑ c : Fin 256, v30 (ix2 r c) * v31 (ix2 c q)) + v35 (ix2 (0 : Fin 1) q)) Z := by
  unfold k0_pay1
  try dsimp only
  simp only [shapeCast_self]
  rw [maximumf_apply, addf_apply, addf_apply, broadcast_apply, dotA,
    Cert.LibMatmulPlain.matmul_plain_zero_apply, broadcastTo_1b_ab_apply]

/-- A tile of 1024 rows of the graph-side output: the skip half plus the accumulator's columns, read transposed, times the
    second half of the graph post weights; then the maximum with zero. -/
theorem pay4_apply (v45 : Vec Ideal S256x1024 .f32) (v48 : Vec Ideal S1024x256 .f32) (v49 : Vec Ideal S256x256 .bf16)
    (r : Fin 1024) (q : Fin 256) :
    k0_pay4 (F := Ideal) v45 v48 v49 (ix2 r q)
      = max (v48 (ix2 r q) + ∑ d : Fin 256, v45 (ix2 d r) * v49 (ix2 d q)) Z := by
  unfold k0_pay4
  try dsimp only
  simp only [shapeCast_self]
  rw [maximumf_apply, addf_apply, broadcast_apply, dotA, Cert.LibMatmulPlain.matmul_plain_zero_apply]
  congr 2
  exact Finset.sum_congr rfl fun d _ => by rw [transpose2_apply]; rfl

theorem pay5_apply (v56 : Vec Ideal S256x1024 .f32) (v59 : Vec Ideal S1024x256 .f32) (v60 : Vec Ideal S256x256 .bf16)
    (r : Fin 1024) (q : Fin 256) :
    k0_pay5 (F := Ideal) v56 v59 v60 (ix2 r q)
      = max (v59 (ix2 r q) + ∑ d : Fin 256, v56 (ix2 d r) * v60 (ix2 d q)) Z := by
  unfold k0_pay5
  try dsimp only
  simp only [shapeCast_self]
  rw [maximumf_apply, addf_apply, broadcast_apply, dotA, Cert.LibMatmulPlain.matmul_plain_zero_apply]
  congr 2
  exact Finset.sum_congr rfl fun d _ => by rw [transpose2_apply]; rfl

theorem pay3_apply (v78 : Vec Ideal S256x1024 .f32) (v81 : Vec Ideal S1024x256 .f32) (v82 : Vec Ideal S256x256 .bf16)
    (r : Fin 1024) (q : Fin 256) :
    k0_pay3 (F := Ideal) v78 v81 v82 (ix2 r q)
      = max (v81 (ix2 r q) + ∑ d : Fin 256, v78 (ix2 d r) * v82 (ix2 d q)) Z := by
  unfold k0_pay3
  try dsimp only
  simp only [shapeCast_self]
  rw [maximumf_apply, addf_apply, broadcast_apply, dotA, Cert.LibMatmulPlain.matmul_plain_zero_apply]
  congr 2
  exact Finset.sum_congr rfl fun d _ => by rw [transpose2_apply]; rfl

/-- The third tile is stored in two steps: the sum, then the maximum. -/
theorem pay6_apply (v67 : Vec Ideal S256x1024 .f32) (v70 : Vec Ideal S1024x256 .f32) (v71 : Vec Ideal S256x256 .bf16)
    (r : Fin 1024) (q : Fin 256) :
    k0_pay6 (F := Ideal) v67 v70 v71 (ix2 r q) = v70 (ix2 r q) + ∑ d : Fin 256, v67 (ix2 d r) * v71 (ix2 d q) := by
  unfold k0_pay6
  try dsimp only
  simp only [shapeCast_self]
  rw [addf_apply, dotA, Cert.LibMatmulPlain.matmul_plain_zero_apply]
  congr 1
  exact Finset.sum_congr rfl fun d _ => by rw [transpose2_apply]; rfl

theorem pay2_apply (v74 : FVec Ideal S1024x256 .f32) (cst : Ideal .f32) (r : Fin 1024) (q : Fin 256) :
    k0_pay2 (F := Ideal) v74 cst (ix2 r q) = max (v74 (ix2 r q)) cst := by
  unfold k0_pay2
  try dsimp only
  rw [maximumf_apply, broadcast_apply]

end Cert.KernelIdeal.Val

end
-- ==== Proof.KernelIdeal.Shared.lean ====
/-
  What the three runs of the kernel body share. The body is called at eight grid points; two conditions on the
  point decide its control: "first" (the point is 0: the graph-side pre-layer is computed into the resident scratch
  and the accumulator is started) and "last" (the point is 7: the graph-side output is computed from the finished
  accumulator). Stated here: the two conditions in closed form, where the graph-side output window is idle, the
  staging and scratch memrefs by name, and the region invariant with the three scratch buffers named.
-/
import proofs.«172826_g87900800680619_cont_9to1_m_379_30_alg».proof.Proof.Gen.KernelIdeal.Frame
import proofs.«172826_g87900800680619_cont_9to1_m_379_30_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions -/

/-- "First": the body's first conditional, from the grid coordinate (the skeleton's scalar chain substituted). -/
abbrev condFirst (i : grid0.Coords) : Prop :=
  (Scalar.cmpi .ne (Scalar.extui (Scalar.cmpi .eq (BitVec.ofNat 32 (i 0).val) 0#32)) 0#32) = 1#1
/-- It holds at point 0 only. -/
theorem hcondFirst : ∀ t : Fin cfg0.N, condFirst (grid0.coords t) ↔ t.val = 0 :=
  (by decide +kernel : ∀ t : Fin grid0.N, condFirst (grid0.coords t) ↔ t.val = 0)

/-- "Last": the body's second conditional. -/
abbrev condLast (i : grid0.Coords) : Prop := k0_cond2 i = 1#1
/-- It holds at point 7 only. -/
theorem hcondLast : ∀ t : Fin cfg0.N, condLast (grid0.coords t) ↔ t.val = 7 :=
  (by decide +kernel : ∀ t : Fin grid0.N, condLast (grid0.coords t) ↔ t.val = 7)

/-- The word the accumulator's select tests is one exactly at the first point. -/
theorem selFirst : ∀ t : Fin cfg0.N, Scalar.cmpi .eq (BitVec.ofNat 32 ((grid0.coords t) 0).val) 0#32 = 1#1 ↔ t.val = 0 :=
  (by decide +kernel : ∀ t : Fin grid0.N, Scalar.cmpi .eq (BitVec.ofNat 32 ((grid0.coords t) 0).val) 0#32 = 1#1 ↔ t.val = 0)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
theorem live8 : ∀ t : Fin cfg0.N, cfg0.idle 8 (grid0.coords t) = false := by decide +kernel
theorem live9 : ∀ t : Fin cfg0.N, cfg0.idle 9 (grid0.coords t) = false := by decide +kernel
theorem live10 : ∀ t : Fin cfg0.N, cfg0.idle 10 (grid0.coords t) = false := by decide +kernel
theorem live11 : ∀ t : Fin cfg0.N, cfg0.idle 11 (grid0.coords t) = false := by decide +kernel
theorem live12 : ∀ t : Fin cfg0.N, cfg0.idle 12 (grid0.coords t) = false := by decide +kernel
theorem live13 : ∀ t : Fin cfg0.N, cfg0.idle 13 (grid0.coords t) = false := by decide +kernel
/-- Away from the last point the graph-side output window is idle and is not written back. -/
theorem idle14 : ∀ t : Fin cfg0.N, ¬condLast (grid0.coords t) → cfg0.idle 14 (grid0.coords t) = true := by decide +kernel
theorem noFlush14 : ∀ t : Fin cfg0.N, ¬condLast (grid0.coords t) → (cfg0.win 14).flush t = false := by decide +kernel
theorem live14 : ∀ t : Fin cfg0.N, condLast (grid0.coords t) → cfg0.idle 14 (grid0.coords t) = false := by decide +kernel

/-! ## The memrefs the body is called with -/

abbrev ms0 (t : Fin cfg0.N) : Memref sig .tc .vmem S1024x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x256 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x256 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S256x256 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S256x256 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x256 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S256x256 .bf16 := win0_10.stage (cfg0.slots t 10)
abbrev hs10 (t : Fin cfg0.N) : (ms10 t).IsWhole := hstage0_10 ((cfg0.slots t 10).cast nbuf0_10)
abbrev ms11 (t : Fin cfg0.N) : Memref sig .tc .vmem S256x256 .bf16 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x256 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S1024x256 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S4096x256 .f32 := win0_14.stage (cfg0.slots t 14)
abbrev hs14 (t : Fin cfg0.N) : (ms14 t).IsWhole := hstage0_14 ((cfg0.slots t 14).cast nbuf0_14)
/-- The three scratch operands: the graph-side pre-layer, the transposed message accumulator, the graph-side skip half. -/
abbrev scPre : Memref sig .tc .vmem S4096x256 .bf16 := Memref.whole cc0_scratch0
abbrev scAcc : Memref sig .tc .vmem S256x4096 .f32 := Memref.whole cc0_scratch1
abbrev scSkip : Memref sig .tc .vmem S4096x256 .f32 := Memref.whole cc0_scratch2
/-- Views through which buffer contents are stated (the choice of buffer does not matter under a cover). -/
abbrev VPre : View sig .tc .vmem S4096x256 .bf16 := scPre.view
abbrev VAcc : View sig .tc .vmem S256x4096 .f32 := scAcc.view
abbrev VSkip : View sig .tc .vmem S4096x256 .f32 := scSkip.view
abbrev VXs : View sig .tc .vmem S1024x256 .f32 := (Memref.whole cc0_stg13_0 : Memref sig .tc .vmem S1024x256 .f32).view
abbrev VXg : View sig .tc .vmem S4096x256 .f32 := (Memref.whole cc0_stg14_0 : Memref sig .tc .vmem S4096x256 .f32).view

/-- The region invariant of the class with the scratch operands as memrefs owned at some contents. -/
theorem PhiA_eq (c : Dev nD) :
    (Pipeline.ΦA spec0 c : sProp 𝕄)
      = iprop(iprop((∃ d, owns (c : Thread nD τ) scPre fullShare d) ∗ (∃ d, owns (c : Thread nD τ) scAcc fullShare d) ∗ (∃ d, owns (c : Thread nD τ) scSkip fullShare d)) ∗ (∃ r, prngReg c r)) := by
  unfold Pipeline.ΦA; rw [scopedRest0_eq]; simp only [scPre, scAcc, scSkip, owns_whole]; try rfl

end Cert.KernelIdeal.Body

end
-- ==== Proof.KernelIdeal.RunMid.lean ====
/-
  The kernel body at a middle grid point (neither first nor last): the surface-side strip is computed and stored whole
  into its output buffer, the strip's transposed messages are added to the accumulator, and nothing else is written.
-/
import proofs.«172826_g87900800680619_cont_9to1_m_379_30_alg».proof.Proof.KernelIdeal.Shared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle point, on whole memrefs: the inputs at their contents, the surface-side output at anything, the idle graph-side output at contents handed back untouched, the three scratch buffers at the contents the point before left; it runs to the continuation with the surface-side output and the accumulator each holding the pieces the run finds, everything else as it was. -/
noncomputable def runMid (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : ¬condFirst i) (hc1 : ¬condLast i)
    (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sPre : Vec F S4096x256 .bf16) (sAcc : Vec F S256x4096 .f32) (sSkip : Vec F S4096x256 .f32) :
    Σ' (LXs : List (View.Piece (Elt F) S1024x256 .f32)), { LAcc : List (View.Piece (Elt F) S256x4096 .f32) //
      ∀ (xi14 : Vec F S4096x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ owns (c : Thread nD τ) arg15 fullShare xi14 ∗ owns (c : Thread nD τ) arg16 fullShare sPre ∗ owns (c : Thread nD τ) arg17 fullShare sAcc ∗ owns (c : Thread nD τ) arg18 fullShare sSkip
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f LXs) ∗ owns (c : Thread nD τ) arg15 fullShare xi14 ∗ owns (c : Thread nD τ) arg16 fullShare sPre ∗ (∃ f, arg17.view.loc (c : Thread nD τ) ↦[arg17.view.set]{fullShare} arg17.view.writes (Elt F) f LAcc) ∗ owns (c : Thread nD τ) arg18 fullShare sSkip) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, fun xi14 E K => ?run⟩
  case run =>
    simp only [cc0__body_eq_skeleton]; unfold cc0__body_skel
    simp only [k0_part1_eq_skeleton, k0_part2_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%f16, %hf16, H16⟩, ⟨%f17, %hf17, H17⟩, ⟨%f18, %hf18, H18⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg15.eq_unread hf15; obtain rfl := harg16.eq_unread hf16; obtain rfl := harg17.eq_unread hf17; obtain rfl := harg18.eq_unread hf18
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]; · iexists _; iexact H14
    isplitl [H15]
    · iexists _; isplitr; · ipureintro; exact harg15.read_unread _
      iexact H15
    isplitl [H16]
    · iexists _; isplitr; · ipureintro; exact harg16.read_unread _
      iexact H16
    isplitl [H17]; · iexists _; iexact H17
    iexists _; isplitr; · ipureintro; exact harg18.read_unread _
    iexact H18

end Cert.KernelIdeal.Body

end
-- ==== Proof.KernelIdeal.RunFirst.lean ====
/-
  The kernel body at the first grid point: the graph-side pre-layer and its skip half are computed and stored whole into
  their scratch buffers, the surface-side strip is computed and stored, and the accumulator is STARTED at the strip's
  transposed messages — the body reads the accumulator's old contents, adds, and then selects the fresh term, so what
  it stores does not depend on what the scratch held.
-/
import proofs.«172826_g87900800680619_cont_9to1_m_379_30_alg».proof.Proof.KernelIdeal.RunMid

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first point, on whole memrefs: the inputs at their contents, the surface-side output and two of the scratch buffers at anything, the accumulator at any given contents, the idle graph-side output handed back untouched; it runs to the continuation with the surface-side output and all three scratch buffers holding the pieces the run finds. -/
noncomputable def runFirst (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : condFirst i) (hc1 : ¬condLast i)
    (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sAcc : Vec F S256x4096 .f32) :
    Σ' (LXs : List (View.Piece (Elt F) S1024x256 .f32)), Σ' (LPre : List (View.Piece (Elt F) S4096x256 .bf16)), Σ' (LAcc : List (View.Piece (Elt F) S256x4096 .f32)), { LSkip : List (View.Piece (Elt F) S4096x256 .f32) //
      ∀ (xi14 : Vec F S4096x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ owns (c : Thread nD τ) arg15 fullShare xi14 ∗ (∃ d, owns (c : Thread nD τ) arg16 fullShare d) ∗ owns (c : Thread nD τ) arg17 fullShare sAcc ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f LXs) ∗ owns (c : Thread nD τ) arg15 fullShare xi14 ∗ (∃ f, arg16.view.loc (c : Thread nD τ) ↦[arg16.view.set]{fullShare} arg16.view.writes (Elt F) f LPre) ∗ (∃ f, arg17.view.loc (c : Thread nD τ) ↦[arg17.view.set]{fullShare} arg17.view.writes (Elt F) f LAcc) ∗ (∃ f, arg18.view.loc (c : Thread nD τ) ↦[arg18.view.set]{fullShare} arg18.view.writes (Elt F) f LSkip)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, fun xi14 E K => ?run⟩
  case run =>
    simp only [cc0__body_eq_skeleton]; unfold cc0__body_skel
    simp only [k0_part1_eq_skeleton, k0_part2_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%d16, %f16, -, H16⟩, ⟨%f17, %hf17, H17⟩, ⟨%d18, %f18, -, H18⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg15.eq_unread hf15; obtain rfl := harg17.eq_unread hf17
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]; · iexists _; iexact H14
    isplitl [H15]
    · iexists _; isplitr; · ipureintro; exact harg15.read_unread _
      iexact H15
    isplitl [H16]; · iexists _; iexact H16
    isplitl [H17]; · iexists _; iexact H17
    iexists _; iexact H18

end Cert.KernelIdeal.Body

end
-- ==== Proof.KernelIdeal.RunLast.lean ====
/-
  The kernel body at the last grid point: as at a middle point, and then the graph-side output is computed from the
  finished accumulator, 1024 rows at a time, into its output buffer.
-/
import proofs.«172826_g87900800680619_cont_9to1_m_379_30_alg».proof.Proof.KernelIdeal.RunFirst

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last point, on whole memrefs: the inputs at their contents, both outputs at anything, the three scratch buffers at the contents the point before left; it runs to the continuation with both outputs and the accumulator holding the pieces the run finds. -/
noncomputable def runLast (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : ¬condFirst i) (hc1 : condLast i)
    (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sPre : Vec F S4096x256 .bf16) (sAcc : Vec F S256x4096 .f32) (sSkip : Vec F S4096x256 .f32) :
    Σ' (LXs : List (View.Piece (Elt F) S1024x256 .f32)), Σ' (LXg : List (View.Piece (Elt F) S4096x256 .f32)), { LAcc : List (View.Piece (Elt F) S256x4096 .f32) //
      ∀  (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ owns (c : Thread nD τ) arg16 fullShare sPre ∗ owns (c : Thread nD τ) arg17 fullShare sAcc ∗ owns (c : Thread nD τ) arg18 fullShare sSkip
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f LXs) ∗ (∃ f, arg15.view.loc (c : Thread nD τ) ↦[arg15.view.set]{fullShare} arg15.view.writes (Elt F) f LXg) ∗ owns (c : Thread nD τ) arg16 fullShare sPre ∗ (∃ f, arg17.view.loc (c : Thread nD τ) ↦[arg17.view.set]{fullShare} arg17.view.writes (Elt F) f LAcc) ∗ owns (c : Thread nD τ) arg18 fullShare sSkip) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, fun  E K => ?run⟩
  case run =>
    simp only [cc0__body_eq_skeleton]; unfold cc0__body_skel
    simp only [k0_part1_eq_skeleton, k0_part2_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%f16, %hf16, H16⟩, ⟨%f17, %hf17, H17⟩, ⟨%f18, %hf18, H18⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg16.eq_unread hf16; obtain rfl := harg17.eq_unread hf17; obtain rfl := harg18.eq_unread hf18
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]; · iexists _; iexact H14
    isplitl [H15]; · iexists _; iexact H15
    isplitl [H16]
    · iexists _; isplitr; · ipureintro; exact harg16.read_unread _
      iexact H16
    isplitl [H17]; · iexists _; iexact H17
    iexists _; isplitr; · ipureintro; exact harg18.read_unread _
    iexact H18

end Cert.KernelIdeal.Body

end
-- ==== Proof.KernelIdeal.Pieces.lean ====
/-
  What each run leaves in the buffers it stores into, read back, and — for every buffer stored by ONE whole-buffer store —
  that this is the store's payload over the contents the body loaded: the body's arithmetic as one pure term of the input
  blocks and of what the scratch buffers held.
-/
import proofs.«172826_g87900800680619_cont_9to1_m_379_30_alg».proof.Proof.KernelIdeal.RunLast
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → ℕ) = fun _ => 0 := by funext a; fin_cases a <;> rfl

/-- What the first-point run leaves in the `xs` buffer: its pieces read back over junk. -/
def xsFirst (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : condFirst i) (hc1 : ¬condLast i) (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sAcc : Vec F S256x4096 .f32) : Vec F S1024x256 .f32 :=
  VXs.read (Elt F) (VXs.writes (Elt F) VXs.junk (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sAcc).1)
/-- Those pieces tile the buffer. -/
theorem cover_xsFirst (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : condFirst i) (hc1 : ¬condLast i) (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sAcc : Vec F S256x4096 .f32) (y : S1024x256.Idx) :
    ∃ pc ∈ (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sAcc).1, y ∈ pc.1.set :=
  View.cover_of_tiledL (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sAcc).1 S1024x256.size (by sl_kernel_rfl) y
/-- One whole-buffer store: the buffer holds its payload. -/
theorem xsFirst_eq (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : condFirst i) (hc1 : ¬condLast i) (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sAcc : Vec F S256x4096 .f32) :
    xsFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sAcc = k0_pay1 (k0_pay13 x1 x3 x4 x7) (k0_pay14 x0 (k0_pay8 x2 x5 x6)) x8 x9 := by
  unfold xsFirst
  rw [View.read_writes_eq_canon _ _ _ (cover_xsFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sAcc)]
  unfold runFirst
  dsimp only
  try sl_unfold_words
  rw [View.canon_unit_zero hz2]
  simp only [View.readAt_eq_ld, Memref.IsWhole.read_unread, View.ld_unit_zero (S := S1024x4096) hz2, View.ld_unit_zero (S := S1024x256) hz2, View.ld_unit_zero (S := S4096x256) hz2, View.ld_unit_zero (S := S256x256) hz2, View.ld_unit_zero (S := S1x256) hz2, View.ld_unit_zero (S := S256x4096) hz2, View.readCov_unit_zero (S := S4096x256) _ hz2]

/-- What the first-point run leaves in the `pre` buffer: its pieces read back over junk. -/
def preFirst (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : condFirst i) (hc1 : ¬condLast i) (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sAcc : Vec F S256x4096 .f32) : Vec F S4096x256 .bf16 :=
  VPre.read (Elt F) (VPre.writes (Elt F) VPre.junk (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sAcc).2.1)
/-- Those pieces tile the buffer. -/
theorem cover_preFirst (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : condFirst i) (hc1 : ¬condLast i) (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sAcc : Vec F S256x4096 .f32) (y : S4096x256.Idx) :
    ∃ pc ∈ (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sAcc).2.1, y ∈ pc.1.set :=
  View.cover_of_tiledL (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sAcc).2.1 S4096x256.size (by sl_kernel_rfl) y
/-- One whole-buffer store: the buffer holds its payload. -/
theorem preFirst_eq (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : condFirst i) (hc1 : ¬condLast i) (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sAcc : Vec F S256x4096 .f32) :
    preFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sAcc = k0_pay8 x2 x5 x6 := by
  unfold preFirst
  rw [View.read_writes_eq_canon _ _ _ (cover_preFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sAcc)]
  unfold runFirst
  dsimp only
  try sl_unfold_words
  rw [View.canon_unit_zero hz2]
  simp only [View.readAt_eq_ld, Memref.IsWhole.read_unread, View.ld_unit_zero (S := S1024x4096) hz2, View.ld_unit_zero (S := S1024x256) hz2, View.ld_unit_zero (S := S4096x256) hz2, View.ld_unit_zero (S := S256x256) hz2, View.ld_unit_zero (S := S1x256) hz2, View.ld_unit_zero (S := S256x4096) hz2]

/-- What the first-point run leaves in the `acc` buffer: its pieces read back over junk. -/
def accFirst (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : condFirst i) (hc1 : ¬condLast i) (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sAcc : Vec F S256x4096 .f32) : Vec F S256x4096 .f32 :=
  VAcc.read (Elt F) (VAcc.writes (Elt F) VAcc.junk (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sAcc).2.2.1)
/-- Those pieces tile the buffer. -/
theorem cover_accFirst (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : condFirst i) (hc1 : ¬condLast i) (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sAcc : Vec F S256x4096 .f32) (y : S256x4096.Idx) :
    ∃ pc ∈ (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sAcc).2.2.1, y ∈ pc.1.set :=
  View.cover_of_tiledL (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sAcc).2.2.1 S256x4096.size (by sl_kernel_rfl) y
/-- One whole-buffer store: the buffer holds its payload. -/
theorem accFirst_eq (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : condFirst i) (hc1 : ¬condLast i) (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sAcc : Vec F S256x4096 .f32) :
    accFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sAcc = k0_pay12 i x1 x3 x4 x0 sAcc := by
  unfold accFirst
  rw [View.read_writes_eq_canon _ _ _ (cover_accFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sAcc)]
  unfold runFirst
  dsimp only
  try sl_unfold_words
  rw [View.canon_unit_zero hz2]
  simp only [View.readAt_eq_ld, Memref.IsWhole.read_unread, View.ld_unit_zero (S := S1024x4096) hz2, View.ld_unit_zero (S := S1024x256) hz2, View.ld_unit_zero (S := S4096x256) hz2, View.ld_unit_zero (S := S256x256) hz2, View.ld_unit_zero (S := S1x256) hz2, View.ld_unit_zero (S := S256x4096) hz2]

/-- What the first-point run leaves in the `skip` buffer: its pieces read back over junk. -/
def skipFirst (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : condFirst i) (hc1 : ¬condLast i) (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sAcc : Vec F S256x4096 .f32) : Vec F S4096x256 .f32 :=
  VSkip.read (Elt F) (VSkip.writes (Elt F) VSkip.junk (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sAcc).2.2.2.1)
/-- Those pieces tile the buffer. -/
theorem cover_skipFirst (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : condFirst i) (hc1 : ¬condLast i) (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sAcc : Vec F S256x4096 .f32) (y : S4096x256.Idx) :
    ∃ pc ∈ (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sAcc).2.2.2.1, y ∈ pc.1.set :=
  View.cover_of_tiledL (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sAcc).2.2.2.1 S4096x256.size (by sl_kernel_rfl) y
/-- One whole-buffer store: the buffer holds its payload. -/
theorem skipFirst_eq (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : condFirst i) (hc1 : ¬condLast i) (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sAcc : Vec F S256x4096 .f32) :
    skipFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sAcc = k0_pay9 x2 x5 x6 x10 x12 := by
  unfold skipFirst
  rw [View.read_writes_eq_canon _ _ _ (cover_skipFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sAcc)]
  unfold runFirst
  dsimp only
  try sl_unfold_words
  rw [View.canon_unit_zero hz2]
  simp only [View.readAt_eq_ld, Memref.IsWhole.read_unread, View.ld_unit_zero (S := S1024x4096) hz2, View.ld_unit_zero (S := S1024x256) hz2, View.ld_unit_zero (S := S4096x256) hz2, View.ld_unit_zero (S := S256x256) hz2, View.ld_unit_zero (S := S1x256) hz2, View.ld_unit_zero (S := S256x4096) hz2]

/-- What the mid-point run leaves in the `xs` buffer: its pieces read back over junk. -/
def xsMid (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : ¬condFirst i) (hc1 : ¬condLast i) (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sPre : Vec F S4096x256 .bf16) (sAcc : Vec F S256x4096 .f32) (sSkip : Vec F S4096x256 .f32) : Vec F S1024x256 .f32 :=
  VXs.read (Elt F) (VXs.writes (Elt F) VXs.junk (runMid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sPre sAcc sSkip).1)
/-- Those pieces tile the buffer. -/
theorem cover_xsMid (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : ¬condFirst i) (hc1 : ¬condLast i) (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sPre : Vec F S4096x256 .bf16) (sAcc : Vec F S256x4096 .f32) (sSkip : Vec F S4096x256 .f32) (y : S1024x256.Idx) :
    ∃ pc ∈ (runMid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sPre sAcc sSkip).1, y ∈ pc.1.set :=
  View.cover_of_tiledL (runMid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sPre sAcc sSkip).1 S1024x256.size (by sl_kernel_rfl) y
/-- One whole-buffer store: the buffer holds its payload. -/
theorem xsMid_eq (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : ¬condFirst i) (hc1 : ¬condLast i) (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sPre : Vec F S4096x256 .bf16) (sAcc : Vec F S256x4096 .f32) (sSkip : Vec F S4096x256 .f32) :
    xsMid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sPre sAcc sSkip = k0_pay1 (k0_pay13 x1 x3 x4 x7) (k0_pay14 x0 sPre) x8 x9 := by
  unfold xsMid
  rw [View.read_writes_eq_canon _ _ _ (cover_xsMid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sPre sAcc sSkip)]
  unfold runMid
  dsimp only
  try sl_unfold_words
  rw [View.canon_unit_zero hz2]
  simp only [View.readAt_eq_ld, Memref.IsWhole.read_unread, View.ld_unit_zero (S := S1024x4096) hz2, View.ld_unit_zero (S := S1024x256) hz2, View.ld_unit_zero (S := S4096x256) hz2, View.ld_unit_zero (S := S256x256) hz2, View.ld_unit_zero (S := S1x256) hz2, View.ld_unit_zero (S := S256x4096) hz2]

/-- What the mid-point run leaves in the `acc` buffer: its pieces read back over junk. -/
def accMid (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : ¬condFirst i) (hc1 : ¬condLast i) (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sPre : Vec F S4096x256 .bf16) (sAcc : Vec F S256x4096 .f32) (sSkip : Vec F S4096x256 .f32) : Vec F S256x4096 .f32 :=
  VAcc.read (Elt F) (VAcc.writes (Elt F) VAcc.junk (runMid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sPre sAcc sSkip).2.1)
/-- Those pieces tile the buffer. -/
theorem cover_accMid (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : ¬condFirst i) (hc1 : ¬condLast i) (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sPre : Vec F S4096x256 .bf16) (sAcc : Vec F S256x4096 .f32) (sSkip : Vec F S4096x256 .f32) (y : S256x4096.Idx) :
    ∃ pc ∈ (runMid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sPre sAcc sSkip).2.1, y ∈ pc.1.set :=
  View.cover_of_tiledL (runMid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sPre sAcc sSkip).2.1 S256x4096.size (by sl_kernel_rfl) y
/-- One whole-buffer store: the buffer holds its payload. -/
theorem accMid_eq (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : ¬condFirst i) (hc1 : ¬condLast i) (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sPre : Vec F S4096x256 .bf16) (sAcc : Vec F S256x4096 .f32) (sSkip : Vec F S4096x256 .f32) :
    accMid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sPre sAcc sSkip = k0_pay12 i x1 x3 x4 x0 sAcc := by
  unfold accMid
  rw [View.read_writes_eq_canon _ _ _ (cover_accMid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sPre sAcc sSkip)]
  unfold runMid
  dsimp only
  try sl_unfold_words
  rw [View.canon_unit_zero hz2]
  simp only [View.readAt_eq_ld, Memref.IsWhole.read_unread, View.ld_unit_zero (S := S1024x4096) hz2, View.ld_unit_zero (S := S1024x256) hz2, View.ld_unit_zero (S := S4096x256) hz2, View.ld_unit_zero (S := S256x256) hz2, View.ld_unit_zero (S := S1x256) hz2, View.ld_unit_zero (S := S256x4096) hz2]

/-- What the last-point run leaves in the `xs` buffer: its pieces read back over junk. -/
def xsLast (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : ¬condFirst i) (hc1 : condLast i) (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sPre : Vec F S4096x256 .bf16) (sAcc : Vec F S256x4096 .f32) (sSkip : Vec F S4096x256 .f32) : Vec F S1024x256 .f32 :=
  VXs.read (Elt F) (VXs.writes (Elt F) VXs.junk (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sPre sAcc sSkip).1)
/-- Those pieces tile the buffer. -/
theorem cover_xsLast (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : ¬condFirst i) (hc1 : condLast i) (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sPre : Vec F S4096x256 .bf16) (sAcc : Vec F S256x4096 .f32) (sSkip : Vec F S4096x256 .f32) (y : S1024x256.Idx) :
    ∃ pc ∈ (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sPre sAcc sSkip).1, y ∈ pc.1.set :=
  View.cover_of_tiledL (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sPre sAcc sSkip).1 S1024x256.size (by sl_kernel_rfl) y
/-- One whole-buffer store: the buffer holds its payload. -/
theorem xsLast_eq (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : ¬condFirst i) (hc1 : condLast i) (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sPre : Vec F S4096x256 .bf16) (sAcc : Vec F S256x4096 .f32) (sSkip : Vec F S4096x256 .f32) :
    xsLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sPre sAcc sSkip = k0_pay1 (k0_pay13 x1 x3 x4 x7) (k0_pay14 x0 sPre) x8 x9 := by
  unfold xsLast
  rw [View.read_writes_eq_canon _ _ _ (cover_xsLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sPre sAcc sSkip)]
  unfold runLast
  dsimp only
  try sl_unfold_words
  rw [View.canon_unit_zero hz2]
  simp only [View.readAt_eq_ld, Memref.IsWhole.read_unread, View.ld_unit_zero (S := S1024x4096) hz2, View.ld_unit_zero (S := S1024x256) hz2, View.ld_unit_zero (S := S4096x256) hz2, View.ld_unit_zero (S := S256x256) hz2, View.ld_unit_zero (S := S1x256) hz2, View.ld_unit_zero (S := S256x4096) hz2]

/-- What the last-point run leaves in the `xg` buffer: its pieces read back over junk. -/
def xgLast (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : ¬condFirst i) (hc1 : condLast i) (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sPre : Vec F S4096x256 .bf16) (sAcc : Vec F S256x4096 .f32) (sSkip : Vec F S4096x256 .f32) : Vec F S4096x256 .f32 :=
  VXg.read (Elt F) (VXg.writes (Elt F) VXg.junk (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sPre sAcc sSkip).2.1)
/-- Those pieces tile the buffer. -/
theorem cover_xgLast (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : ¬condFirst i) (hc1 : condLast i) (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sPre : Vec F S4096x256 .bf16) (sAcc : Vec F S256x4096 .f32) (sSkip : Vec F S4096x256 .f32) (y : S4096x256.Idx) :
    ∃ pc ∈ (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sPre sAcc sSkip).2.1, y ∈ pc.1.set :=
  View.cover_of_tiledL (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sPre sAcc sSkip).2.1 S1024x256.size (by sl_kernel_rfl) y

/-- What the last-point run leaves in the `acc` buffer: its pieces read back over junk. -/
def accLast (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : ¬condFirst i) (hc1 : condLast i) (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sPre : Vec F S4096x256 .bf16) (sAcc : Vec F S256x4096 .f32) (sSkip : Vec F S4096x256 .f32) : Vec F S256x4096 .f32 :=
  VAcc.read (Elt F) (VAcc.writes (Elt F) VAcc.junk (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sPre sAcc sSkip).2.2.1)
/-- Those pieces tile the buffer. -/
theorem cover_accLast (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : ¬condFirst i) (hc1 : condLast i) (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sPre : Vec F S4096x256 .bf16) (sAcc : Vec F S256x4096 .f32) (sSkip : Vec F S4096x256 .f32) (y : S256x4096.Idx) :
    ∃ pc ∈ (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sPre sAcc sSkip).2.2.1, y ∈ pc.1.set :=
  View.cover_of_tiledL (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sPre sAcc sSkip).2.2.1 S256x4096.size (by sl_kernel_rfl) y
/-- One whole-buffer store: the buffer holds its payload. -/
theorem accLast_eq (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : ¬condFirst i) (hc1 : condLast i) (x0 : Vec F S1024x4096 .f32) (x1 : Vec F S1024x256 .f32) (x2 : Vec F S4096x256 .f32) (x3 : Vec F S256x256 .bf16) (x4 : Vec F S1x256 .f32) (x5 : Vec F S256x256 .bf16) (x6 : Vec F S1x256 .f32) (x7 : Vec F S256x256 .bf16) (x8 : Vec F S256x256 .bf16) (x9 : Vec F S1x256 .f32) (x10 : Vec F S256x256 .bf16) (x11 : Vec F S256x256 .bf16) (x12 : Vec F S1x256 .f32) (sPre : Vec F S4096x256 .bf16) (sAcc : Vec F S256x4096 .f32) (sSkip : Vec F S4096x256 .f32) :
    accLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sPre sAcc sSkip = k0_pay12 i x1 x3 x4 x0 sAcc := by
  unfold accLast
  rw [View.read_writes_eq_canon _ _ _ (cover_accLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sPre sAcc sSkip)]
  unfold runLast
  dsimp only
  try sl_unfold_words
  rw [View.canon_unit_zero hz2]
  simp only [View.readAt_eq_ld, Memref.IsWhole.read_unread, View.ld_unit_zero (S := S1024x4096) hz2, View.ld_unit_zero (S := S1024x256) hz2, View.ld_unit_zero (S := S4096x256) hz2, View.ld_unit_zero (S := S256x256) hz2, View.ld_unit_zero (S := S1x256) hz2, View.ld_unit_zero (S := S256x4096) hz2]

end Cert.KernelIdeal.Body

end
-- ==== Proof.KernelIdeal.Select.lean ====
/-
  The accumulator's stored value at the first point. The body computes both the fresh term and the old contents plus the
  fresh term, and selects the fresh term when the point is the first: so at the first point what is stored does not depend
  on what the accumulator held.
-/
import proofs.«172826_g87900800680619_cont_9to1_m_379_30_alg».proof.Proof.KernelIdeal.Shared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word the select tests is one when the first conditional holds. -/
theorem word_of_first (v : BitVec 1) (h : Scalar.cmpi .ne (Scalar.extui v : BitVec 32) 0#32 = 1#1) : v = 1#1 := by
  revert h; revert v; decide

/-- At the first point the accumulator's stored value is the same whatever the accumulator held. -/
theorem pay12_first (i : grid0.Coords) (h : condFirst i) (v3 : Vec F S1024x256 .f32) (v5 : Vec F S256x256 .bf16) (v8 : Vec F S1x256 .f32)
    (v16 : Vec F S1024x4096 .f32) (a b : Vec F S256x4096 .f32) :
    k0_pay12 i v3 v5 v8 v16 a = k0_pay12 i v3 v5 v8 v16 b := by
  have hw := word_of_first _ h
  unfold k0_pay12
  dsimp only
  rw [hw]
  rfl

end Cert.KernelIdeal.Body

end
-- ==== Proof.KernelIdeal.Frame.lean ====
/-
  The frame of the kernel: what the five buffers the body writes — the two outputs' staging buffers and the three scratch
  buffers — hold after each grid point, by recursion on the point; the region invariant that carries the scratch
  contents from one point to the next; the proof data; the body obligation at every point, by the point's case; and the run.
  At the first point the accumulator's old contents are read before anything was stored there: what is stored back does
  not depend on them (the stored value is selected to be the fresh term), which is what makes the recursion start.
-/
import proofs.«172826_g87900800680619_cont_9to1_m_379_30_alg».proof.Proof.KernelIdeal.Pieces
import proofs.«172826_g87900800680619_cont_9to1_m_379_30_alg».proof.Proof.KernelIdeal.Select

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents of the five written buffers after a point: the surface-side output's staging buffer, the graph-side
    output's, and the three scratch buffers (graph-side pre-layer, transposed message accumulator, graph-side skip half). -/
structure St (F : FTy → Type) [FloatOps F] where
  xs : Vec F S1024x256 .f32
  xg : Vec F S4096x256 .f32
  pre : Vec F S4096x256 .bf16
  acc : Vec F S256x4096 .f32
  skip : Vec F S4096x256 .f32

theorem notFirst_succ (n : ℕ) (hn : n + 1 < cfg0.N) : ¬condFirst (grid0.coords ⟨n + 1, hn⟩) :=
  fun h => Nat.succ_ne_zero n ((hcondFirst ⟨n + 1, hn⟩).mp h)

/-- What the buffers hold after the body at position `n`: the first point's run from any accumulator contents (a
    placeholder: the result does not depend on them), a later point's run from what the point before left. The graph-side
    output's buffer is untouched (a placeholder nothing consults) until the last point. -/
def stateAt (c : Dev nD) : (n : ℕ) → n < cfg0.N → St F
  | 0, hn =>
    let t : Fin cfg0.N := ⟨0, hn⟩
    let h0 : condFirst (grid0.coords t) := (hcondFirst t).mpr rfl
    let h1 : ¬condLast (grid0.coords t) := fun h => (show (0 : ℕ) ≠ 7 by decide) ((hcondLast t).mp h)
    let a0 : Vec F S256x4096 .f32 := VAcc.read (Elt F) VAcc.junk
    { xs := xsFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) a0
      xg := VXg.read (Elt F) VXg.junk
      pre := preFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) a0
      acc := accFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) a0
      skip := skipFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) a0 }
  | n + 1, hn =>
    let t : Fin cfg0.N := ⟨n + 1, hn⟩
    let p : St F := stateAt c n (Nat.lt_of_succ_lt hn)
    let h0 : ¬condFirst (grid0.coords t) := notFirst_succ n hn
    if h7 : n + 1 = 7 then
      let h1 : condLast (grid0.coords t) := (hcondLast t).mpr h7
      { xs := xsLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) p.pre p.acc p.skip
        xg := xgLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) p.pre p.acc p.skip
        pre := p.pre
        acc := accLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) p.pre p.acc p.skip
        skip := p.skip }
    else
      let h1 : ¬condLast (grid0.coords t) := fun h => h7 ((hcondLast t).mp h)
      { xs := xsMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) p.pre p.acc p.skip
        xg := p.xg
        pre := p.pre
        acc := accMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) p.pre p.acc p.skip
        skip := p.skip }

/-- The state before point `t` (what the point before left), for `t` not the first. -/
abbrev prevAt (c : Dev nD) (t : Fin cfg0.N) : St F := stateAt m c (t.val - 1) (Nat.lt_of_le_of_lt (Nat.sub_le _ _) t.isLt)

theorem stateAt_first (c : Dev nD) (t : Fin cfg0.N) (h0 : condFirst (grid0.coords t)) (h1 : ¬condLast (grid0.coords t)) :
    stateAt m c t.val t.isLt =
      { xs := xsFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (VAcc.read (Elt F) VAcc.junk)
        xg := VXg.read (Elt F) VXg.junk
        pre := preFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (VAcc.read (Elt F) VAcc.junk)
        acc := accFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (VAcc.read (Elt F) VAcc.junk)
        skip := skipFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (VAcc.read (Elt F) VAcc.junk) } := by
  obtain ⟨n, hn⟩ := t
  have hz : n = 0 := (hcondFirst ⟨n, hn⟩).mp h0
  subst hz; rfl

theorem stateAt_mid (c : Dev nD) (t : Fin cfg0.N) (h0 : ¬condFirst (grid0.coords t)) (h1 : ¬condLast (grid0.coords t)) :
    stateAt m c t.val t.isLt =
      { xs := xsMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (prevAt m c t).pre (prevAt m c t).acc (prevAt m c t).skip
        xg := (prevAt m c t).xg
        pre := (prevAt m c t).pre
        acc := accMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (prevAt m c t).pre (prevAt m c t).acc (prevAt m c t).skip
        skip := (prevAt m c t).skip } := by
  obtain ⟨n, hn⟩ := t
  cases n with
  | zero => exact absurd ((hcondFirst ⟨0, hn⟩).mpr rfl) h0
  | succ n =>
    have h7 : ¬(n + 1 = 7) := fun h => h1 ((hcondLast ⟨n + 1, hn⟩).mpr h)
    exact (dif_neg h7).trans rfl

theorem stateAt_last (c : Dev nD) (t : Fin cfg0.N) (h0 : ¬condFirst (grid0.coords t)) (h1 : condLast (grid0.coords t)) :
    stateAt m c t.val t.isLt =
      { xs := xsLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (prevAt m c t).pre (prevAt m c t).acc (prevAt m c t).skip
        xg := xgLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (prevAt m c t).pre (prevAt m c t).acc (prevAt m c t).skip
        pre := (prevAt m c t).pre
        acc := accLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (prevAt m c t).pre (prevAt m c t).acc (prevAt m c t).skip
        skip := (prevAt m c t).skip } := by
  obtain ⟨n, hn⟩ := t
  cases n with
  | zero => exact absurd ((hcondFirst ⟨0, hn⟩).mpr rfl) h0
  | succ n =>
    have h7 : n + 1 = 7 := (hcondLast ⟨n + 1, hn⟩).mp h1
    exact (dif_pos h7).trans rfl

/-! ## The region invariant -/

/-- Before the first point the class's invariant (every scratch buffer at anything); before a later point the three scratch
    buffers at what the point before left, and the generator register at some state. -/
def PhiS (c : Dev nD) : (n : ℕ) → n ≤ cfg0.N → sProp 𝕄
  | 0, _ => Pipeline.ΦA spec0 c
  | n + 1, hn => iprop(iprop(owns (c : Thread nD τ) scPre fullShare (stateAt m c n hn).pre ∗ owns (c : Thread nD τ) scAcc fullShare (stateAt m c n hn).acc ∗ owns (c : Thread nD τ) scSkip fullShare (stateAt m c n hn).skip) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scPre fullShare (stateAt m c n hn).pre ∗ owns (c : Thread nD τ) scAcc fullShare (stateAt m c n hn).acc ∗ owns (c : Thread nD τ) scSkip fullShare (stateAt m c n hn).skip) ∗ (∃ r, prngReg c r)) := rfl

theorem PhiS_pos (c : Dev nD) (n : ℕ) (h : n ≤ cfg0.N) (hz : n ≠ 0) :
    PhiS m c n h = iprop(iprop(owns (c : Thread nD τ) scPre fullShare (stateAt m c (n - 1) (by omega)).pre ∗ owns (c : Thread nD τ) scAcc fullShare (stateAt m c (n - 1) (by omega)).acc ∗ owns (c : Thread nD τ) scSkip fullShare (stateAt m c (n - 1) (by omega)).skip) ∗ (∃ r, prngReg c r)) := by
  cases n with
  | zero => exact absurd rfl hz
  | succ n => rfl

/-! ## The proof data -/

/-- The arrays as the region finds them; after the body at point `t` each input's buffer at its block and the two outputs'
    at the state's components; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (stateAt m c t.val t.isLt).xs
    | ⟨14, _⟩ => (stateAt m c t.val t.isLt).xg
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = (stateAt m c t.val t.isLt).xs := by dsimp only [dats]
theorem after14 (c : Dev nD) (t : Fin cfg0.N) : (dats m 0 c).after 14 t = (stateAt m c t.val t.isLt).xg := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

set_option maxHeartbeats 8000000 in
/-- The body at any point: the inputs' memrefs hold their blocks; the closed forms say which case the point is in; that
    case's run applies — the invariant hands it the scratch buffers at what the point before left (at anything, at the first
    point) and takes them back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  rw [show (dats m 0 c).leavesExact 7 t = owns (c : Thread nD τ) (ms7 t) fullShare ((dats m 0 c).after 7 t) from by
    unfold Dat.leavesExact; rw [live7 t], after7]
  rw [show (dats m 0 c).leavesExact 8 t = owns (c : Thread nD τ) (ms8 t) fullShare ((dats m 0 c).after 8 t) from by
    unfold Dat.leavesExact; rw [live8 t], after8]
  rw [show (dats m 0 c).leavesExact 9 t = owns (c : Thread nD τ) (ms9 t) fullShare ((dats m 0 c).after 9 t) from by
    unfold Dat.leavesExact; rw [live9 t], after9]
  rw [show (dats m 0 c).leavesExact 10 t = owns (c : Thread nD τ) (ms10 t) fullShare ((dats m 0 c).after 10 t) from by
    unfold Dat.leavesExact; rw [live10 t], after10]
  rw [show (dats m 0 c).leavesExact 11 t = owns (c : Thread nD τ) (ms11 t) fullShare ((dats m 0 c).after 11 t) from by
    unfold Dat.leavesExact; rw [live11 t], after11]
  rw [show (dats m 0 c).leavesExact 12 t = owns (c : Thread nD τ) (ms12 t) fullShare ((dats m 0 c).after 12 t) from by
    unfold Dat.leavesExact; rw [live12 t], after12]
  rw [show (dats m 0 c).leavesExact 13 t = owns (c : Thread nD τ) (ms13 t) fullShare ((dats m 0 c).after 13 t) from by
    unfold Dat.leavesExact; rw [live13 t], after13]
  by_cases h0 : condFirst (grid0.coords t)
  · have hz : t.val = 0 := (hcondFirst t).mp h0
    have h1 : ¬condLast (grid0.coords t) := fun h => by have b := (hcondLast t).mp h; omega
    rw [Dat.leavesExact_idle (dats m 0 c) 14 t (idle14 t h1) (noFlush14 t h1)]
    rw [stateAt_first m c t h0 h1]; dsimp only
    rw [PhiS_castSucc m c t, PhiS_zero m c _ _ hz, PhiA_eq]
    iintro ⟨⟨⟨HP, ⟨%dA, HA⟩, HK⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) dA).2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexact H14
    isplitl [HP]; · iexact HP
    isplitl [HA]; · iexact HA
    isplitl [HK]; · iexact HK
    iintro ⟨H0, H1, H2, H3, H4, H5, H6, H7, H8, H9, H10, H11, H12, ⟨%e13, H13⟩, H14, ⟨%eP, HP⟩, ⟨%eA, HA⟩, ⟨%eK, HK⟩⟩
    isplitl [HP HA HK Hg]
    · isplitl [HP HA HK]
      · isplitl [HP]
        · unfold owns; iexists _; isplitr
          swap; · iexact HP
          ipureintro; exact (View.read_writes_of_cover _ _ VPre VPre.junk _ (cover_preFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) dA)).trans ((preFirst_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) dA).trans ((preFirst_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (VAcc.read (Elt F) VAcc.junk)).symm))
        isplitl [HA]
        · unfold owns; iexists _; isplitr
          swap; · iexact HA
          ipureintro; exact (View.read_writes_of_cover _ _ VAcc VAcc.junk _ (cover_accFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) dA)).trans ((accFirst_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) dA).trans ((pay12_first _ h0 _ _ _ _ _ _).trans (accFirst_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (VAcc.read (Elt F) VAcc.junk)).symm))
        unfold owns; iexists _; isplitr
        swap; · iexact HK
        ipureintro; exact (View.read_writes_of_cover _ _ VSkip VSkip.junk _ (cover_skipFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) dA)).trans ((skipFirst_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) dA).trans ((skipFirst_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (VAcc.read (Elt F) VAcc.junk)).symm))
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · unfold owns; iexists _; isplitr
      swap; · iexact H13
      ipureintro; exact (View.read_writes_of_cover _ _ VXs VXs.junk _ (cover_xsFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) dA)).trans ((xsFirst_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) dA).trans ((xsFirst_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (VAcc.read (Elt F) VAcc.junk)).symm))
    iexists _; iexact H14
  · have hz : t.val ≠ 0 := fun h => h0 ((hcondFirst t).mpr h)
    by_cases h1 : condLast (grid0.coords t)
    · rw [show (dats m 0 c).leavesExact 14 t = owns (c : Thread nD τ) (ms14 t) fullShare ((dats m 0 c).after 14 t) from by
        unfold Dat.leavesExact; rw [live14 t h1], after14]
      rw [stateAt_last m c t h0 h1]; dsimp only
      rw [PhiS_castSucc m c t, PhiS_pos m c _ _ hz]
      iintro ⟨⟨⟨HP, HA, HK⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (prevAt m c t).pre (prevAt m c t).acc (prevAt m c t).skip).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [HP]; · iexact HP
      isplitl [HA]; · iexact HA
      isplitl [HK]; · iexact HK
      iintro ⟨H0, H1, H2, H3, H4, H5, H6, H7, H8, H9, H10, H11, H12, ⟨%e13, H13⟩, ⟨%e14, H14⟩, HP, ⟨%eA, HA⟩, HK⟩
      isplitl [HP HA HK Hg]
      · isplitl [HP HA HK]
        · isplitl [HP]; · iexact HP
          isplitl [HA]
          · unfold owns; iexists _; isplitr
            swap; · iexact HA
            ipureintro; exact View.read_writes_of_cover _ _ VAcc VAcc.junk _ (cover_accLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (prevAt m c t).pre (prevAt m c t).acc (prevAt m c t).skip)
          iexact HK
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · unfold owns; iexists _; isplitr
        swap; · iexact H13
        ipureintro; exact View.read_writes_of_cover _ _ VXs VXs.junk _ (cover_xsLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (prevAt m c t).pre (prevAt m c t).acc (prevAt m c t).skip)
      unfold owns; iexists _; isplitr
      swap; · iexact H14
      ipureintro; exact View.read_writes_of_cover _ _ VXg VXg.junk _ (cover_xgLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (prevAt m c t).pre (prevAt m c t).acc (prevAt m c t).skip)
    · rw [Dat.leavesExact_idle (dats m 0 c) 14 t (idle14 t h1) (noFlush14 t h1)]
      rw [stateAt_mid m c t h0 h1]; dsimp only
      rw [PhiS_castSucc m c t, PhiS_pos m c _ _ hz]
      iintro ⟨⟨⟨HP, HA, HK⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (prevAt m c t).pre (prevAt m c t).acc (prevAt m c t).skip).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexact H14
      isplitl [HP]; · iexact HP
      isplitl [HA]; · iexact HA
      isplitl [HK]; · iexact HK
      iintro ⟨H0, H1, H2, H3, H4, H5, H6, H7, H8, H9, H10, H11, H12, ⟨%e13, H13⟩, H14, HP, ⟨%eA, HA⟩, HK⟩
      isplitl [HP HA HK Hg]
      · isplitl [HP HA HK]
        · isplitl [HP]; · iexact HP
          isplitl [HA]
          · unfold owns; iexists _; isplitr
            swap; · iexact HA
            ipureintro; exact View.read_writes_of_cover _ _ VAcc VAcc.junk _ (cover_accMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (prevAt m c t).pre (prevAt m c t).acc (prevAt m c t).skip)
          iexact HK
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · unfold owns; iexists _; isplitr
        swap; · iexact H13
        ipureintro; exact View.read_writes_of_cover _ _ VXs VXs.junk _ (cover_xsMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) scPre (Memref.isWhole_whole _) scAcc (Memref.isWhole_whole _) scSkip (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (prevAt m c t).pre (prevAt m c t).acc (prevAt m c t).skip)
      iexists _; iexact H14

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 8 := N_0; omega
  rw [show (dats m 0 c).Φ (Fin.last cfg0.N) = PhiS m c (Fin.last cfg0.N).val (Nat.le_of_lt_succ (Fin.last cfg0.N).isLt) from rfl, PhiS_pos m c _ _ ht, PhiA_eq]
  iintro ⟨⟨HP, HA, HK⟩, Hg⟩
  isplitl [HP HA HK]
  · isplitl [HP]; · iexists _; iexact HP
    isplitl [HA]; · iexists _; iexact HA
    iexists _; iexact HK
  iexact Hg

/-! ## The run and the frame -/

set_option backward.isDefEq.respectTransparency.types false in
/-- Every weakly fair execution of @main terminates, and in every final state each array of the pipeline holds what the
    library computes from the proof data, every other unscoped buffer what it held at the region's entry. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Body

end
-- ==== Proof.LibBlockSum.lean ====
/-
  Sums over a range cut into equal blocks.

  A sum over `n * b` consecutive indices is the sum, over the `n` blocks, of the sum over the `b` indices of each
  block: index `q` of block `j` is the index `q + b * j` of the whole range, and every index of the whole range
  is of this form exactly once.  The same at the sizes 16 blocks of 512, written with a range of block numbers;
  and a sum over the first `n + 1` block numbers is the sum over the first `n` plus the last term.
-/
import Mathlib.Algebra.BigOperators.Fin
import Mathlib.Algebra.BigOperators.Group.Finset.Basic
import Mathlib.Data.Fintype.BigOperators
import Mathlib.Logic.Equiv.Fin.Basic

open scoped BigOperators

namespace Cert.LibBlockSum

/-- Index `q` of block `j`, among `n` blocks of `b` indices each, is the index `q + b * j` of the whole range. -/
theorem finProd_val {n b : ℕ} (j : Fin n) (q : Fin b) : (finProdFinEquiv (j, q)).val = q.val + b * j.val := rfl

/-- The sum over the blocks of the sums over each block is the sum over the whole range of `n * b` indices. -/
theorem sum_blocks {M : Type*} [AddCommMonoid M] {n b : ℕ} (f : Fin (n * b) → M) :
    ∑ j : Fin n, ∑ q : Fin b, f (finProdFinEquiv (j, q)) = ∑ i, f i :=
  (Fintype.sum_prod_type' fun (j : Fin n) (q : Fin b) => f (finProdFinEquiv (j, q))).symm.trans
    (Equiv.sum_comp finProdFinEquiv f)

/-- The same for 8192 indices cut into 16 blocks of 512, the block number running over a range of naturals:
    index `q` of block `j` is `512 * j + q`, which is below 8192 for every block number below 16. -/
theorem sum_blocks_8192 {M : Type*} [AddCommMonoid M] (f : Fin 8192 → M) :
    ∑ j ∈ Finset.range 16, ∑ q : Fin 512, (if h : 512 * j + q.val < 8192 then f ⟨512 * j + q.val, h⟩ else 0)
      = ∑ i, f i := by
  refine Eq.trans ?_ (sum_blocks (n := 16) (b := 512) f)
  rw [Finset.sum_range fun j => ∑ q : Fin 512, (if h : 512 * j + q.val < 8192 then f ⟨512 * j + q.val, h⟩ else 0)]
  refine Finset.sum_congr rfl fun j _ => Finset.sum_congr rfl fun q _ => ?_
  have hlt : 512 * j.val + q.val < 8192 := by have := j.isLt; have := q.isLt; omega
  rw [dif_pos hlt]
  exact congrArg f (Fin.ext (by show 512 * j.val + q.val = q.val + 512 * j.val; omega))

/-- A sum over the first `n + 1` naturals is the sum over the first `n` plus the term at `n`. -/
theorem sum_range_step {M : Type*} [AddCommMonoid M] (g : ℕ → M) (n : ℕ) :
    ∑ j ∈ Finset.range (n + 1), g j = (∑ j ∈ Finset.range n, g j) + g n :=
  Finset.sum_range_succ g n

end Cert.LibBlockSum
-- ==== Proof.Spec.lean ====
/-
  The mathematics of the block, over the extended reals, as functions of coordinates.

  From a surface array sx (8192 × 256), a graph array gx (4096 × 256) and weights rbf (8192 × 4096):
  the pre-layers  xsPre = max(sx·Wsp + bsp, 0)  and  xgPre = max(gx·Wgp + bgp, 0);  the messages  rbf·xgPre  to the
  surface and  rbfᵀ·xsPre  to the graph;  and the two post-layers, each a 512-deep dense layer of the pre-layer joined
  with the message, plus a bias, then the maximum with zero.

  Two arrangements of each post-layer are compared. The 512-deep contraction is the sum of its two 256-deep halves; on
  the graph side the bias may be added before or after the message half (addition of extended reals is commutative and
  associative), and each message entry is a sum of products whose factors may be swapped. The graph-side message is
  accumulated strip by strip, eight strips of 1024 surface rows: the running sum after the last strip is the whole sum.
  No law used here needs a finite value.
-/
import Mathlib.Data.EReal.Basic
import Mathlib.Algebra.BigOperators.Fin
import Idealize.ShloMosaic.Lib.ValueIdx
import proofs.«172826_g87900800680619_cont_9to1_m_379_30_alg».proof.Proof.LibBlockSum

noncomputable section

namespace Cert.Spec

open Idealize.ShloMosaic Idealize.ShloMosaic.ValueIdx

/-- Row c of the first half of a 512-row weight matrix, and of its second half. -/
abbrev lo (c : Fin 256) : Fin 512 := ⟨c.val, by omega⟩
abbrev hi (c : Fin 256) : Fin 512 := ⟨256 + c.val, by omega⟩
/-- Row r of strip s, among eight strips of 1024 surface rows. -/
abbrev row (s : Fin 8) (r : Fin 1024) : Fin 8192 := ⟨1024 * s.val + r.val, by omega⟩

/-! ## Sums cut in halves and in strips -/

/-- A sum over 512 indices is the sum over the first 256 plus the sum over the last 256. -/
theorem sum_halves {M : Type*} [AddCommMonoid M] (f : Fin 512 → M) :
    ∑ k : Fin 512, f k = (∑ c : Fin 256, f (lo c)) + ∑ c : Fin 256, f (hi c) := by
  have h := Fin.sum_univ_add (a := 256) (b := 256) (fun k : Fin (256 + 256) => f k)
  refine h.trans ?_
  congr 1

/-- A sum over the 8192 surface rows is the sum over the eight strips of the sums over each strip's rows. -/
theorem sum_strips {M : Type*} [AddCommMonoid M] (f : Fin 8192 → M) :
    ∑ i : Fin 8192, f i = ∑ s : Fin 8, ∑ r : Fin 1024, f (row s r) := by
  rw [← Cert.LibBlockSum.sum_blocks (n := 8) (b := 1024) (fun i : Fin (8 * 1024) => f i)]
  refine Finset.sum_congr rfl fun s _ => Finset.sum_congr rfl fun r _ => congrArg f (Fin.ext ?_)
  show r.val + 1024 * s.val = 1024 * s.val + r.val
  omega

/-- The running sum of the strips' terms up to strip n. -/
def upTo {M : Type*} [AddCommMonoid M] (B : Fin 8 → M) (n : ℕ) (hn : n < 8) : M :=
  ∑ s : Fin (n + 1), B ⟨s.val, by have := s.isLt; omega⟩

theorem upTo_zero {M : Type*} [AddCommMonoid M] (B : Fin 8 → M) (h : 0 < 8) : upTo B 0 h = B ⟨0, h⟩ := by
  unfold upTo
  rw [Fin.sum_univ_one]
  rfl

theorem upTo_succ {M : Type*} [AddCommMonoid M] (B : Fin 8 → M) (n : ℕ) (hn : n + 1 < 8) :
    upTo B (n + 1) hn = upTo B n (by omega) + B ⟨n + 1, hn⟩ := by
  unfold upTo
  rw [Fin.sum_univ_castSucc]
  rfl

theorem upTo_last {M : Type*} [AddCommMonoid M] (B : Fin 8 → M) (h : 7 < 8) : upTo B 7 h = ∑ s : Fin 8, B s := by
  unfold upTo
  exact Finset.sum_congr rfl fun s _ => rfl

/-! ## The block -/

section Block

variable (sx : (⟨2, ![8192, 256]⟩ : Shape).Idx → EReal) (gx : (⟨2, ![4096, 256]⟩ : Shape).Idx → EReal)
  (rbf : (⟨2, ![8192, 4096]⟩ : Shape).Idx → EReal)
  (Wsp Wgp : (⟨2, ![256, 256]⟩ : Shape).Idx → EReal) (bsp bgp bso bgo : (⟨1, ![256]⟩ : Shape).Idx → EReal)
  (Wso Wgo : (⟨2, ![512, 256]⟩ : Shape).Idx → EReal) (z : EReal)

/-- The surface-side pre-layer. -/
def xsPre (i : Fin 8192) (d : Fin 256) : EReal := max ((∑ c : Fin 256, sx (ix2 i c) * Wsp (ix2 c d)) + bsp (ix1 d)) z
/-- The graph-side pre-layer. -/
def xgPre (j : Fin 4096) (d : Fin 256) : EReal := max ((∑ c : Fin 256, gx (ix2 j c) * Wgp (ix2 c d)) + bgp (ix1 d)) z
/-- The message a surface row receives. -/
def msgS (i : Fin 8192) (d : Fin 256) : EReal := ∑ j : Fin 4096, rbf (ix2 i j) * xgPre gx Wgp bgp z j d
/-- The surface-side output, the 512-deep layer written as its two halves. -/
def outS (i : Fin 8192) (q : Fin 256) : EReal :=
  max (((∑ c : Fin 256, xsPre sx Wsp bsp z i c * Wso (ix2 (lo c) q))
      + (∑ c : Fin 256, msgS gx rbf Wgp bgp z i c * Wso (ix2 (hi c) q))) + bso (ix1 q)) z
/-- One strip's term of the transposed message to the graph. -/
def stripT (s : Fin 8) (d : Fin 256) (j : Fin 4096) : EReal :=
  ∑ r : Fin 1024, xsPre sx Wsp bsp z (row s r) d * rbf (ix2 (row s r) j)
/-- The transposed message to the graph: entry (d, j) is the message graph row j receives in lane d. -/
def accT (d : Fin 256) (j : Fin 4096) : EReal := ∑ i : Fin 8192, xsPre sx Wsp bsp z i d * rbf (ix2 i j)
/-- The graph-side skip half with the bias. -/
def skipG (j : Fin 4096) (q : Fin 256) : EReal :=
  (∑ c : Fin 256, xgPre gx Wgp bgp z j c * Wgo (ix2 (lo c) q)) + bgo (ix1 q)
/-- The graph-side output: the skip half with its bias, plus the message half, then the maximum with zero. -/
def outG (j : Fin 4096) (q : Fin 256) : EReal :=
  max (skipG gx Wgp bgp bgo Wgo z j q + ∑ d : Fin 256, accT sx rbf Wsp bsp z d j * Wgo (ix2 (hi d) q)) z

/-- The strips' terms add up to the whole transposed message. -/
theorem accT_eq_strips (d : Fin 256) (j : Fin 4096) :
    accT sx rbf Wsp bsp z d j = ∑ s : Fin 8, stripT sx rbf Wsp bsp z s d j := by
  unfold accT stripT
  exact sum_strips fun i => xsPre sx Wsp bsp z i d * rbf (ix2 i j)

/-- The pre-layer joined with the message, on the surface side. -/
def catS (i : Fin 8192) (k : Fin 512) : EReal :=
  if h : k.val < 256 then xsPre sx Wsp bsp z i ⟨k.val, h⟩ else msgS gx rbf Wgp bgp z i ⟨k.val - 256, by have := k.isLt; omega⟩
/-- The surface-side output as one 512-deep layer. -/
def refS (i : Fin 8192) (q : Fin 256) : EReal :=
  max ((∑ k : Fin 512, catS sx gx rbf Wsp Wgp bsp bgp z i k * Wso (ix2 k q)) + bso (ix1 q)) z

theorem outS_eq_refS (i : Fin 8192) (q : Fin 256) :
    outS sx gx rbf Wsp Wgp bsp bgp bso Wso z i q = refS sx gx rbf Wsp Wgp bsp bgp bso Wso z i q := by
  unfold outS refS
  rw [sum_halves]
  have h1 : ∀ c : Fin 256, catS sx gx rbf Wsp Wgp bsp bgp z i (lo c) = xsPre sx Wsp bsp z i c := fun c => by
    unfold catS
    rw [dif_pos (show (lo c).val < 256 from c.isLt)]
  have h2 : ∀ c : Fin 256, catS sx gx rbf Wsp Wgp bsp bgp z i (hi c) = msgS gx rbf Wgp bgp z i c := fun c => by
    unfold catS
    rw [dif_neg (show ¬(hi c).val < 256 from by show ¬(256 + c.val < 256); omega)]
    exact congrArg (msgS gx rbf Wgp bgp z i) (Fin.ext (by show 256 + c.val - 256 = c.val; omega))
  simp only [h1, h2]

/-- The message a graph row receives, as the host computes it: the weights transposed, times the surface-side pre-layer. -/
def msgG (j : Fin 4096) (d : Fin 256) : EReal := ∑ i : Fin 8192, rbf (ix2 i j) * xsPre sx Wsp bsp z i d
/-- The pre-layer joined with the message, on the graph side. -/
def catG (j : Fin 4096) (k : Fin 512) : EReal :=
  if h : k.val < 256 then xgPre gx Wgp bgp z j ⟨k.val, h⟩ else msgG sx rbf Wsp bsp z j ⟨k.val - 256, by have := k.isLt; omega⟩
/-- The graph-side output as one 512-deep layer. -/
def refG (j : Fin 4096) (q : Fin 256) : EReal :=
  max ((∑ k : Fin 512, catG sx gx rbf Wsp Wgp bsp bgp z j k * Wgo (ix2 k q)) + bgo (ix1 q)) z

theorem outG_eq_refG (j : Fin 4096) (q : Fin 256) :
    outG sx gx rbf Wsp Wgp bsp bgp bgo Wgo z j q = refG sx gx rbf Wsp Wgp bsp bgp bgo Wgo z j q := by
  unfold outG refG skipG
  rw [sum_halves]
  have h1 : ∀ c : Fin 256, catG sx gx rbf Wsp Wgp bsp bgp z j (lo c) = xgPre gx Wgp bgp z j c := fun c => by
    unfold catG
    rw [dif_pos (show (lo c).val < 256 from c.isLt)]
  have h2 : ∀ c : Fin 256, catG sx gx rbf Wsp Wgp bsp bgp z j (hi c) = accT sx rbf Wsp bsp z c j := fun c => by
    unfold catG
    rw [dif_neg (show ¬(hi c).val < 256 from by show ¬(256 + c.val < 256); omega)]
    refine (congrArg (msgG sx rbf Wsp bsp z j) (Fin.ext (by show 256 + c.val - 256 = c.val; omega))).trans ?_
    unfold msgG accT
    exact Finset.sum_congr rfl fun i _ => mul_comm _ _
  simp only [h1, h2]
  rw [add_right_comm]

end Block

end Cert.Spec

end
-- ==== Proof.KernelIdeal.Blocks.lean ====
/-
  What the body is handed at a grid point, in terms of the program's arguments. Strip t of the weights and of the surface
  array are rows 1024·t … 1024·t + 1023 of those arrays; every other input window is its whole array at every point.
  The arrays the host prepares before the call — the weight matrices rounded to a narrower format (the identity at the
  ideal values), the two halves of each 512-row post weight matrix, the bias vectors laid out as one row — are read back
  as the arguments they were made from.
-/
import proofs.«172826_g87900800680619_cont_9to1_m_379_30_alg».proof.Proof.KernelIdeal.Frame
import proofs.«172826_g87900800680619_cont_9to1_m_379_30_alg».proof.Proof.Spec
import Idealize.ShloMosaic.Lib.ValueIdx
import Idealize.ShloMosaic.Lib.Pipeline.Value
import Idealize.ShloMosaic.Lib.StableHlo.Run

set_option maxRecDepth 16384

noncomputable section

namespace Cert.KernelIdeal.Val

open Cert.KernelIdeal Cert.KernelIdeal.Gen Cert.KernelIdeal.Body
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The printed index maps over the grid: the two strip windows and the surface-side output move with the point along
    the rows; the graph-side output stays. -/
theorem idx_strip : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_13.index t (0 : Fin 2) = t.val
    ∧ win0_13.index t (1 : Fin 2) = 0
    ∧ win0_14.index t (0 : Fin 2) = 0
    ∧ win0_14.index t (1 : Fin 2) = 0 :=
  (by decide +kernel : ∀ t : Fin grid0.N, _)

/-- The resident windows stay at block (0, 0). -/
theorem idx_whole : ∀ t : Fin cfg0.N, win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0 :=
  (by decide +kernel : ∀ t : Fin grid0.N, _)

/-- Row r of strip t of the weights is row 1024·t + r of the weights. -/
theorem blk_rbf (c : Dev nD) (t : Fin cfg0.N) (r : Fin 1024) (j : Fin 4096) (R : Fin 8192) (hR : R.val = 1024 * t.val + r.val) :
    iblk m c 0 t (ix2 r j) = m ((c : Thread nD τ).loc main_arg2) (ix2 R j) := by
  show V m c main_arg2 (((cfg0.win 0).blk t).view.emb (ix2 r j)) = _
  rw [V_main_arg2]
  refine congrArg _ (funext fun a => Fin.ext ?_)
  obtain ⟨e0, e1, -⟩ := idx_strip t
  match a with
  | ⟨0, _⟩ => show win0_0.index t (0 : Fin 2) * 1024 + 1 * r.val = R.val; omega
  | ⟨1, _⟩ => show win0_0.index t (1 : Fin 2) * 4096 + 1 * j.val = j.val; omega

/-- Row r of strip t of the surface array is row 1024·t + r of it. -/
theorem blk_sx (c : Dev nD) (t : Fin cfg0.N) (r : Fin 1024) (d : Fin 256) (R : Fin 8192) (hR : R.val = 1024 * t.val + r.val) :
    iblk m c 1 t (ix2 r d) = m ((c : Thread nD τ).loc main_arg0) (ix2 R d) := by
  show V m c main_arg0 (((cfg0.win 1).blk t).view.emb (ix2 r d)) = _
  rw [V_main_arg0]
  refine congrArg _ (funext fun a => Fin.ext ?_)
  obtain ⟨-, -, e0, e1, -⟩ := idx_strip t
  match a with
  | ⟨0, _⟩ => show win0_1.index t (0 : Fin 2) * 1024 + 1 * r.val = R.val; omega
  | ⟨1, _⟩ => show win0_1.index t (1 : Fin 2) * 256 + 1 * d.val = d.val; omega

/-- Window 2's block is its whole array at every point. -/
theorem blk2 (c : Dev nD) (t : Fin cfg0.N) : (iblk m c 2 t : S4096x256.Idx → EReal) = V m c main_arg1 := by
  funext y
  show V m c main_arg1 (((cfg0.win 2).blk t).view.emb y) = V m c main_arg1 y
  refine congrArg _ (funext fun a => Fin.ext ?_)
  have e := idx_whole t
  match a with
  | ⟨0, _⟩ => show win0_2.index t (0 : Fin 2) * 4096 + 1 * (y 0).val = (y 0).val; omega
  | ⟨1, _⟩ => show win0_2.index t (1 : Fin 2) * 256 + 1 * (y 1).val = (y 1).val; omega

/-- Window 3's block is its whole array at every point. -/
theorem blk3 (c : Dev nD) (t : Fin cfg0.N) : (iblk m c 3 t : S256x256.Idx → EReal) = V m c main_v0 := by
  funext y
  show V m c main_v0 (((cfg0.win 3).blk t).view.emb y) = V m c main_v0 y
  refine congrArg _ (funext fun a => Fin.ext ?_)
  have e := idx_whole t
  match a with
  | ⟨0, _⟩ => show win0_3.index t (0 : Fin 2) * 256 + 1 * (y 0).val = (y 0).val; omega
  | ⟨1, _⟩ => show win0_3.index t (1 : Fin 2) * 256 + 1 * (y 1).val = (y 1).val; omega

/-- Window 4's block is its whole array at every point. -/
theorem blk4 (c : Dev nD) (t : Fin cfg0.N) : (iblk m c 4 t : S1x256.Idx → EReal) = V m c main_v10 := by
  funext y
  show V m c main_v10 (((cfg0.win 4).blk t).view.emb y) = V m c main_v10 y
  refine congrArg _ (funext fun a => Fin.ext ?_)
  have e := idx_whole t
  match a with
  | ⟨0, _⟩ => show win0_4.index t (0 : Fin 2) * 1 + 1 * (y 0).val = (y 0).val; omega
  | ⟨1, _⟩ => show win0_4.index t (1 : Fin 2) * 256 + 1 * (y 1).val = (y 1).val; omega

/-- Window 5's block is its whole array at every point. -/
theorem blk5 (c : Dev nD) (t : Fin cfg0.N) : (iblk m c 5 t : S256x256.Idx → EReal) = V m c main_v1 := by
  funext y
  show V m c main_v1 (((cfg0.win 5).blk t).view.emb y) = V m c main_v1 y
  refine congrArg _ (funext fun a => Fin.ext ?_)
  have e := idx_whole t
  match a with
  | ⟨0, _⟩ => show win0_5.index t (0 : Fin 2) * 256 + 1 * (y 0).val = (y 0).val; omega
  | ⟨1, _⟩ => show win0_5.index t (1 : Fin 2) * 256 + 1 * (y 1).val = (y 1).val; omega

/-- Window 6's block is its whole array at every point. -/
theorem blk6 (c : Dev nD) (t : Fin cfg0.N) : (iblk m c 6 t : S1x256.Idx → EReal) = V m c main_v11 := by
  funext y
  show V m c main_v11 (((cfg0.win 6).blk t).view.emb y) = V m c main_v11 y
  refine congrArg _ (funext fun a => Fin.ext ?_)
  have e := idx_whole t
  match a with
  | ⟨0, _⟩ => show win0_6.index t (0 : Fin 2) * 1 + 1 * (y 0).val = (y 0).val; omega
  | ⟨1, _⟩ => show win0_6.index t (1 : Fin 2) * 256 + 1 * (y 1).val = (y 1).val; omega

/-- Window 7's block is its whole array at every point. -/
theorem blk7 (c : Dev nD) (t : Fin cfg0.N) : (iblk m c 7 t : S256x256.Idx → EReal) = V m c main_v3 := by
  funext y
  show V m c main_v3 (((cfg0.win 7).blk t).view.emb y) = V m c main_v3 y
  refine congrArg _ (funext fun a => Fin.ext ?_)
  have e := idx_whole t
  match a with
  | ⟨0, _⟩ => show win0_7.index t (0 : Fin 2) * 256 + 1 * (y 0).val = (y 0).val; omega
  | ⟨1, _⟩ => show win0_7.index t (1 : Fin 2) * 256 + 1 * (y 1).val = (y 1).val; omega

/-- Window 8's block is its whole array at every point. -/
theorem blk8 (c : Dev nD) (t : Fin cfg0.N) : (iblk m c 8 t : S256x256.Idx → EReal) = V m c main_v5 := by
  funext y
  show V m c main_v5 (((cfg0.win 8).blk t).view.emb y) = V m c main_v5 y
  refine congrArg _ (funext fun a => Fin.ext ?_)
  have e := idx_whole t
  match a with
  | ⟨0, _⟩ => show win0_8.index t (0 : Fin 2) * 256 + 1 * (y 0).val = (y 0).val; omega
  | ⟨1, _⟩ => show win0_8.index t (1 : Fin 2) * 256 + 1 * (y 1).val = (y 1).val; omega

/-- Window 9's block is its whole array at every point. -/
theorem blk9 (c : Dev nD) (t : Fin cfg0.N) : (iblk m c 9 t : S1x256.Idx → EReal) = V m c main_v12 := by
  funext y
  show V m c main_v12 (((cfg0.win 9).blk t).view.emb y) = V m c main_v12 y
  refine congrArg _ (funext fun a => Fin.ext ?_)
  have e := idx_whole t
  match a with
  | ⟨0, _⟩ => show win0_9.index t (0 : Fin 2) * 1 + 1 * (y 0).val = (y 0).val; omega
  | ⟨1, _⟩ => show win0_9.index t (1 : Fin 2) * 256 + 1 * (y 1).val = (y 1).val; omega

/-- Window 10's block is its whole array at every point. -/
theorem blk10 (c : Dev nD) (t : Fin cfg0.N) : (iblk m c 10 t : S256x256.Idx → EReal) = V m c main_v7 := by
  funext y
  show V m c main_v7 (((cfg0.win 10).blk t).view.emb y) = V m c main_v7 y
  refine congrArg _ (funext fun a => Fin.ext ?_)
  have e := idx_whole t
  match a with
  | ⟨0, _⟩ => show win0_10.index t (0 : Fin 2) * 256 + 1 * (y 0).val = (y 0).val; omega
  | ⟨1, _⟩ => show win0_10.index t (1 : Fin 2) * 256 + 1 * (y 1).val = (y 1).val; omega

/-- Window 11's block is its whole array at every point. -/
theorem blk11 (c : Dev nD) (t : Fin cfg0.N) : (iblk m c 11 t : S256x256.Idx → EReal) = V m c main_v9 := by
  funext y
  show V m c main_v9 (((cfg0.win 11).blk t).view.emb y) = V m c main_v9 y
  refine congrArg _ (funext fun a => Fin.ext ?_)
  have e := idx_whole t
  match a with
  | ⟨0, _⟩ => show win0_11.index t (0 : Fin 2) * 256 + 1 * (y 0).val = (y 0).val; omega
  | ⟨1, _⟩ => show win0_11.index t (1 : Fin 2) * 256 + 1 * (y 1).val = (y 1).val; omega

/-- Window 12's block is its whole array at every point. -/
theorem blk12 (c : Dev nD) (t : Fin cfg0.N) : (iblk m c 12 t : S1x256.Idx → EReal) = V m c main_v13 := by
  funext y
  show V m c main_v13 (((cfg0.win 12).blk t).view.emb y) = V m c main_v13 y
  refine congrArg _ (funext fun a => Fin.ext ?_)
  have e := idx_whole t
  match a with
  | ⟨0, _⟩ => show win0_12.index t (0 : Fin 2) * 1 + 1 * (y 0).val = (y 0).val; omega
  | ⟨1, _⟩ => show win0_12.index t (1 : Fin 2) * 256 + 1 * (y 1).val = (y 1).val; omega

/-! ## The arrays the host prepares, read back -/

theorem V_wsp (c : Dev nD) : (V m c main_v0 : S256x256.Idx → EReal) = m ((c : Thread nD τ).loc main_arg3) := by
  dsimp only [V, hostOps0]; after_results; rfl
theorem V_wgp (c : Dev nD) : (V m c main_v1 : S256x256.Idx → EReal) = m ((c : Thread nD τ).loc main_arg5) := by
  dsimp only [V, hostOps0]; after_results; rfl
theorem V_wsa (c : Dev nD) : (V m c main_v3 : S256x256.Idx → EReal)
    = extractStridedSlice S256x256 ![0, 0] (m ((c : Thread nD τ).loc main_arg7)) slices_S512x256_S256x256_0_0 := by
  dsimp only [V, hostOps0]; after_results; rfl
theorem V_wsb (c : Dev nD) : (V m c main_v5 : S256x256.Idx → EReal)
    = extractStridedSlice S256x256 ![256, 0] (m ((c : Thread nD τ).loc main_arg7)) slices_S512x256_S256x256_256_0 := by
  dsimp only [V, hostOps0]; after_results; rfl
theorem V_wga (c : Dev nD) : (V m c main_v7 : S256x256.Idx → EReal)
    = extractStridedSlice S256x256 ![0, 0] (m ((c : Thread nD τ).loc main_arg9)) slices_S512x256_S256x256_0_0 := by
  dsimp only [V, hostOps0]; after_results; rfl
theorem V_wgb (c : Dev nD) : (V m c main_v9 : S256x256.Idx → EReal)
    = extractStridedSlice S256x256 ![256, 0] (m ((c : Thread nD τ).loc main_arg9)) slices_S512x256_S256x256_256_0 := by
  dsimp only [V, hostOps0]; after_results; rfl
theorem V_bsp (c : Dev nD) : (V m c main_v10 : S1x256.Idx → EReal)
    = shapeCast S1x256 (m ((c : Thread nD τ).loc main_arg4)) shapeCasts_S256_S1x256 := by
  dsimp only [V, hostOps0]; after_results; rfl
theorem V_bgp (c : Dev nD) : (V m c main_v11 : S1x256.Idx → EReal)
    = shapeCast S1x256 (m ((c : Thread nD τ).loc main_arg6)) shapeCasts_S256_S1x256 := by
  dsimp only [V, hostOps0]; after_results; rfl
theorem V_bso (c : Dev nD) : (V m c main_v12 : S1x256.Idx → EReal)
    = shapeCast S1x256 (m ((c : Thread nD τ).loc main_arg8)) shapeCasts_S256_S1x256 := by
  dsimp only [V, hostOps0]; after_results; rfl
theorem V_bgo (c : Dev nD) : (V m c main_v13 : S1x256.Idx → EReal)
    = shapeCast S1x256 (m ((c : Thread nD τ).loc main_arg10)) shapeCasts_S256_S1x256 := by
  dsimp only [V, hostOps0]; after_results; rfl

/-- A bias vector laid out as one row reads, at lane q, the vector at q. -/
theorem row_apply (b : S256.Idx → EReal) (q : Fin 256) :
    shapeCast S1x256 b shapeCasts_S256_S1x256 (ix2 (0 : Fin 1) q) = b (ix1 q) :=
  shapeCast_apply b shapeCasts_S256_S1x256 _ _ (by
    rw [Shape.rowMajor_val_two, Shape.rowMajor_val_one]
    show q.val = 0 * 256 + q.val
    omega)

/-- The first half of a 512-row matrix reads its rows 0 … 255, the second half its rows 256 … 511. -/
theorem lo_apply (W : S512x256.Idx → EReal) (c q : Fin 256) :
    extractStridedSlice S256x256 ![0, 0] W slices_S512x256_S256x256_0_0 (ix2 c q) = W (ix2 (Cert.Spec.lo c) q) :=
  extractStridedSlice_apply ![0, 0] W slices_S512x256_S256x256_0_0 (ix2 c q) (ix2 (Cert.Spec.lo c) q) (fun a => by
    match a with
    | ⟨0, _⟩ => show c.val = 0 + c.val; omega
    | ⟨1, _⟩ => show q.val = 0 + q.val; omega)
theorem hi_apply (W : S512x256.Idx → EReal) (c q : Fin 256) :
    extractStridedSlice S256x256 ![256, 0] W slices_S512x256_S256x256_256_0 (ix2 c q) = W (ix2 (Cert.Spec.hi c) q) :=
  extractStridedSlice_apply ![256, 0] W slices_S512x256_S256x256_256_0 (ix2 c q) (ix2 (Cert.Spec.hi c) q) (fun a => by
    match a with
    | ⟨0, _⟩ => show 256 + c.val = 256 + c.val; rfl
    | ⟨1, _⟩ => show q.val = 0 + q.val; omega)

end Cert.KernelIdeal.Val

end
-- ==== Proof.KernelIdeal.Values.lean ====
/-
  One grid point's arithmetic against the mathematics of the block. The blocks handed to the body at strip s are rows
  1024·s … of the weights and of the surface array, and the resident arrays whole (`StripIn`). Under that reading each
  payload is an entry of the block's mathematics: the pre-layers, the skip half, the strip's term of the transposed message,
  the strip's rows of the surface-side output, and — from the finished accumulator — the graph-side output.
-/
import proofs.«172826_g87900800680619_cont_9to1_m_379_30_alg».proof.Proof.KernelIdeal.PayApply
import proofs.«172826_g87900800680619_cont_9to1_m_379_30_alg».proof.Proof.KernelIdeal.Blocks
import proofs.«172826_g87900800680619_cont_9to1_m_379_30_alg».proof.Proof.Spec

set_option maxRecDepth 16384

noncomputable section

namespace Cert.KernelIdeal.Val

open Cert.KernelIdeal Cert.KernelIdeal.Gen Cert.KernelIdeal.Body
open Idealize.ShloMosaic Idealize.ShloMosaic.TcCoe Idealize.ShloMosaic.ValueIdx Idealize.SL.Sem

open Cert.Spec

variable (sx : S8192x256.Idx → EReal) (gx : S4096x256.Idx → EReal) (rbf : S8192x4096.Idx → EReal)
  (Wsp Wgp : S256x256.Idx → EReal) (bsp bgp bso bgo : S256.Idx → EReal) (Wso Wgo : S512x256.Idx → EReal)

/-- What the body is handed at strip s, in terms of the eleven argument arrays. -/
structure StripIn (s : Fin 8) (x0 : Vec Ideal S1024x4096 .f32) (x1 : Vec Ideal S1024x256 .f32) (x2 : Vec Ideal S4096x256 .f32) (x3 : Vec Ideal S256x256 .bf16) (x4 : Vec Ideal S1x256 .f32) (x5 : Vec Ideal S256x256 .bf16) (x6 : Vec Ideal S1x256 .f32) (x7 : Vec Ideal S256x256 .bf16) (x8 : Vec Ideal S256x256 .bf16) (x9 : Vec Ideal S1x256 .f32) (x10 : Vec Ideal S256x256 .bf16) (x11 : Vec Ideal S256x256 .bf16) (x12 : Vec Ideal S1x256 .f32) : Prop where
  h0 : ∀ (r : Fin 1024) (j : Fin 4096), x0 (ix2 r j) = rbf (ix2 (row s r) j)
  h1 : ∀ (r : Fin 1024) (d : Fin 256), x1 (ix2 r d) = sx (ix2 (row s r) d)
  h2 : x2 = gx
  h3 : x3 = Wsp
  h4 : ∀ q : Fin 256, x4 (ix2 (0 : Fin 1) q) = bsp (ix1 q)
  h5 : x5 = Wgp
  h6 : ∀ q : Fin 256, x6 (ix2 (0 : Fin 1) q) = bgp (ix1 q)
  h7 : ∀ c q : Fin 256, x7 (ix2 c q) = Wso (ix2 (lo c) q)
  h8 : ∀ c q : Fin 256, x8 (ix2 c q) = Wso (ix2 (hi c) q)
  h9 : ∀ q : Fin 256, x9 (ix2 (0 : Fin 1) q) = bso (ix1 q)
  h10 : ∀ c q : Fin 256, x10 (ix2 c q) = Wgo (ix2 (lo c) q)
  h11 : ∀ c q : Fin 256, x11 (ix2 c q) = Wgo (ix2 (hi c) q)
  h12 : ∀ q : Fin 256, x12 (ix2 (0 : Fin 1) q) = bgo (ix1 q)

section Point

variable {sx gx rbf Wsp Wgp bsp bgp bso bgo Wso Wgo}
variable {s : Fin 8} {x0 : Vec Ideal S1024x4096 .f32} {x1 : Vec Ideal S1024x256 .f32} {x2 : Vec Ideal S4096x256 .f32}
  {x3 : Vec Ideal S256x256 .bf16} {x4 : Vec Ideal S1x256 .f32} {x5 : Vec Ideal S256x256 .bf16} {x6 : Vec Ideal S1x256 .f32}
  {x7 x8 : Vec Ideal S256x256 .bf16} {x9 : Vec Ideal S1x256 .f32} {x10 x11 : Vec Ideal S256x256 .bf16} {x12 : Vec Ideal S1x256 .f32}
  (H : StripIn sx gx rbf Wsp Wgp bsp bgp bso bgo Wso Wgo s x0 x1 x2 x3 x4 x5 x6 x7 x8 x9 x10 x11 x12)
include H

/-- The graph-side pre-layer. -/
theorem pre_val (j : Fin 4096) (d : Fin 256) : k0_pay7 (F := Ideal) x2 x5 x6 (ix2 j d) = xgPre gx Wgp bgp Z j d := by
  rw [pay7_apply, H.h2, H.h5, H.h6]
  rfl

/-- The graph-side skip half. -/
theorem skip_val (j : Fin 4096) (q : Fin 256) :
    k0_pay9 (F := Ideal) x2 x5 x6 x10 x12 (ix2 j q) = skipG gx Wgp bgp bgo Wgo Z j q := by
  rw [pay9_apply, H.h12]
  unfold skipG
  congr 1
  exact Finset.sum_congr rfl fun c _ => by rw [pre_val H, H.h10]

/-- The strip's surface-side pre-layer. -/
theorem s_val (r : Fin 1024) (d : Fin 256) : k0_pay10 (F := Ideal) x1 x3 x4 (ix2 r d) = xsPre sx Wsp bsp Z (row s r) d := by
  rw [pay10_apply, H.h3, H.h4]
  unfold xsPre
  congr 2
  exact Finset.sum_congr rfl fun c _ => by rw [H.h1]

/-- The strip's term of the transposed message. -/
theorem contrib_val (d : Fin 256) (j : Fin 4096) : contribT x1 x3 x4 x0 d j = stripT sx rbf Wsp bsp Z s d j := by
  unfold contribT stripT
  exact Finset.sum_congr rfl fun r _ => by rw [s_val H, H.h0]

/-- The strip's rows of the surface-side output, from a scratch buffer holding the graph-side pre-layer. -/
theorem xs_val (sPre : Vec Ideal S4096x256 .bf16) (hPre : ∀ (j : Fin 4096) (d : Fin 256), sPre (ix2 j d) = xgPre gx Wgp bgp Z j d)
    (r : Fin 1024) (q : Fin 256) :
    k0_pay1 (F := Ideal) (k0_pay13 x1 x3 x4 x7) (k0_pay14 x0 sPre) x8 x9 (ix2 r q) = outS sx gx rbf Wsp Wgp bsp bgp bso Wso Z (row s r) q := by
  rw [pay1_apply, pay13_apply, H.h9]
  unfold outS
  congr 3
  · exact Finset.sum_congr rfl fun c _ => by rw [s_val H, H.h7]
  · refine Finset.sum_congr rfl fun c _ => ?_
    rw [pay14_apply, H.h8]
    congr 1
    unfold msgS
    exact Finset.sum_congr rfl fun j _ => by rw [H.h0, hPre]

/-- The graph-side output, from scratch buffers holding the skip half and the finished transposed message. -/
theorem xg_val (K : S4096x256.Idx → EReal) (A : S256x4096.Idx → EReal)
    (hK : ∀ (j : Fin 4096) (q : Fin 256), K (ix2 j q) = skipG gx Wgp bgp bgo Wgo Z j q)
    (hA : ∀ (d : Fin 256) (j : Fin 4096), A (ix2 d j) = accT sx rbf Wsp bsp Z d j) (J : Fin 4096) (q : Fin 256) :
    max (K (ix2 J q) + ∑ d : Fin 256, A (ix2 d J) * x11 (ix2 d q)) Z = outG sx gx rbf Wsp Wgp bsp bgp bgo Wgo Z J q := by
  unfold outG
  rw [hK]
  congr 2
  exact Finset.sum_congr rfl fun d _ => by rw [hA, H.h11]

end Point

end Cert.KernelIdeal.Val

end
-- ==== Proof.KernelIdeal.XgTiles.lean ====
/-
  The graph-side output at the last point, read at an index. The body stores the accumulator, then reads it back 1024
  columns at a time, transposes each piece and multiplies it into the second half of the graph post weights; four tiles
  of 1024 rows fill the output. At row J and lane q every tile gives the same formula: the skip half at (J, q) plus the sum
  over the 256 accumulator rows d of the accumulator at (d, J) times the weight at (d, q), then the maximum with zero.
-/
import proofs.«172826_g87900800680619_cont_9to1_m_379_30_alg».proof.Proof.KernelIdeal.Pieces
import proofs.«172826_g87900800680619_cont_9to1_m_379_30_alg».proof.Proof.KernelIdeal.PayApply

set_option maxRecDepth 16384

noncomputable section

namespace Cert.KernelIdeal.Val

open Cert.KernelIdeal Cert.KernelIdeal.Gen Cert.KernelIdeal.Body
open Idealize.ShloMosaic Idealize.ShloMosaic.TcCoe Idealize.ShloMosaic.ValueIdx Idealize.SL.Sem

/-- A load, through any rectangle, of what ONE whole-buffer store left reads the stored value through the rectangle. -/
theorem readCov_whole (v : View sig .tc .vmem S256x4096 .f32) (w : S256x4096.Idx → EReal)
    (inb : ∀ a, (![0, 0] : Fin 2 → ℕ) a + (![256, 4096] : Fin 2 → ℕ) a ≤ S256x4096.size a) (r : Rect S256x4096) :
    v.readCov [(⟨Rect.unit ![0, 0] ![256, 4096] inb, w⟩ : View.Piece (Elt Ideal) S256x4096 .f32)] r.toLoadRect = View.ld w r := by
  rw [View.readCov_eq_canon_ld _ _ _ (fun y => ⟨_, List.mem_singleton_self _, View.mem_set_unit_zero hz2 inb y⟩),
    View.canon_unit_zero hz2]

/-- One tile's formula is the whole output's formula at the tile's place. -/
theorem tile_at (A : S256x4096.Idx → EReal) (K : S4096x256.Idx → EReal) (W : S256x256.Idx → EReal) (o : ℕ)
    (inbA : ∀ a, (![0, o] : Fin 2 → ℕ) a + S256x1024.size a ≤ S256x4096.size a)
    (inbK : ∀ a, (![o, 0] : Fin 2 → ℕ) a + S1024x256.size a ≤ S4096x256.size a) (r : Fin 1024) (q : Fin 256) :
    max (View.ld (Val := Elt Ideal) (e' := .f32) K (Rect.unit (s := S4096x256) ![o, 0] S1024x256.size inbK) (ix2 r q)
        + ∑ d : Fin 256, View.ld (Val := Elt Ideal) (e' := .f32) A (Rect.unit (s := S256x4096) ![0, o] S256x1024.size inbA) (ix2 d r) * W (ix2 d q)) Z
      = max (K ((Rect.unit (s := S4096x256) ![o, 0] S1024x256.size inbK).emb (ix2 r q))
          + ∑ d : Fin 256, A (ix2 d ((Rect.unit (s := S4096x256) ![o, 0] S1024x256.size inbK).emb (ix2 r q) 0))
              * W (ix2 d ((Rect.unit (s := S4096x256) ![o, 0] S1024x256.size inbK).emb (ix2 r q) 1))) Z := by
  show max (K _ + _) Z = max (K _ + _) Z
  congr 2
  refine Finset.sum_congr rfl fun d _ => ?_
  refine congrArg₂ (· * ·) (congrArg A (funext fun a => Fin.ext ?_)) (congrArg W (funext fun a => Fin.ext ?_))
  · match a with
    | ⟨0, _⟩ => show 0 + 1 * d.val = d.val; omega
    | ⟨1, _⟩ => rfl
  · match a with
    | ⟨0, _⟩ => rfl
    | ⟨1, _⟩ => show q.val = 0 + 1 * q.val; omega

set_option maxHeartbeats 1600000 in
/-- The graph-side output's buffer after the last point, at row J and lane q. -/
theorem xgLast_apply (c : Dev nD) (i : grid0.Coords) (arg1 : Memref sig .tc .vmem S1024x4096 .f32) (harg1 : arg1.IsWhole) (arg2 : Memref sig .tc .vmem S1024x256 .f32) (harg2 : arg2.IsWhole) (arg3 : Memref sig .tc .vmem S4096x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S256x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S1024x256 .f32) (harg14 : arg14.IsWhole) (arg15 : Memref sig .tc .vmem S4096x256 .f32) (harg15 : arg15.IsWhole) (arg16 : Memref sig .tc .vmem S4096x256 .bf16) (harg16 : arg16.IsWhole) (arg17 : Memref sig .tc .vmem S256x4096 .f32) (harg17 : arg17.IsWhole) (arg18 : Memref sig .tc .vmem S4096x256 .f32) (harg18 : arg18.IsWhole) (hc0 : ¬condFirst i) (hc1 : condLast i) (x0 : Vec Ideal S1024x4096 .f32) (x1 : Vec Ideal S1024x256 .f32) (x2 : Vec Ideal S4096x256 .f32) (x3 : Vec Ideal S256x256 .bf16) (x4 : Vec Ideal S1x256 .f32) (x5 : Vec Ideal S256x256 .bf16) (x6 : Vec Ideal S1x256 .f32) (x7 : Vec Ideal S256x256 .bf16) (x8 : Vec Ideal S256x256 .bf16) (x9 : Vec Ideal S1x256 .f32) (x10 : Vec Ideal S256x256 .bf16) (x11 : Vec Ideal S256x256 .bf16) (x12 : Vec Ideal S1x256 .f32) (sPre : Vec Ideal S4096x256 .bf16) (sAcc : Vec Ideal S256x4096 .f32) (sSkip : Vec Ideal S4096x256 .f32) (J : Fin 4096) (q : Fin 256) :
    xgLast (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sPre sAcc sSkip (ix2 J q)
      = max (sSkip (ix2 J q) + ∑ d : Fin 256, (k0_pay12 (F := Ideal) i x1 x3 x4 x0 sAcc) (ix2 d J) * x11 (ix2 d q)) Z := by
  unfold xgLast
  rw [View.read_writes_eq_canon _ _ _ (cover_xgLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sPre sAcc sSkip)]
  refine View.canon_apply_of_pieces
    (fun y : S4096x256.Idx => max (sSkip y + ∑ d : Fin 256, (k0_pay12 (F := Ideal) i x1 x3 x4 x0 sAcc) (ix2 d (y 0)) * x11 (ix2 d (y 1))) Z)
    _ ?_ (ix2 J q) (cover_xgLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 sPre sAcc sSkip (ix2 J q))
  unfold runLast
  dsimp only
  try sl_unfold_words
  simp only [View.readAt_eq_ld, Memref.IsWhole.read_unread, View.ld_unit_zero (S := S1024x4096) hz2, View.ld_unit_zero (S := S1024x256) hz2, View.ld_unit_zero (S := S4096x256) hz2, View.ld_unit_zero (S := S256x256) hz2, View.ld_unit_zero (S := S1x256) hz2, View.ld_unit_zero (S := S256x4096) hz2, readCov_whole]
  generalize k0_pay12 (F := Ideal) i x1 x3 x4 x0 sAcc = A'
  intro p hp
  simp only [List.mem_cons, List.not_mem_nil, or_false] at hp
  rcases hp with rfl | rfl | rfl | rfl
  · intro x
    obtain ⟨r, q', rfl⟩ : ∃ (r : Fin 1024) (q' : Fin 256), x = ix2 r q' := ⟨x 0, x 1, eq_ix2 x⟩
    show k0_pay3 (F := Ideal) _ _ _ (ix2 r q') = max (sSkip _ + ∑ d : Fin 256, A' (ix2 d _) * x11 (ix2 d _)) Z
    rw [pay3_apply]
    exact tile_at A' sSkip x11 3072 _ _ r q'
  · intro x
    obtain ⟨r, q', rfl⟩ : ∃ (r : Fin 1024) (q' : Fin 256), x = ix2 r q' := ⟨x 0, x 1, eq_ix2 x⟩
    show k0_pay2 (F := Ideal) _ _ (ix2 r q') = max (sSkip _ + ∑ d : Fin 256, A' (ix2 d _) * x11 (ix2 d _)) Z
    rw [pay2_apply, pay6_apply]
    exact tile_at A' sSkip x11 2048 _ _ r q'
  · intro x
    obtain ⟨r, q', rfl⟩ : ∃ (r : Fin 1024) (q' : Fin 256), x = ix2 r q' := ⟨x 0, x 1, eq_ix2 x⟩
    show k0_pay5 (F := Ideal) _ _ _ (ix2 r q') = max (sSkip _ + ∑ d : Fin 256, A' (ix2 d _) * x11 (ix2 d _)) Z
    rw [pay5_apply]
    exact tile_at A' sSkip x11 1024 _ _ r q'
  · intro x
    obtain ⟨r, q', rfl⟩ : ∃ (r : Fin 1024) (q' : Fin 256), x = ix2 r q' := ⟨x 0, x 1, eq_ix2 x⟩
    show k0_pay4 (F := Ideal) _ _ _ (ix2 r q') = max (sSkip _ + ∑ d : Fin 256, A' (ix2 d _) * x11 (ix2 d _)) Z
    rw [pay4_apply]
    exact tile_at A' sSkip x11 0 _ _ r q'

end Cert.KernelIdeal.Val

end
-- ==== Proof.KernelIdeal.Inv.lean ====
/-
  The contents of the five written buffers after every grid point, against the mathematics of the block — by induction
  on the point. After point n: the graph-side pre-layer and skip half are in their scratch buffers (computed at the first
  point, untouched afterwards); the accumulator holds the running sum of the strips' terms up to strip n (started at the
  first strip's term, each later strip's term added to what the point before left); the surface-side output's buffer holds
  strip n's rows of the output; and after the last point the graph-side output's buffer holds the whole graph-side output,
  the running sum over all eight strips being the whole transposed message.
-/
import proofs.«172826_g87900800680619_cont_9to1_m_379_30_alg».proof.Proof.KernelIdeal.Values
import proofs.«172826_g87900800680619_cont_9to1_m_379_30_alg».proof.Proof.KernelIdeal.XgTiles

set_option maxRecDepth 16384

noncomputable section

namespace Cert.KernelIdeal.Val

open Cert.KernelIdeal Cert.KernelIdeal.Gen Cert.KernelIdeal.Body
open Idealize.ShloMosaic Idealize.ShloMosaic.TcCoe Idealize.ShloMosaic.ValueIdx Idealize.SL.Sem

open Cert.Spec

variable (m : (ℓ : Loc nD τ sig) → Buf (Elt Ideal) ℓ)

/-- The eleven argument arrays as launched. -/
abbrev A0 (c : Dev nD) : S8192x256.Idx → EReal := m ((c : Thread nD τ).loc main_arg0)
abbrev A1 (c : Dev nD) : S4096x256.Idx → EReal := m ((c : Thread nD τ).loc main_arg1)
abbrev A2 (c : Dev nD) : S8192x4096.Idx → EReal := m ((c : Thread nD τ).loc main_arg2)
abbrev A3 (c : Dev nD) : S256x256.Idx → EReal := m ((c : Thread nD τ).loc main_arg3)
abbrev A4 (c : Dev nD) : S256.Idx → EReal := m ((c : Thread nD τ).loc main_arg4)
abbrev A5 (c : Dev nD) : S256x256.Idx → EReal := m ((c : Thread nD τ).loc main_arg5)
abbrev A6 (c : Dev nD) : S256.Idx → EReal := m ((c : Thread nD τ).loc main_arg6)
abbrev A7 (c : Dev nD) : S512x256.Idx → EReal := m ((c : Thread nD τ).loc main_arg7)
abbrev A8 (c : Dev nD) : S256.Idx → EReal := m ((c : Thread nD τ).loc main_arg8)
abbrev A9 (c : Dev nD) : S512x256.Idx → EReal := m ((c : Thread nD τ).loc main_arg9)
abbrev A10 (c : Dev nD) : S256.Idx → EReal := m ((c : Thread nD τ).loc main_arg10)

/-- What the body is handed at point t is strip t of the arguments. -/
theorem stripIn (c : Dev nD) (t : Fin cfg0.N) (s : Fin 8) (hs : s.val = t.val) :
    StripIn (A0 m c) (A1 m c) (A2 m c) (A3 m c) (A5 m c) (A4 m c) (A6 m c) (A8 m c) (A10 m c) (A7 m c) (A9 m c) s (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) where
  h0 := fun r j => blk_rbf m c t r j (row s r) (by show 1024 * s.val + r.val = 1024 * t.val + r.val; rw [hs])
  h1 := fun r d => blk_sx m c t r d (row s r) (by show 1024 * s.val + r.val = 1024 * t.val + r.val; rw [hs])
  h2 := (blk2 m c t).trans (V_main_arg1 m c)
  h3 := (blk3 m c t).trans (V_wsp m c)
  h4 := fun q => (congrFun (blk4 m c t) (ix2 (0 : Fin 1) q)).trans ((congrFun (V_bsp m c) _).trans (row_apply _ q))
  h5 := (blk5 m c t).trans (V_wgp m c)
  h6 := fun q => (congrFun (blk6 m c t) (ix2 (0 : Fin 1) q)).trans ((congrFun (V_bgp m c) _).trans (row_apply _ q))
  h7 := fun a q => (congrFun (blk7 m c t) (ix2 a q)).trans ((congrFun (V_wsa m c) _).trans (lo_apply _ a q))
  h8 := fun a q => (congrFun (blk8 m c t) (ix2 a q)).trans ((congrFun (V_wsb m c) _).trans (hi_apply _ a q))
  h9 := fun q => (congrFun (blk9 m c t) (ix2 (0 : Fin 1) q)).trans ((congrFun (V_bso m c) _).trans (row_apply _ q))
  h10 := fun a q => (congrFun (blk10 m c t) (ix2 a q)).trans ((congrFun (V_wga m c) _).trans (lo_apply _ a q))
  h11 := fun a q => (congrFun (blk11 m c t) (ix2 a q)).trans ((congrFun (V_wgb m c) _).trans (hi_apply _ a q))
  h12 := fun q => (congrFun (blk12 m c t) (ix2 (0 : Fin 1) q)).trans ((congrFun (V_bgo m c) _).trans (row_apply _ q))

/-- The word the accumulator's select tests is zero away from the first point. -/
theorem word_zero (v : BitVec 1) (h : ¬v = 1#1) : v = 0#1 := by
  revert h; revert v; decide

/-- The buffers after point n, against the mathematics. -/
structure Inv (c : Dev nD) (n : ℕ) (hn8 : n < 8) (S : St Ideal) : Prop where
  pre : ∀ (j : Fin 4096) (d : Fin 256), S.pre (ix2 j d) = xgPre (A1 m c) (A5 m c) (A6 m c) Z j d
  skip : ∀ (j : Fin 4096) (q : Fin 256), S.skip (ix2 j q) = skipG (A1 m c) (A5 m c) (A6 m c) (A10 m c) (A9 m c) Z j q
  acc : ∀ (d : Fin 256) (j : Fin 4096), S.acc (ix2 d j) = upTo (fun s => stripT (A0 m c) (A2 m c) (A3 m c) (A4 m c) Z s d j) n hn8
  xs : ∀ (r : Fin 1024) (q : Fin 256), S.xs (ix2 r q) = outS (A0 m c) (A1 m c) (A2 m c) (A3 m c) (A5 m c) (A4 m c) (A6 m c) (A8 m c) (A7 m c) Z (row ⟨n, hn8⟩ r) q
  xg : n = 7 → ∀ (J : Fin 4096) (q : Fin 256), S.xg (ix2 J q) = outG (A0 m c) (A1 m c) (A2 m c) (A3 m c) (A5 m c) (A4 m c) (A6 m c) (A10 m c) (A9 m c) Z J q

set_option maxHeartbeats 3200000 in
theorem inv (c : Dev nD) : ∀ (n : ℕ) (hn : n < cfg0.N) (hn8 : n < 8), Inv m c n hn8 (stateAt m c n hn)
  | 0, hn, hn8 => by
    have h0 : condFirst (grid0.coords (⟨0, hn⟩ : Fin cfg0.N)) := (hcondFirst ⟨0, hn⟩).mpr rfl
    have h1 : ¬condLast (grid0.coords (⟨0, hn⟩ : Fin cfg0.N)) := fun h => (show (0 : ℕ) ≠ 7 by decide) ((hcondLast ⟨0, hn⟩).mp h)
    have hw : Scalar.cmpi .eq (BitVec.ofNat 32 ((grid0.coords (⟨0, hn⟩ : Fin cfg0.N)) 0).val) 0#32 = 1#1 := (selFirst ⟨0, hn⟩).mpr rfl
    have H := stripIn m c ⟨0, hn⟩ ⟨0, hn8⟩ rfl
    rw [show stateAt m c 0 hn = _ from stateAt_first m c ⟨0, hn⟩ h0 h1]
    refine ⟨fun j d => ?_, fun j q => ?_, fun d j => ?_, fun r q => ?_, fun h => absurd h (by decide)⟩
    · dsimp only
      rw [preFirst_eq, pay8_eq]
      exact pre_val H j d
    · dsimp only
      rw [skipFirst_eq]
      exact skip_val H j q
    · dsimp only
      rw [accFirst_eq, pay12_first_apply _ hw, contrib_val H]
      exact (upTo_zero (M := EReal) (fun s => stripT (A0 m c) (A2 m c) (A3 m c) (A4 m c) Z s d j) hn8).symm
    · dsimp only
      rw [xsFirst_eq]
      exact xs_val H _ (fun j d => by rw [pay8_eq]; exact pre_val H j d) r q
  | n + 1, hn, hn8 => by
    have ih := inv c n (Nat.lt_of_succ_lt hn) (by omega)
    have h0 : ¬condFirst (grid0.coords (⟨n + 1, hn⟩ : Fin cfg0.N)) := notFirst_succ n hn
    have hw : Scalar.cmpi .eq (BitVec.ofNat 32 ((grid0.coords (⟨n + 1, hn⟩ : Fin cfg0.N)) 0).val) 0#32 = 0#1 :=
      word_zero _ fun h => Nat.succ_ne_zero n ((selFirst (⟨n + 1, hn⟩ : Fin cfg0.N)).mp h)
    have H := stripIn m c (⟨n + 1, hn⟩ : Fin cfg0.N) ⟨n + 1, hn8⟩ rfl
    have hacc : ∀ (d : Fin 256) (j : Fin 4096),
        k0_pay12 (F := Ideal) (grid0.coords (⟨n + 1, hn⟩ : Fin cfg0.N)) (iblk m c 1 (⟨n + 1, hn⟩ : Fin cfg0.N)) (iblk m c 3 (⟨n + 1, hn⟩ : Fin cfg0.N)) (iblk m c 4 (⟨n + 1, hn⟩ : Fin cfg0.N)) (iblk m c 0 (⟨n + 1, hn⟩ : Fin cfg0.N))
            (stateAt m c n (Nat.lt_of_succ_lt hn)).acc (ix2 d j)
          = upTo (fun s => stripT (A0 m c) (A2 m c) (A3 m c) (A4 m c) Z s d j) (n + 1) hn8 := fun d j => by
      rw [pay12_later_apply _ hw, ih.acc, contrib_val H]
      exact (upTo_succ (M := EReal) (fun s => stripT (A0 m c) (A2 m c) (A3 m c) (A4 m c) Z s d j) n hn8).symm
    by_cases h7 : n + 1 = 7
    · have h1 : condLast (grid0.coords (⟨n + 1, hn⟩ : Fin cfg0.N)) := (hcondLast (⟨n + 1, hn⟩ : Fin cfg0.N)).mpr h7
      rw [show stateAt m c (n + 1) hn = _ from stateAt_last m c (⟨n + 1, hn⟩ : Fin cfg0.N) h0 h1]
      refine ⟨fun j d => ih.pre j d, fun j q => ih.skip j q, fun d j => ?_, fun r q => ?_, fun _ J q => ?_⟩
      · dsimp only
        rw [accLast_eq]
        exact hacc d j
      · dsimp only
        rw [xsLast_eq]
        exact xs_val H _ ih.pre r q
      · dsimp only
        rw [xgLast_apply]
        refine xg_val H _ _ ih.skip (fun d j => ?_) J q
        refine (hacc d j).trans ?_
        obtain rfl : n = 6 := by omega
        exact (upTo_last (M := EReal) (fun s => stripT (A0 m c) (A2 m c) (A3 m c) (A4 m c) Z s d j) hn8).trans (accT_eq_strips _ _ _ _ _ d j).symm
    · have h1 : ¬condLast (grid0.coords (⟨n + 1, hn⟩ : Fin cfg0.N)) := fun h => h7 ((hcondLast (⟨n + 1, hn⟩ : Fin cfg0.N)).mp h)
      rw [show stateAt m c (n + 1) hn = _ from stateAt_mid m c (⟨n + 1, hn⟩ : Fin cfg0.N) h0 h1]
      refine ⟨fun j d => ih.pre j d, fun j q => ih.skip j q, fun d j => ?_, fun r q => ?_, fun h => absurd h h7⟩
      · dsimp only
        rw [accMid_eq]
        exact hacc d j
      · dsimp only
        rw [xsMid_eq]
        exact xs_val H _ ih.pre r q

end Cert.KernelIdeal.Val

end
-- ==== Proof.KernelIdeal.Final.lean ====
/-
  The kernel's run with its two results named. The surface-side output array is written back strip by strip, each point's
  block being rows 1024·t … of it: the blocks tile the array, and each holds that strip's rows of the output. The graph-side
  output array is written back once, after the last point, whole. So both arrays end at the block's mathematics in the
  kernel's arrangement, as functions of the eleven argument arrays; the arguments are unchanged.
-/
import proofs.«172826_g87900800680619_cont_9to1_m_379_30_alg».proof.Proof.KernelIdeal.Inv
import Idealize.ShloMosaic.Lib.Pipeline.Value

set_option maxRecDepth 16384

noncomputable section

namespace Cert.KernelIdeal.Val

open Cert.KernelIdeal Cert.KernelIdeal.Gen Cert.KernelIdeal.Body
open Idealize.ShloMosaic Idealize.ShloMosaic.TcCoe Idealize.ShloMosaic.ValueIdx Idealize.SL.Sem

open Cert.Spec

variable (m : (ℓ : Loc nD τ sig) → Buf (Elt Ideal) ℓ) (ρ : Dev nD → PrngReg)

/-- The surface-side output, as an array of the argument arrays. -/
def GS (c : Dev nD) : S8192x256.Idx → EReal := fun i => outS (A0 m c) (A1 m c) (A2 m c) (A3 m c) (A5 m c) (A4 m c) (A6 m c) (A8 m c) (A7 m c) Z (i 0) (i 1)
/-- The graph-side output, as an array of the argument arrays. -/
def GG (c : Dev nD) : S4096x256.Idx → EReal := fun i => outG (A0 m c) (A1 m c) (A2 m c) (A3 m c) (A5 m c) (A4 m c) (A6 m c) (A10 m c) (A9 m c) Z (i 0) (i 1)

/-- What point t writes back of the surface-side output is block t of `GS`. -/
theorem flushed13 (c : Dev nD) (t : Fin cfg0.N) :
    (dats m 0 c).flushed 13 t = ((cfg0.win 13).blk t).view.read (Elt Ideal) (GS m c) := by
  show (cfg0.win 13).cut (grid0.coords t) ((dats m 0 c).after 13 t) = _
  rw [after13]
  funext y
  obtain ⟨r, q, rfl⟩ : ∃ (r : Fin 1024) (q : Fin 256), y = ix2 r q := ⟨y 0, y 1, eq_ix2 y⟩
  have ht8 : t.val < 8 := lt_of_lt_of_eq t.isLt N_0
  show (stateAt m c t.val t.isLt).xs (ix2 r q) = GS m c (((cfg0.win 13).blk t).view.emb (ix2 r q))
  rw [(inv m c t.val t.isLt ht8).xs r q]
  unfold GS
  obtain ⟨-, -, -, -, e0, e1, -⟩ := idx_strip t
  refine congrArg₂ (outS (A0 m c) (A1 m c) (A2 m c) (A3 m c) (A5 m c) (A4 m c) (A6 m c) (A8 m c) (A7 m c) Z) (Fin.ext ?_) (Fin.ext ?_)
  · show 1024 * t.val + r.val = win0_13.index t (0 : Fin 2) * 1024 + 1 * r.val
    omega
  · show q.val = win0_13.index t (1 : Fin 2) * 256 + 1 * q.val
    omega

theorem mem_blk13 (t : Fin cfg0.N) (i : S8192x256.Idx) :
    i ∈ ((cfg0.win 13).blk t).view.set ↔ ∀ a : Fin 2, win0_13.index t a * S1024x256.size a ≤ (i a).val ∧ (i a).val < win0_13.index t a * S1024x256.size a + S1024x256.size a := by
  show i ∈ ((View.whole main_v14_0).slice (win0_13.rect t)).set ↔ _
  rw [View.set_slice_whole, Rect.mem_set_unit]
  exact Iff.rfl

/-- The strips' blocks cover the surface-side output array. -/
theorem cover13 (i : S8192x256.Idx) : ∃ t : Fin cfg0.N, (cfg0.win 13).flush t = true ∧ i ∈ ((cfg0.win 13).blk t).view.set := by
  have hi0 : (i 0).val < 8192 := (i 0).isLt
  have hi1 : (i 1).val < 256 := (i 1).isLt
  have hN : cfg0.N = 8 := N_0
  refine ⟨⟨(i 0).val / 1024, by omega⟩, flush0_13 _, ?_⟩
  rw [mem_blk13]
  obtain ⟨-, -, -, -, e0, e1, -⟩ := idx_strip ⟨(i 0).val / 1024, by omega⟩
  intro a
  match a with
  | ⟨0, _⟩ =>
    show win0_13.index _ (0 : Fin 2) * 1024 ≤ (i 0).val ∧ (i 0).val < win0_13.index _ (0 : Fin 2) * 1024 + 1024
    rw [e0]
    show (i 0).val / 1024 * 1024 ≤ (i 0).val ∧ (i 0).val < (i 0).val / 1024 * 1024 + 1024
    omega
  | ⟨1, _⟩ =>
    show win0_13.index _ (1 : Fin 2) * 256 ≤ (i 1).val ∧ (i 1).val < win0_13.index _ (1 : Fin 2) * 256 + 256
    rw [e1]
    omega

/-- The surface-side output array after the run. -/
theorem final13 (c : Dev nD) : (dats m 0 c).arrAt 13 cfg0.N = GS m c :=
  (dats m 0 c).arrAt_eq_of_cover 13 (GS m c) (fun t _ => flushed13 m c t) cover13

/-- The graph-side output is written back at the last point only, whole. -/
theorem flushed14 (c : Dev nD) (t : Fin cfg0.N) (hf : (cfg0.win 14).flush t = true) :
    (dats m 0 c).flushed 14 t = ((cfg0.win 14).blk t).view.read (Elt Ideal) (GG m c) := by
  show (cfg0.win 14).cut (grid0.coords t) ((dats m 0 c).after 14 t) = _
  rw [after14]
  funext y
  obtain ⟨J, q, rfl⟩ : ∃ (J : Fin 4096) (q : Fin 256), y = ix2 J q := ⟨y 0, y 1, eq_ix2 y⟩
  have ht8 : t.val < 8 := lt_of_lt_of_eq t.isLt N_0
  have h7 : t.val = 7 := by have := (flush0_14 t).mp hf; omega
  show (stateAt m c t.val t.isLt).xg (ix2 J q) = GG m c (((cfg0.win 14).blk t).view.emb (ix2 J q))
  rw [(inv m c t.val t.isLt ht8).xg h7 J q]
  unfold GG
  obtain ⟨-, -, -, -, -, -, e0, e1⟩ := idx_strip t
  refine congrArg₂ (outG (A0 m c) (A1 m c) (A2 m c) (A3 m c) (A5 m c) (A4 m c) (A6 m c) (A10 m c) (A9 m c) Z) (Fin.ext ?_) (Fin.ext ?_)
  · show J.val = win0_14.index t (0 : Fin 2) * 4096 + 1 * J.val
    omega
  · show q.val = win0_14.index t (1 : Fin 2) * 256 + 1 * q.val
    omega

theorem mem_blk14 (t : Fin cfg0.N) (i : S4096x256.Idx) :
    i ∈ ((cfg0.win 14).blk t).view.set ↔ ∀ a : Fin 2, win0_14.index t a * S4096x256.size a ≤ (i a).val ∧ (i a).val < win0_14.index t a * S4096x256.size a + S4096x256.size a := by
  show i ∈ ((View.whole main_v14_1).slice (win0_14.rect t)).set ↔ _
  rw [View.set_slice_whole, Rect.mem_set_unit]
  exact Iff.rfl

theorem cover14 (i : S4096x256.Idx) : ∃ t : Fin cfg0.N, (cfg0.win 14).flush t = true ∧ i ∈ ((cfg0.win 14).blk t).view.set := by
  have hi0 : (i 0).val < 4096 := (i 0).isLt
  have hi1 : (i 1).val < 256 := (i 1).isLt
  have hN : cfg0.N = 8 := N_0
  refine ⟨⟨7, by omega⟩, (flush0_14 _).mpr rfl, ?_⟩
  rw [mem_blk14]
  obtain ⟨-, -, -, -, -, -, e0, e1⟩ := idx_strip ⟨7, by omega⟩
  intro a
  match a with
  | ⟨0, _⟩ =>
    show win0_14.index _ (0 : Fin 2) * 4096 ≤ (i 0).val ∧ (i 0).val < win0_14.index _ (0 : Fin 2) * 4096 + 4096
    rw [e0]
    omega
  | ⟨1, _⟩ =>
    show win0_14.index _ (1 : Fin 2) * 256 ≤ (i 1).val ∧ (i 1).val < win0_14.index _ (1 : Fin 2) * 256 + 256
    rw [e1]
    omega

/-- The graph-side output array after the run. -/
theorem final14 (c : Dev nD) : (dats m 0 c).arrAt 14 cfg0.N = GG m c :=
  (dats m 0 c).arrAt_eq_of_cover 14 (GG m c) (fun t hf => flushed14 m c t hf) cover14

/-- Every weakly fair execution of the idealized kernel terminates with its two results at `GS` and `GG` of the
    argument arrays, and the argument arrays unchanged. -/
theorem run : θ_run defs (onTc (τ := τ) (main (F := Ideal))) ⟨m, fun _ => 0, ρ⟩ (fun r => ∀ c : Dev nD,
      r.2.mem ((c.tc : Thread nD τ).loc main_v14_0) = GS m c
      ∧ r.2.mem ((c.tc : Thread nD τ).loc main_v14_1) = GG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 13).trans (final13 m c), ((h c).1 14).trans (final14 m c),
      ((h c).1 1).trans (((dats m 0 c).arrAt_in 1 rfl _).trans ((A_eq m c 1).trans (V_main_arg0 m c))),
      ((h c).1 2).trans (((dats m 0 c).arrAt_in 2 rfl _).trans ((A_eq m c 2).trans (V_main_arg1 m c))),
      ((h c).1 0).trans (((dats m 0 c).arrAt_in 0 rfl _).trans ((A_eq m c 0).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩)
    (run_main (F := Ideal) m ρ)

end Cert.KernelIdeal.Val

end
-- ==== Proof.Ref.lean ====
/-
  The reference, read at an index: both of its results are the block's mathematics in the one-layer arrangement — each
  post-layer a single 512-deep dense layer of the pre-layer joined with the message, plus the bias, then the maximum with
  zero; the message to the graph computed from the transposed weights.
-/
import proofs.«172826_g87900800680619_cont_9to1_m_379_30_alg».proof.Proof.Gen.ReferenceIdeal.Read
import proofs.«172826_g87900800680619_cont_9to1_m_379_30_alg».proof.Proof.Spec
import Idealize.ShloMosaic.Lib.Pipeline.Value
import Idealize.ShloMosaic.Lib.ValueIdx

set_option maxRecDepth 16384

noncomputable section

namespace Cert.ReferenceIdeal.RefVal

open Cert.ReferenceIdeal Cert.ReferenceIdeal.Gen Cert.ReferenceIdeal.Read Cert.Spec
open Idealize.ShloMosaic Idealize.ShloMosaic.ValueIdx

/-- The zero the reference's maxima are taken against. -/
abbrev Zr : EReal := FloatOps.ofBits (F := Ideal) .f32 0x00000000#32

variable (x0 : S8192x256.Idx → EReal) (x1 : S4096x256.Idx → EReal) (x2 : S8192x4096.Idx → EReal)
  (x3 x5 : S256x256.Idx → EReal) (x4 x6 x8 x10 : S256.Idx → EReal) (x7 x9 : S512x256.Idx → EReal)

/-- The surface-side pre-layer. -/
theorem v4_at (i : Fin 8192) (d : Fin 256) : val_main_v4 (F := Ideal) x0 x3 x4 (ix2 i d) = xsPre x0 x3 x4 Zr i d := by
  rw [val_main_v4_apply, val_main_v3_apply, val_main_v0_apply, val_main_v2_apply, val_main_v1_apply,
    val_main_call0_v0_apply, val_main_call0_cst_apply]
  have e1 : ∀ k : Fin 256, lidx_main_v0 (ix2 i d) k = ix2 i k := fun k => funext fun a => by
    match a with | ⟨0, _⟩ => rfl | ⟨1, _⟩ => rfl
  have e2 : ∀ k : Fin 256, ridx_main_v0 (ix2 i d) k = ix2 k d := fun k => funext fun a => by
    match a with | ⟨0, _⟩ => rfl | ⟨1, _⟩ => rfl
  have e3 : idx_main_v1 (idx_main_v2 (ix2 i d)) = ix1 d := funext fun a => by
    match a with | ⟨0, _⟩ => rfl
  simp only [e1, e2, e3]
  rfl

/-- The graph-side pre-layer. -/
theorem v9_at (j : Fin 4096) (d : Fin 256) : val_main_v9 (F := Ideal) x1 x5 x6 (ix2 j d) = xgPre x1 x5 x6 Zr j d := by
  rw [val_main_v9_apply, val_main_v8_apply, val_main_v5_apply, val_main_v7_apply, val_main_v6_apply,
    val_main_call1_v0_apply, val_main_call1_cst_apply]
  have e1 : ∀ k : Fin 256, lidx_main_v5 (ix2 j d) k = ix2 j k := fun k => funext fun a => by
    match a with | ⟨0, _⟩ => rfl | ⟨1, _⟩ => rfl
  have e2 : ∀ k : Fin 256, ridx_main_v5 (ix2 j d) k = ix2 k d := fun k => funext fun a => by
    match a with | ⟨0, _⟩ => rfl | ⟨1, _⟩ => rfl
  have e3 : idx_main_v6 (idx_main_v7 (ix2 j d)) = ix1 d := funext fun a => by
    match a with | ⟨0, _⟩ => rfl
  simp only [e1, e2, e3]
  rfl

/-- The message a surface row receives. -/
theorem v10_at (i : Fin 8192) (d : Fin 256) : val_main_v10 (F := Ideal) x1 x2 x5 x6 (ix2 i d) = msgS x1 x2 x5 x6 Zr i d := by
  rw [val_main_v10_apply]
  unfold msgS
  refine Finset.sum_congr rfl fun k _ => ?_
  have e1 : lidx_main_v10 (ix2 i d) k = ix2 i k := funext fun a => by
    match a with | ⟨0, _⟩ => rfl | ⟨1, _⟩ => rfl
  have e2 : ridx_main_v10 (ix2 i d) k = ix2 k d := funext fun a => by
    match a with | ⟨0, _⟩ => rfl | ⟨1, _⟩ => rfl
  rw [e1, e2, v9_at]

/-- The message a graph row receives: the weights transposed, times the surface-side pre-layer. -/
theorem v12_at (j : Fin 4096) (d : Fin 256) : val_main_v12 (F := Ideal) x0 x2 x3 x4 (ix2 j d) = msgG x0 x2 x3 x4 Zr j d := by
  rw [val_main_v12_apply]
  unfold msgG
  refine Finset.sum_congr rfl fun k _ => ?_
  rw [val_main_v11_apply]
  have e1 : idx_main_v11 (lidx_main_v12 (ix2 j d) k) = ix2 k j := funext fun a => by
    match a with | ⟨0, _⟩ => rfl | ⟨1, _⟩ => rfl
  have e2 : ridx_main_v12 (ix2 j d) k = ix2 k d := funext fun a => by
    match a with | ⟨0, _⟩ => rfl | ⟨1, _⟩ => rfl
  rw [e1, e2, v4_at]

/-- The surface-side pre-layer joined with its message along the lanes. -/
theorem v13_at (i : Fin 8192) (k : Fin 512) :
    val_main_v13 (F := Ideal) x0 x1 x2 x3 x4 x5 x6 (ix2 i k) = catS x0 x1 x2 x3 x5 x4 x6 Zr i k := by
  unfold val_main_v13 catS
  by_cases h : k.val < 256
  · rw [dif_pos h]
    rw [concatenate_pair_apply_left 1 _ _ concatenates_S8192x256_S8192x256_S8192x512_d1 (ix2 i k) rfl (ix2 i ⟨k.val, h⟩) (fun b => by
      match b with | ⟨0, _⟩ => rfl | ⟨1, _⟩ => rfl)]
    exact v4_at x0 x3 x4 i ⟨k.val, h⟩
  · rw [dif_neg h]
    rw [concatenate_pair_apply_right 1 _ _ concatenates_S8192x256_S8192x256_S8192x512_d1 (ix2 i k) rfl rfl
      (ix2 i ⟨k.val - 256, by have := k.isLt; omega⟩) (fun b hb => by
        match b with
        | ⟨0, _⟩ => rfl
        | ⟨1, _⟩ => exact absurd rfl hb) (by show k.val - 256 + 256 = k.val; omega)]
    exact v10_at x1 x2 x5 x6 i _

/-- The graph-side pre-layer joined with its message along the lanes. -/
theorem v19_at (j : Fin 4096) (k : Fin 512) :
    val_main_v19 (F := Ideal) x0 x1 x2 x3 x4 x5 x6 (ix2 j k) = catG x0 x1 x2 x3 x5 x4 x6 Zr j k := by
  unfold val_main_v19 catG
  by_cases h : k.val < 256
  · rw [dif_pos h]
    rw [concatenate_pair_apply_left 1 _ _ concatenates_S4096x256_S4096x256_S4096x512_d1 (ix2 j k) rfl (ix2 j ⟨k.val, h⟩) (fun b => by
      match b with | ⟨0, _⟩ => rfl | ⟨1, _⟩ => rfl)]
    exact v9_at x1 x5 x6 j ⟨k.val, h⟩
  · rw [dif_neg h]
    rw [concatenate_pair_apply_right 1 _ _ concatenates_S4096x256_S4096x256_S4096x512_d1 (ix2 j k) rfl rfl
      (ix2 j ⟨k.val - 256, by have := k.isLt; omega⟩) (fun b hb => by
        match b with
        | ⟨0, _⟩ => rfl
        | ⟨1, _⟩ => exact absurd rfl hb) (by show k.val - 256 + 256 = k.val; omega)]
    exact v12_at x0 x2 x3 x4 j _

/-- The reference's first result is the surface-side output as one 512-deep layer. -/
theorem v18_eq : val_main_v18 (F := Ideal) x0 x1 x2 x3 x4 x5 x6 x7 x8
    = fun i => refS x0 x1 x2 x3 x5 x4 x6 x8 x7 Zr (i 0) (i 1) := by
  funext i
  obtain ⟨a, q, rfl⟩ : ∃ (a : Fin 8192) (q : Fin 256), i = ix2 a q := ⟨i 0, i 1, eq_ix2 i⟩
  rw [val_main_v18_apply, val_main_v17_apply, val_main_v14_apply, val_main_v16_apply, val_main_v15_apply,
    val_main_call2_v0_apply, val_main_call2_cst_apply]
  have e1 : ∀ k : Fin 512, lidx_main_v14 (ix2 a q) k = ix2 a k := fun k => funext fun b => by
    match b with | ⟨0, _⟩ => rfl | ⟨1, _⟩ => rfl
  have e2 : ∀ k : Fin 512, ridx_main_v14 (ix2 a q) k = ix2 k q := fun k => funext fun b => by
    match b with | ⟨0, _⟩ => rfl | ⟨1, _⟩ => rfl
  have e3 : idx_main_v15 (idx_main_v16 (ix2 a q)) = ix1 q := funext fun b => by
    match b with | ⟨0, _⟩ => rfl
  simp only [e1, e2, e3, v13_at]
  rfl

/-- The reference's second result is the graph-side output as one 512-deep layer. -/
theorem v24_eq : val_main_v24 (F := Ideal) x0 x1 x2 x3 x4 x5 x6 x9 x10
    = fun i => refG x0 x1 x2 x3 x5 x4 x6 x10 x9 Zr (i 0) (i 1) := by
  funext i
  obtain ⟨a, q, rfl⟩ : ∃ (a : Fin 4096) (q : Fin 256), i = ix2 a q := ⟨i 0, i 1, eq_ix2 i⟩
  rw [val_main_v24_apply, val_main_v23_apply, val_main_v20_apply, val_main_v22_apply, val_main_v21_apply,
    val_main_call3_v0_apply, val_main_call3_cst_apply]
  have e1 : ∀ k : Fin 512, lidx_main_v20 (ix2 a q) k = ix2 a k := fun k => funext fun b => by
    match b with | ⟨0, _⟩ => rfl | ⟨1, _⟩ => rfl
  have e2 : ∀ k : Fin 512, ridx_main_v20 (ix2 a q) k = ix2 k q := fun k => funext fun b => by
    match b with | ⟨0, _⟩ => rfl | ⟨1, _⟩ => rfl
  have e3 : idx_main_v21 (idx_main_v22 (ix2 a q)) = ix1 q := funext fun b => by
    match b with | ⟨0, _⟩ => rfl
  simp only [e1, e2, e3, v19_at]
  rfl

end Cert.ReferenceIdeal.RefVal

end
-- ==== Proof.lean ====
/-
  The certificate of the fused surface–graph message-passing block against its reference.

  The block, over the extended reals: two pre-layers  xsPre = max(sx·Wsp + bsp, 0)  and  xgPre = max(gx·Wgp + bgp, 0);
  the messages  rbf·xgPre  (to the 8192 surface rows) and  rbfᵀ·xsPre  (to the 4096 graph rows); and two post-layers,
  each a 512-deep dense layer of a pre-layer joined with its message, plus a bias, then the maximum with zero.

  The kernel computes it in one pass over eight strips of 1024 surface rows. At the first strip it computes the graph-side
  pre-layer and the bias-carrying half of the graph-side post-layer into buffers that stay resident; at every strip it
  computes the strip's surface-side pre-layer, the strip's rows of the surface-side output (its post-layer as the sum of
  two 256-deep products), and adds the strip's term of the TRANSPOSED message to the graph into a resident accumulator;
  after the last strip it finishes the graph-side output from the accumulator. The reference computes each post-layer as
  one 512-deep product of the joined arrays and the message to the graph from the transposed weights.

  The two agree entry by entry: a 512-deep sum is the sum of its halves; the accumulator after the last strip is the sum
  over all 8192 surface rows, taken strip by strip; the factors of each product may be swapped and the bias added before
  or after the message half. Only commutativity and associativity of addition and commutativity of multiplication on the
  extended reals are used, so the precondition (finite inputs) is never opened. Changes of number format are the identity
  at the ideal values.

  The three frames: the reference's is its run; the kernel's — at the word level and idealized, one text at two instances
  — runs the body at each point in its case (first, middle, last), carrying the three resident buffers' contents from
  point to point; at the first point the accumulator's old contents are read but the stored value is selected not to
  depend on them.
-/
import proofs.«172826_g87900800680619_cont_9to1_m_379_30_alg».proof.Defs
import proofs.«172826_g87900800680619_cont_9to1_m_379_30_alg».proof.Proof.Gen.Kernel
import proofs.«172826_g87900800680619_cont_9to1_m_379_30_alg».proof.Proof.Gen.KernelIdeal
import proofs.«172826_g87900800680619_cont_9to1_m_379_30_alg».proof.Proof.Gen.ReferenceIdeal
import proofs.«172826_g87900800680619_cont_9to1_m_379_30_alg».proof.Proof.Gen.Pre_finite_inputs
import proofs.«172826_g87900800680619_cont_9to1_m_379_30_alg».proof.Proof.Gen.ReferenceIdeal.Run
import proofs.«172826_g87900800680619_cont_9to1_m_379_30_alg».proof.Proof.Gen.ReferenceIdeal.Read
import proofs.«172826_g87900800680619_cont_9to1_m_379_30_alg».proof.Proof.Kernel.Frame
import proofs.«172826_g87900800680619_cont_9to1_m_379_30_alg».proof.Proof.KernelIdeal.Final
import proofs.«172826_g87900800680619_cont_9to1_m_379_30_alg».proof.Proof.Ref
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments unchanged. -/
theorem frame_k [Cert.Kernel.Facts] [Cert.Pre_finite_inputs.Facts] : Cert.frame_Kernel :=
  fun m ρ _ => Cert.Kernel.Body.frame (F := Bits) m ρ

/-- The idealized kernel runs and leaves its arguments unchanged. -/
theorem frame_ki [Cert.KernelIdeal.Facts] [Cert.Pre_finite_inputs.Facts] : Cert.frame_KernelIdeal :=
  fun m ρ _ => Cert.KernelIdeal.Body.frame (F := Ideal) m ρ

/-- The reference runs and leaves its arguments unchanged: its run, with the results dropped. -/
theorem frame_ri [Cert.ReferenceIdeal.Facts] [Cert.Pre_finite_inputs.Facts] : Cert.frame_ReferenceIdeal :=
  fun m ρ _ => (θ_run Cert.ReferenceIdeal.defs _ _).mono (fun _ h c => (h c).2.2)
    (Cert.ReferenceIdeal.Value.run (F := Ideal) m ρ)

/-- The idealization rewrote nothing. -/
theorem preserves : Cert.preserves_Kernel_KernelIdeal := trivial

/-- From memories agreeing on the arguments both idealized programs run and end with equal results: the kernel's arrays
    are the block's mathematics in the two-halves, strip-by-strip arrangement, the reference's in the one-layer
    arrangement, and the two arrangements are equal entry by entry. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Val.GS m c, fun c => Cert.KernelIdeal.Val.GG m c, Cert.KernelIdeal.Val.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10⟩ := hagree c
    refine (Cert.ReferenceIdeal.Read.val_main_v18_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))).trans ?_
    rw [Cert.ReferenceIdeal.RefVal.v18_eq, e0, e1, e2, e3, e4, e5, e6, e7, e8]
    funext i
    exact (Cert.Spec.outS_eq_refS _ _ _ _ _ _ _ _ _ _ (i 0) (i 1)).symm
  · obtain ⟨e0, e1, e2, e3, e4, e5, e6, e7, e8, e9, e10⟩ := hagree c
    refine (Cert.ReferenceIdeal.Read.val_main_v24_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))).trans ?_
    rw [Cert.ReferenceIdeal.RefVal.v24_eq, e0, e1, e2, e3, e4, e5, e6, e9, e10]
    funext i
    exact (Cert.Spec.outG_eq_refG _ _ _ _ _ _ _ _ _ _ (i 0) (i 1)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
